-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4x300 : Shape := ⟨3, ![50000, 4, 300]⟩
abbrev S2x250000 : Shape := ⟨2, ![2, 250000]⟩
abbrev S300x300 : Shape := ⟨2, ![300, 300]⟩
abbrev S300 : Shape := ⟨1, ![300]⟩
abbrev S_ : Shape := ⟨0, ![]⟩

class Facts : Prop where
  bcast_S_S50000x4x300 : S_.BroadcastsInDim S50000x4x300 (![] : Fin 0 → Fin S50000x4x300.rank)
  reducesTo_S50000x4x300_S_d0_1_2 : S50000x4x300.ReducesTo [0, 1, 2] S_
  h_S_ : 0 < S_.numel
  bcast_S_S300x300 : S_.BroadcastsInDim S300x300 (![] : Fin 0 → Fin S300x300.rank)
  reducesTo_S300x300_S_d0_1 : S300x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg5 : FVec F S300 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S300 .f32 := Host.absf main_arg5
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  main_v23

def fn {F : FTy → Type} [FloatOps F] (main_arg0 : FVec F S50000x4x300 .f32) (main_arg1 : IVec S2x250000 32) (main_arg2 : FVec F S300x300 .f32) (main_arg3 : FVec F S300 .f32) (main_arg4 : FVec F S300x300 .f32) (main_arg5 : FVec F S300 .f32) : IVec S_ 1 :=
  let main_v0 : FVec F S50000x4x300 .f32 := Host.absf main_arg0
  let main_cst : FVec F S_ .f32 := constant S_ .f32 0x7F800000#32
  let main_v1 : FVec F S50000x4x300 .f32 := broadcastInDim S50000x4x300 ![] bcast_S_S50000x4x300 main_cst
  let main_v2 : IVec S50000x4x300 1 := cmpf .olt main_v0 main_v1
  let main_c : IVec S_ 1 := constantI S_ 1 1#1
  let main_v3 : IVec S_ 1 := (fun x v => Host.reduce IntOp.andi x v reducesTo_S50000x4x300_S_d0_1_2 h_S_) main_v2 main_c
  let main_v4 : FVec F S300x300 .f32 := Host.absf main_arg2
  let main_cst_0 : FVec F S_ .f32 := constant S_ .f32 0x7F800000#32
  let main_v5 : FVec F S300x300 .f32 := broadcastInDim S300x300 ![] bcast_S_S300x300 main_cst_0
  let main_v6 : IVec S300x300 1 := cmpf .olt main_v4 main_v5
  let main_c_1 : IVec S_ 1 := constantI S_ 1 1#1
  let main_v7 : IVec S_ 1 := (fun x v => Host.reduce IntOp.andi x v reducesTo_S300x300_S_d0_1 h_S_) main_v6 main_c_1
  let main_v8 : IVec S_ 1 := andi main_v3 main_v7
  let main_v9 : FVec F S300 .f32 := Host.absf main_arg3
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300x300 .f32 := Host.absf main_arg4
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg5 main_v13 main_v16
-- ==== Kernel.lean ====
abbrev S50000x4x300 : Shape := ⟨3, ![50000, 4, 300]⟩
abbrev S2x250000 : Shape := ⟨2, ![2, 250000]⟩
abbrev S300x300 : Shape := ⟨2, ![300, 300]⟩
abbrev S300 : Shape := ⟨1, ![300]⟩
abbrev S1x250000 : Shape := ⟨2, ![1, 250000]⟩
abbrev S250000 : Shape := ⟨1, ![250000]⟩
abbrev S50000 : Shape := ⟨1, ![50000]⟩
abbrev S300000 : Shape := ⟨1, ![300000]⟩
abbrev S_ : Shape := ⟨0, ![]⟩
abbrev S300000x1 : Shape := ⟨2, ![300000, 1]⟩
abbrev S50000x1 : Shape := ⟨2, ![50000, 1]⟩
abbrev S1x300 : Shape := ⟨2, ![1, 300]⟩
abbrev S50000x300 : Shape := ⟨2, ![50000, 300]⟩
abbrev S1000x4x300 : Shape := ⟨3, ![1000, 4, 300]⟩
abbrev S1000x1 : Shape := ⟨2, ![1000, 1]⟩
abbrev S1000x300 : Shape := ⟨2, ![1000, 300]⟩
abbrev S300000x300 : Shape := ⟨2, ![300000, 300]⟩
abbrev S5000x300 : Shape := ⟨2, ![5000, 300]⟩
abbrev S5000x1 : Shape := ⟨2, ![5000, 1]⟩

abbrev nBuf : Space → Nat
  | .hbm => 66
  | .vmem => 28
  | .smem => 0
  | _ => 0

abbrev bufTy : (tb : Table) → Fin (tcTables nBuf tb) → BufTy
  | .hbm, ⟨0, _⟩ => ⟨S50000x4x300, .f32⟩
  | .hbm, ⟨1, _⟩ => ⟨S2x250000, .i32⟩
  | .hbm, ⟨2, _⟩ => ⟨S300x300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S1x250000, .i32⟩
  | .hbm, ⟨7, _⟩ => ⟨S250000, .i32⟩
  | .hbm, ⟨8, _⟩ => ⟨S1x250000, .i32⟩
  | .hbm, ⟨9, _⟩ => ⟨S250000, .i32⟩
  | .hbm, ⟨10, _⟩ => ⟨S50000, .i32⟩
  | .hbm, ⟨11, _⟩ => ⟨S300000, .i32⟩
  | .hbm, ⟨12, _⟩ => ⟨S300000, .i32⟩
  | .hbm, ⟨13, _⟩ => ⟨S_, .f32⟩
  | .hbm, ⟨14, _⟩ => ⟨S300000, .f32⟩
  | .hbm, ⟨15, _⟩ => ⟨S_, .f32⟩
  | .hbm, ⟨16, _⟩ => ⟨S50000, .f32⟩
  | .hbm, ⟨17, _⟩ => ⟨S300000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S300x300, .f32⟩
  | .hbm, ⟨31, _⟩ => ⟨S300x300, .bf16⟩
  | .hbm, ⟨32, _⟩ => ⟨S1x300, .f32⟩
  | .hbm, ⟨33, _⟩ => ⟨S300x300, .f32⟩
  | .hbm, ⟨34, _⟩ => ⟨S300x300, .bf16⟩
  | .hbm, ⟨35, _⟩ => ⟨S1x300, .f32⟩
  | .hbm, ⟨36, _⟩ => ⟨S50000x300, .f32⟩
  | .hbm, ⟨37, _⟩ => ⟨S_, .i32⟩
  | .hbm, ⟨38, _⟩ => ⟨S300000, .i32⟩
  | .hbm, ⟨39, _⟩ => ⟨S300000, .i1⟩
  | .hbm, ⟨40, _⟩ => ⟨S_, .i32⟩
  | .hbm, ⟨41, _⟩ => ⟨S300000, .i32⟩
  | .hbm, ⟨42, _⟩ => ⟨S300000, .i32⟩
  | .hbm, ⟨43, _⟩ => ⟨S300000, .i32⟩
  | .hbm, ⟨44, _⟩ => ⟨S300000x1, .i32⟩
  | .hbm, ⟨45, _⟩ => ⟨S300000x300, .f32⟩
  | .hbm, ⟨46, _⟩ => ⟨S_, .f32⟩
  | .hbm, ⟨47, _⟩ => ⟨S50000x300, .f32⟩
  | .hbm, ⟨48, _⟩ => ⟨S300000x1, .i32⟩
  | .hbm, ⟨49, _⟩ => ⟨S50000x300, .f32⟩
  | .hbm, ⟨50, _⟩ => ⟨S50000x300, .f32⟩
  | .hbm, ⟨51, _⟩ => ⟨S50000x300, .f32⟩
  | .hbm, ⟨52, _⟩ => ⟨S_, .i32⟩
  | .hbm, ⟨53, _⟩ => ⟨S300000, .i32⟩
  | .hbm, ⟨54, _⟩ => ⟨S300000, .i1⟩
  | .hbm, ⟨55, _⟩ => ⟨S_, .i32⟩
  | .hbm, ⟨56, _⟩ => ⟨S300000, .i32⟩
  | .hbm, ⟨57, _⟩ => ⟨S300000, .i32⟩
  | .hbm, ⟨58, _⟩ => ⟨S300000, .i32⟩
  | .hbm, ⟨59, _⟩ => ⟨S300000x1, .i32⟩
  | .hbm, ⟨60, _⟩ => ⟨S300000x300, .f32⟩
  | .hbm, ⟨61, _⟩ => ⟨S_, .f32⟩
  | .hbm, ⟨62, _⟩ => ⟨S50000x300, .f32⟩
  | .hbm, ⟨63, _⟩ => ⟨S300000x1, .i32⟩
  | .hbm, ⟨64, _⟩ => ⟨S50000x300, .f32⟩
  | .hbm, ⟨65, _⟩ => ⟨S50000x300, .f32⟩
  | .local _ .vmem, ⟨0, _⟩ => ⟨S1000x4x300, .f32⟩
  | .local _ .vmem, ⟨1, _⟩ => ⟨S1000x4x300, .f32⟩
  | .local _ .vmem, ⟨2, _⟩ => ⟨S300x300, .bf16⟩
  | .local _ .vmem, ⟨3, _⟩ => ⟨S1x300, .f32⟩
  | .local _ .vmem, ⟨4, _⟩ => ⟨S1000x1, .f32⟩
  | .local _ .vmem, ⟨5, _⟩ => ⟨S1000x1, .f32⟩
  | .local _ .vmem, ⟨6, _⟩ => ⟨S1000x300, .f32⟩
  | .local _ .vmem, ⟨7, _⟩ => ⟨S1000x300, .f32⟩
  | .local _ .vmem, ⟨8, _⟩ => ⟨S5000x300, .f32⟩
  | .local _ .vmem, ⟨9, _⟩ => ⟨S5000x300, .f32⟩
  | .local _ .vmem, ⟨10, _⟩ => ⟨S5000x1, .f32⟩
  | .local _ .vmem, ⟨11, _⟩ => ⟨S5000x1, .f32⟩
  | .local _ .vmem, ⟨12, _⟩ => ⟨S5000x300, .f32⟩
  | .local _ .vmem, ⟨13, _⟩ => ⟨S5000x300, .f32⟩
  | .local _ .vmem, ⟨14, _⟩ => ⟨S5000x300, .f32⟩
  | .local _ .vmem, ⟨15, _⟩ => ⟨S5000x300, .f32⟩
  | .local _ .vmem, ⟨16, _⟩ => ⟨S300x300, .bf16⟩
  | .local _ .vmem, ⟨17, _⟩ => ⟨S1x300, .f32⟩
  | .local _ .vmem, ⟨18, _⟩ => ⟨S5000x1, .f32⟩
  | .local _ .vmem, ⟨19, _⟩ => ⟨S5000x1, .f32⟩
  | .local _ .vmem, ⟨20, _⟩ => ⟨S5000x300, .f32⟩
  | .local _ .vmem, ⟨21, _⟩ => ⟨S5000x300, .f32⟩
  | .local _ .vmem, ⟨22, _⟩ => ⟨S5000x300, .f32⟩
  | .local _ .vmem, ⟨23, _⟩ => ⟨S5000x300, .f32⟩
  | .local _ .vmem, ⟨24, _⟩ => ⟨S5000x1, .f32⟩
  | .local _ .vmem, ⟨25, _⟩ => ⟨S5000x1, .f32⟩
  | .local _ .vmem, ⟨26, _⟩ => ⟨S5000x300, .f32⟩
  | .local _ .vmem, ⟨27, _⟩ => ⟨S5000x300, .f32⟩
  | _, _ => ⟨S50000x4x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x4x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x300 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S300x300 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x300 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x300 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  concatenates_S250000_S50000_S300000_d0 : Shape.Concatenates [S250000, S50000] S300000 0
  bcast_S_S300000 : S_.BroadcastsInDim S300000 (![] : Fin 0 → Fin S300000.rank)
  bcast_S_S50000 : S_.BroadcastsInDim S50000 (![] : Fin 0 → Fin S50000.rank)
  bcast_S300000_S300000x1_0 : S300000.BroadcastsInDim S300000x1 (![0] : Fin 1 → Fin S300000x1.rank)
  shapeCasts_S50000_S50000x1 : S50000.ShapeCasts S50000x1
  transposes_S300x300_S300x300_1_0 : S300x300.Transposes [1, 0] S300x300
  bitsLt_bf16_f32 : FTy.bits .bf16 < FTy.bits .f32
  shapeCasts_S300_S1x300 : S300.ShapeCasts S1x300
  inb_S1000x4x300_S1000x4x300_0_0_0 : ∀ a, (![0, 0, 0] : Fin 3 → Nat) a + S1000x4x300.size a ≤ S1000x4x300.size a
  h_S1000x4x300 : 0 < S1000x4x300.numel
  reduces_S1000x4x300_S1000x300 : S1000x4x300.Reduces [1] S1000x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S1000x300 : S1x300.Broadcasts S1000x300
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x300 : S1000x1.Broadcasts S1000x300
  inb_S1000x300_S1000x300_0_0 : ∀ a, (![0, 0] : Fin 2 → Nat) a + S1000x300.size a ≤ S1000x300.size a
  h_S1000x300 : 0 < S1000x300.numel
  bcast_S_S50000x300 : S_.BroadcastsInDim S50000x300 (![] : Fin 0 → Fin S50000x300.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x300_S5000x300_0_0 : ∀ a, (![0, 0] : Fin 2 → Nat) a + S5000x300.size a ≤ S5000x300.size a
  h_S5000x300 : 0 < S5000x300.numel
  shapeCasts_S5000x300_S5000x300 : S5000x300.ShapeCasts S5000x300
  broadcasts_S5000x1_S5000x300 : S5000x1.Broadcasts S5000x300
  broadcasts_S1x300_S5000x300 : S1x300.Broadcasts S5000x300
  scatter_S50000_S300000x1_S300000_n_0_0_1_wf : ScatterDims.WF S50000 S300000x1 S300000 [] [0] [0] 1
  dot_S1000x300_S300x300_S1000x300_1_0_0_1_n_n_wf : DotDims.WF S1000x300 S300x300 S1000x300 [1] [0] [0] [1] [] []
  gather_S50000x300_S300000x1_S300000x300_1_0_n_n_0_1_1300_wf : GatherDims.WF S50000x300 S300000x1 S300000x300 [1] [0] [] [0] [] 1 ![1, 300]
  scatter_S50000x300_S300000x1_S300000x300_1_0_0_1_wf : ScatterDims.WF S50000x300 S300000x1 S300000x300 [1] [0] [0] 1
  dot_S5000x300_S300x300_S5000x300_1_0_0_1_n_n_wf : DotDims.WF S5000x300 S300x300 S5000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x4x300.size a ≤ S50000x4x300.size a
  hwx0_0 : ∀ i : grid0.Coords, EltTy.bits .f32 = 32 ∨ (Rect.block (s := S50000x4x300) S1000x4x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x300.size a ≤ S300x300.size a
  hwx0_1 : ∀ i : grid0.Coords, EltTy.bits .bf16 = 32 ∨ (Rect.block (s := S300x300) S300x300.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S50000x1.size a
  hwx0_3 : ∀ i : grid0.Coords, EltTy.bits .f32 = 32 ∨ (Rect.block (s := S50000x1) S1000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x300.size a ≤ S50000x300.size a
  hwx0_4 : ∀ i : grid0.Coords, EltTy.bits .f32 = 32 ∨ (Rect.block (s := S50000x300) S1000x300.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x300.size a ≤ S50000x300.size a
  hwx1_0 : ∀ i : grid1.Coords, EltTy.bits .f32 = 32 ∨ (Rect.block (s := S50000x300) S5000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x300.size a ≤ S50000x300.size a
  hwx1_2 : ∀ i : grid1.Coords, EltTy.bits .f32 = 32 ∨ (Rect.block (s := S50000x300) S5000x300.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x300.size a ≤ S50000x300.size a
  hwx2_0 : ∀ i : grid2.Coords, EltTy.bits .f32 = 32 ∨ (Rect.block (s := S50000x300) S5000x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S300x300.size a ≤ S300x300.size a
  hwx2_1 : ∀ i : grid2.Coords, EltTy.bits .bf16 = 32 ∨ (Rect.block (s := S300x300) S300x300.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x300.size a ≤ S1x300.size a
  hwx2_2 : ∀ i : grid2.Coords, EltTy.bits .f32 = 32 ∨ (Rect.block (s := S1x300) S1x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x300.size a ≤ S50000x300.size a
  hwx2_4 : ∀ i : grid2.Coords, EltTy.bits .f32 = 32 ∨ (Rect.block (s := S50000x300) S5000x300.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x300.size a ≤ S50000x300.size a
  hwx3_0 : ∀ i : grid3.Coords, EltTy.bits .f32 = 32 ∨ (Rect.block (s := S50000x300) S5000x300.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x300.size a ≤ S50000x300.size a
  hwx3_2 : ∀ i : grid3.Coords, EltTy.bits .f32 = 32 ∨ (Rect.block (s := S50000x300) S5000x300.size (cc3_transform_2 i) (hinb3_2 i)).WholeWords (EltTy.packing .f32)

variable [Facts₀]

def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S1000x300_S300x300_S1000x300_1_0_0_1_n_n : DotDims S1000x300 S300x300 S1000x300 where
  lhsContracting := [1]
  rhsContracting := [0]
  lhsNonContracting := [0]
  rhsNonContracting := [1]
  lhsBatch := []
  rhsBatch := []
  wf := dot_S1000x300_S300x300_S1000x300_1_0_0_1_n_n_wf
def gather_S50000x300_S300000x1_S300000x300_1_0_n_n_0_1_1300 : GatherDims S50000x300 S300000x1 S300000x300 where
  offsetDims := [1]
  collapsedSliceDims := [0]
  operandBatchingDims := []
  startIndicesBatchingDims := []
  startIndexMap := [0]
  indexVectorDim := 1
  sliceSizes := ![1, 300]
  wf := gather_S50000x300_S300000x1_S300000x300_1_0_n_n_0_1_1300_wf
def scatter_S50000x300_S300000x1_S300000x300_1_0_0_1 : ScatterDims S50000x300 S300000x1 S300000x300 where
  updateWindowDims := [1]
  insertedWindowDims := [0]
  scatterDimsToOperandDims := [0]
  indexVectorDim := 1
  wf := scatter_S50000x300_S300000x1_S300000x300_1_0_0_1_wf
def dot_S5000x300_S300x300_S5000x300_1_0_0_1_n_n : DotDims S5000x300 S300x300 S5000x300 where
  lhsContracting := [1]
  rhsContracting := [0]
  lhsNonContracting := [0]
  rhsNonContracting := [1]
  lhsBatch := []
  rhsBatch := []
  wf := dot_S5000x300_S300x300_S5000x300_1_0_0_1_n_n_wf

abbrev win0_0 : Pipeline.Window sig grid0 :=
  Pipeline.Window.ofSpec (Memref.whole main_arg0) S1000x4x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S300x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1000x300.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v33) S5000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x300.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S5000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S300x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35) S5000x300.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v45) S5000x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v46) S5000x300.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x4x300 : Shape := ⟨3, ![50000, 4, 300]⟩
abbrev S2x250000 : Shape := ⟨2, ![2, 250000]⟩
abbrev S300x300 : Shape := ⟨2, ![300, 300]⟩
abbrev S300 : Shape := ⟨1, ![300]⟩
abbrev S1x250000 : Shape := ⟨2, ![1, 250000]⟩
abbrev S250000 : Shape := ⟨1, ![250000]⟩
abbrev S50000 : Shape := ⟨1, ![50000]⟩
abbrev S300000 : Shape := ⟨1, ![300000]⟩
abbrev S_ : Shape := ⟨0, ![]⟩
abbrev S300000x1 : Shape := ⟨2, ![300000, 1]⟩
abbrev S1x1x300 : Shape := ⟨3, ![1, 1, 300]⟩
abbrev S50000x300 : Shape := ⟨2, ![50000, 300]⟩
abbrev S50000x1 : Shape := ⟨2, ![50000, 1]⟩
abbrev S300000x300 : Shape := ⟨2, ![300000, 300]⟩
abbrev S1x300 : Shape := ⟨2, ![1, 300]⟩

abbrev nBuf : Space → Nat
  | .hbm => 82
  | .vmem => 0
  | .smem => 0
  | _ => 0

abbrev bufTy : (tb : Table) → Fin (tcTables nBuf tb) → BufTy
  | .hbm, ⟨0, _⟩ => ⟨S50000x4x300, .f32⟩
  | .hbm, ⟨1, _⟩ => ⟨S2x250000, .i32⟩
  | .hbm, ⟨2, _⟩ => ⟨S300x300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S1x250000, .i32⟩
  | .hbm, ⟨7, _⟩ => ⟨S250000, .i32⟩
  | .hbm, ⟨8, _⟩ => ⟨S1x250000, .i32⟩
  | .hbm, ⟨9, _⟩ => ⟨S250000, .i32⟩
  | .hbm, ⟨10, _⟩ => ⟨S50000, .i32⟩
  | .hbm, ⟨11, _⟩ => ⟨S300000, .i32⟩
  | .hbm, ⟨12, _⟩ => ⟨S300000, .i32⟩
  | .hbm, ⟨13, _⟩ => ⟨S_, .f32⟩
  | .hbm, ⟨14, _⟩ => ⟨S300000, .f32⟩
  | .hbm, ⟨15, _⟩ => ⟨S_, .f32⟩
  | .hbm, ⟨16, _⟩ => ⟨S50000, .f32⟩
  | .hbm, ⟨17, _⟩ => ⟨S300000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x4x300, .f32⟩
  | .hbm, ⟨23, _⟩ => ⟨S1x1x300, .f32⟩
  | .hbm, ⟨24, _⟩ => ⟨S50000x4x300, .f32⟩
  | .hbm, ⟨25, _⟩ => ⟨S50000x4x300, .f32⟩
  | .hbm, ⟨26, _⟩ => ⟨S_, .f32⟩
  | .hbm, ⟨27, _⟩ => ⟨S50000x300, .f32⟩
  | .hbm, ⟨28, _⟩ => ⟨S_, .f32⟩
  | .hbm, ⟨29, _⟩ => ⟨S50000x300, .f32⟩
  | .hbm, ⟨30, _⟩ => ⟨S50000x300, .f32⟩
  | .hbm, ⟨31, _⟩ => ⟨S50000x1, .f32⟩
  | .hbm, ⟨32, _⟩ => ⟨S50000x300, .f32⟩
  | .hbm, ⟨33, _⟩ => ⟨S50000x300, .f32⟩
  | .hbm, ⟨34, _⟩ => ⟨S_, .i32⟩
  | .hbm, ⟨35, _⟩ => ⟨S300000, .i32⟩
  | .hbm, ⟨36, _⟩ => ⟨S300000, .i1⟩
  | .hbm, ⟨37, _⟩ => ⟨S_, .i32⟩
  | .hbm, ⟨38, _⟩ => ⟨S300000, .i32⟩
  | .hbm, ⟨39, _⟩ => ⟨S300000, .i32⟩
  | .hbm, ⟨40, _⟩ => ⟨S300000, .i32⟩
  | .hbm, ⟨41, _⟩ => ⟨S300000x1, .i32⟩
  | .hbm, ⟨42, _⟩ => ⟨S300000x300, .f32⟩
  | .hbm, ⟨43, _⟩ => ⟨S50000x1, .f32⟩
  | .hbm, ⟨44, _⟩ => ⟨S_, .f32⟩
  | .hbm, ⟨45, _⟩ => ⟨S50000x300, .f32⟩
  | .hbm, ⟨46, _⟩ => ⟨S300000x1, .i32⟩
  | .hbm, ⟨47, _⟩ => ⟨S50000x300, .f32⟩
  | .hbm, ⟨48, _⟩ => ⟨S50000x300, .f32⟩
  | .hbm, ⟨49, _⟩ => ⟨S50000x300, .f32⟩
  | .hbm, ⟨50, _⟩ => ⟨S_, .f32⟩
  | .hbm, ⟨51, _⟩ => ⟨S_, .f32⟩
  | .hbm, ⟨52, _⟩ => ⟨S50000x300, .f32⟩
  | .hbm, ⟨53, _⟩ => ⟨S50000x300, .i1⟩
  | .hbm, ⟨54, _⟩ => ⟨S_, .f32⟩
  | .hbm, ⟨55, _⟩ => ⟨S50000x300, .f32⟩
  | .hbm, ⟨56, _⟩ => ⟨S50000x300, .f32⟩
  | .hbm, ⟨57, _⟩ => ⟨S50000x300, .f32⟩
  | .hbm, ⟨58, _⟩ => ⟨S300x300, .f32⟩
  | .hbm, ⟨59, _⟩ => ⟨S50000x300, .f32⟩
  | .hbm, ⟨60, _⟩ => ⟨S1x300, .f32⟩
  | .hbm, ⟨61, _⟩ => ⟨S50000x300, .f32⟩
  | .hbm, ⟨62, _⟩ => ⟨S50000x300, .f32⟩
  | .hbm, ⟨63, _⟩ => ⟨S50000x1, .f32⟩
  | .hbm, ⟨64, _⟩ => ⟨S50000x300, .f32⟩
  | .hbm, ⟨65, _⟩ => ⟨S50000x300, .f32⟩
  | .hbm, ⟨66, _⟩ => ⟨S_, .i32⟩
  | .hbm, ⟨67, _⟩ => ⟨S300000, .i32⟩
  | .hbm, ⟨68, _⟩ => ⟨S300000, .i1⟩
  | .hbm, ⟨69, _⟩ => ⟨S_, .i32⟩
  | .hbm, ⟨70, _⟩ => ⟨S300000, .i32⟩
  | .hbm, ⟨71, _⟩ => ⟨S300000, .i32⟩
  | .hbm, ⟨72, _⟩ => ⟨S300000, .i32⟩
  | .hbm, ⟨73, _⟩ => ⟨S300000x1, .i32⟩
  | .hbm, ⟨74, _⟩ => ⟨S300000x300, .f32⟩
  | .hbm, ⟨75, _⟩ => ⟨S50000x1, .f32⟩
  | .hbm, ⟨76, _⟩ => ⟨S_, .f32⟩
  | .hbm, ⟨77, _⟩ => ⟨S50000x300, .f32⟩
  | .hbm, ⟨78, _⟩ => ⟨S300000x1, .i32⟩
  | .hbm, ⟨79, _⟩ => ⟨S50000x300, .f32⟩
  | .hbm, ⟨80, _⟩ => ⟨S50000x300, .f32⟩
  | .hbm, ⟨81, _⟩ => ⟨S50000x300, .f32⟩
  | _, _ => ⟨S50000x4x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_7 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  concatenates_S250000_S50000_S300000_d0 : Shape.Concatenates [S250000, S50000] S300000 0
  bcast_S_S300000 : S_.BroadcastsInDim S300000 (![] : Fin 0 → Fin S300000.rank)
  bcast_S_S50000 : S_.BroadcastsInDim S50000 (![] : Fin 0 → Fin S50000.rank)
  bcast_S300000_S300000x1_0 : S300000.BroadcastsInDim S300000x1 (![0] : Fin 1 → Fin S300000x1.rank)
  bcast_S300_S1x1x300_2 : S300.BroadcastsInDim S1x1x300 (![2] : Fin 1 → Fin S1x1x300.rank)
  bcast_S1x1x300_S50000x4x300_0_1_2 : S1x1x300.BroadcastsInDim S50000x4x300 (![0, 1, 2] : Fin 3 → Fin S50000x4x300.rank)
  reducesTo_S50000x4x300_S50000x300_d1 : S50000x4x300.ReducesTo [1] S50000x300
  h_S_ : 0 < S_.numel
  bcast_S_S50000x300 : S_.BroadcastsInDim S50000x300 (![] : Fin 0 → Fin S50000x300.rank)
  bcast_S50000_S50000x1_0 : S50000.BroadcastsInDim S50000x1 (![0] : Fin 1 → Fin S50000x1.rank)
  bcast_S50000x1_S50000x300_0_1 : S50000x1.BroadcastsInDim S50000x300 (![0, 1] : Fin 2 → Fin S50000x300.rank)
  transposes_S300x300_S300x300_1_0 : S300x300.Transposes [1, 0] S300x300
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  scatter_S50000_S300000x1_S300000_n_0_0_1_wf : ScatterDims.WF S50000 S300000x1 S300000 [] [0] [0] 1
  dot_S50000x4x300_S300x300_S50000x4x300_2_1_01_0_n_n_wf : DotDims.WF S50000x4x300 S300x300 S50000x4x300 [2] [1] [0, 1] [0] [] []
  gather_S50000x300_S300000x1_S300000x300_1_0_n_n_0_1_1300_wf : GatherDims.WF S50000x300 S300000x1 S300000x300 [1] [0] [] [0] [] 1 ![1, 300]
  scatter_S50000x300_S300000x1_S300000x300_1_0_0_1_wf : ScatterDims.WF S50000x300 S300000x1 S300000x300 [1] [0] [0] 1
  dot_S50000x300_S300x300_S50000x300_1_0_0_1_n_n_wf : DotDims.WF S50000x300 S300x300 S50000x300 [1] [0] [0] [1] [] []

variable [Facts₀]

def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S50000x4x300_S300x300_S50000x4x300_2_1_01_0_n_n : DotDims S50000x4x300 S300x300 S50000x4x300 where
  lhsContracting := [2]
  rhsContracting := [1]
  lhsNonContracting := [0, 1]
  rhsNonContracting := [0]
  lhsBatch := []
  rhsBatch := []
  wf := dot_S50000x4x300_S300x300_S50000x4x300_2_1_01_0_n_n_wf
def gather_S50000x300_S300000x1_S300000x300_1_0_n_n_0_1_1300 : GatherDims S50000x300 S300000x1 S300000x300 where
  offsetDims := [1]
  collapsedSliceDims := [0]
  operandBatchingDims := []
  startIndicesBatchingDims := []
  startIndexMap := [0]
  indexVectorDim := 1
  sliceSizes := ![1, 300]
  wf := gather_S50000x300_S300000x1_S300000x300_1_0_n_n_0_1_1300_wf
def scatter_S50000x300_S300000x1_S300000x300_1_0_0_1 : ScatterDims S50000x300 S300000x1 S300000x300 where
  updateWindowDims := [1]
  insertedWindowDims := [0]
  scatterDimsToOperandDims := [0]
  indexVectorDim := 1
  wf := scatter_S50000x300_S300000x1_S300000x300_1_0_0_1_wf
def dot_S50000x300_S300x300_S50000x300_1_0_0_1_n_n : DotDims S50000x300 S300x300 S50000x300 where
  lhsContracting := [1]
  rhsContracting := [0]
  lhsNonContracting := [0]
  rhsNonContracting := [1]
  lhsBatch := []
  rhsBatch := []
  wf := dot_S50000x300_S300x300_S50000x300_1_0_0_1_n_n_wf

class Facts : Prop extends Facts₀ where

variable [Facts]
-- ==== Proof.KRun.lean ====
import proofs.«165257_j88897233092952_2_alg».proof.Proof.Gen.KernelIdeal.Frame

/-! # The two-layer graph convolution's kernel program: its run, with the result array named

The generated frame shows that every weakly fair execution of the kernel program ends with the six argument
arrays unchanged.  The same run also fixes the contents of every other unscoped buffer at the end: they are the
last boundary's contents `Gen.W9`, the fold of the host stretches and of the four regions' write-backs from the
launch memory.  Here that fact is kept for the result buffer `main_v46` (the output array of the last region),
beside the six argument conjuncts.  What `Gen.W9 … main_v46` is as a function of the arguments is read off the
fold in the sibling module on the boundary contents. -/

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of the kernel program terminates, nothing
    faulting; in every final state the result buffer holds the last boundary's contents and the six argument
    arrays are as launched. -/
theorem run_named : θ_run defs (onTc (τ := τ) (main (F := F))) ⟨m, fun _ => 0, ρ⟩ (fun r => ∀ c : Dev nD,
      r.2.mem ((c.tc : Thread nD τ).loc main_v46) = Gen.W9 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v46 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.KRun

end
-- ==== Proof.KWalk.lean ====
import proofs.«165257_j88897233092952_2_alg».proof.Proof.Gen.KernelIdeal.Frame

/-! # The kernel program's buffer contents at the region boundaries, read back

The kernel program of the two-layer graph convolution alternates host stretches with four tiled regions.  The
generated frame names the contents of every buffer at each boundary as a fold from the launch memory
(`Gen.W0 … Gen.W9`; `Gen.V3, V5, V6, V8` are the same contents as the regions find them).  This module reads the
fold at the buffers that matter:

* a buffer that a stretch or a region does not write keeps its contents across it, so the augmented index vectors
  (`main_v5`, `main_v6`), the degree scaling column (`main_v16`) and the weights and biases as the regions take them
  walk back to the boundary right after the stretch that wrote them;
* a region's output array holds what its write-backs leave (`Dat.arrAt … N`);
* a buffer a host stretch writes is that stretch's operations applied to the contents before it: the two
  neighbourhood sums (gather the rows at the source indices, add them up at the target indices) and the host
  prefix (index vectors with the self loops appended, the degree count, its inverse square root where positive,
  the transposed weights, the biases as rows). -/

set_option maxRecDepth 16384

noncomputable section

namespace Cert.KernelIdeal.KWalk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-- A buffer that no operation of a literal host stretch writes keeps its contents across the stretch: the
    stretch's result buffers are listed and each is told apart from the buffer by deciding the references. -/
local macro "kept_across" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The result and the last region's entry -/

/-- The result buffer is the last region's output array: it ends at what that region's write-backs leave. -/
theorem result_eq (c : Dev nD) :
    W9 m ρ c (Proc.devRef .tc main_v46) = (dat3 (V8 m ρ) c).arrAt 2 cfg3.N := W9_arr m ρ c 2

/-! ### The degree scaling column `main_v16`: written once, by the last host stretch before region 0, and an input
    window of all four regions (an input array is left as entered) -/

theorem W4_v16 (c : Dev nD) : W4 m ρ c (Proc.devRef .tc main_v16) = W3 m ρ c (Proc.devRef .tc main_v16) :=
  (W4_arr m ρ c 3).trans (((dat0 (V3 m ρ) c).arrAt_in 3 rfl _).trans (A_eq0 (V3 m ρ) c 3))
theorem W5_v16 (c : Dev nD) : W5 m ρ c (Proc.devRef .tc main_v16) = W3 m ρ c (Proc.devRef .tc main_v16) :=
  (show StableHlo.after hostOps1 (W4 m ρ c) (Proc.devRef .tc main_v16) = W4 m ρ c (Proc.devRef .tc main_v16) by
    kept_across hostOps1).trans (W4_v16 m ρ c)
theorem W6_v16 (c : Dev nD) : W6 m ρ c (Proc.devRef .tc main_v16) = W3 m ρ c (Proc.devRef .tc main_v16) :=
  ((W6_arr m ρ c 1).trans (((dat1 (V5 m ρ) c).arrAt_in 1 rfl _).trans (A_eq1 (V5 m ρ) c 1))).trans (W5_v16 m ρ c)
theorem W7_v16 (c : Dev nD) : W7 m ρ c (Proc.devRef .tc main_v16) = W3 m ρ c (Proc.devRef .tc main_v16) :=
  ((W7_arr m ρ c 3).trans (((dat2 (V6 m ρ) c).arrAt_in 3 rfl _).trans (A_eq2 (V6 m ρ) c 3))).trans (W6_v16 m ρ c)
theorem W8_v16 (c : Dev nD) : W8 m ρ c (Proc.devRef .tc main_v16) = W3 m ρ c (Proc.devRef .tc main_v16) :=
  (show StableHlo.after hostOps3 (W7 m ρ c) (Proc.devRef .tc main_v16) = W7 m ρ c (Proc.devRef .tc main_v16) by
    kept_across hostOps3).trans (W7_v16 m ρ c)

/-- Region 3 finds the degree scaling column as the host prefix left it. -/
theorem V8_v16 (c : Dev nD) : V8 m ρ c main_v16 = W3 m ρ c (Proc.devRef .tc main_v16) := W8_v16 m ρ c
/-- Region 2 finds the degree scaling column as the host prefix left it. -/
theorem V6_v16 (c : Dev nD) : V6 m ρ c main_v16 = W3 m ρ c (Proc.devRef .tc main_v16) := W6_v16 m ρ c
/-- Region 1 finds the degree scaling column as the host prefix left it. -/
theorem V5_v16 (c : Dev nD) : V5 m ρ c main_v16 = W3 m ρ c (Proc.devRef .tc main_v16) := W5_v16 m ρ c

/-! ### The augmented index vectors `main_v5` (sources) and `main_v6` (targets): written once, by the first host
    stretch; the later stretches only read them and no region has them as an array -/

theorem W2_v5 (c : Dev nD) : W2 m ρ c (Proc.devRef .tc main_v5) = W1 m ρ c (Proc.devRef .tc main_v5) := by
  show StableHlo.after hostOps0_1 (W1 m ρ c) (Proc.devRef .tc main_v5) = _
  kept_across hostOps0_1
theorem W3_v5 (c : Dev nD) : W3 m ρ c (Proc.devRef .tc main_v5) = W1 m ρ c (Proc.devRef .tc main_v5) :=
  (show StableHlo.after hostOps0_2 (W2 m ρ c) (Proc.devRef .tc main_v5) = W2 m ρ c (Proc.devRef .tc main_v5) by
    kept_across hostOps0_2).trans (W2_v5 m ρ c)
/-- The source indices as the first neighbourhood sum reads them. -/
theorem W4_v5 (c : Dev nD) : W4 m ρ c (Proc.devRef .tc main_v5) = W1 m ρ c (Proc.devRef .tc main_v5) :=
  (W4_of_ne m ρ c main_v5 (by decide)).trans (W3_v5 m ρ c)
theorem W5_v5 (c : Dev nD) : W5 m ρ c (Proc.devRef .tc main_v5) = W1 m ρ c (Proc.devRef .tc main_v5) :=
  (show StableHlo.after hostOps1 (W4 m ρ c) (Proc.devRef .tc main_v5) = W4 m ρ c (Proc.devRef .tc main_v5) by
    kept_across hostOps1).trans (W4_v5 m ρ c)
theorem W6_v5 (c : Dev nD) : W6 m ρ c (Proc.devRef .tc main_v5) = W1 m ρ c (Proc.devRef .tc main_v5) :=
  (W6_of_ne m ρ c main_v5 (by decide)).trans (W5_v5 m ρ c)
/-- The source indices as the second neighbourhood sum reads them. -/
theorem W7_v5 (c : Dev nD) : W7 m ρ c (Proc.devRef .tc main_v5) = W1 m ρ c (Proc.devRef .tc main_v5) :=
  (W7_of_ne m ρ c main_v5 (by decide)).trans (W6_v5 m ρ c)

theorem W2_v6 (c : Dev nD) : W2 m ρ c (Proc.devRef .tc main_v6) = W1 m ρ c (Proc.devRef .tc main_v6) := by
  show StableHlo.after hostOps0_1 (W1 m ρ c) (Proc.devRef .tc main_v6) = _
  kept_across hostOps0_1
theorem W3_v6 (c : Dev nD) : W3 m ρ c (Proc.devRef .tc main_v6) = W1 m ρ c (Proc.devRef .tc main_v6) :=
  (show StableHlo.after hostOps0_2 (W2 m ρ c) (Proc.devRef .tc main_v6) = W2 m ρ c (Proc.devRef .tc main_v6) by
    kept_across hostOps0_2).trans (W2_v6 m ρ c)
/-- The target indices as the first neighbourhood sum reads them. -/
theorem W4_v6 (c : Dev nD) : W4 m ρ c (Proc.devRef .tc main_v6) = W1 m ρ c (Proc.devRef .tc main_v6) :=
  (W4_of_ne m ρ c main_v6 (by decide)).trans (W3_v6 m ρ c)
theorem W5_v6 (c : Dev nD) : W5 m ρ c (Proc.devRef .tc main_v6) = W1 m ρ c (Proc.devRef .tc main_v6) :=
  (show StableHlo.after hostOps1 (W4 m ρ c) (Proc.devRef .tc main_v6) = W4 m ρ c (Proc.devRef .tc main_v6) by
    kept_across hostOps1).trans (W4_v6 m ρ c)
theorem W6_v6 (c : Dev nD) : W6 m ρ c (Proc.devRef .tc main_v6) = W1 m ρ c (Proc.devRef .tc main_v6) :=
  (W6_of_ne m ρ c main_v6 (by decide)).trans (W5_v6 m ρ c)
/-- The target indices as the second neighbourhood sum reads them. -/
theorem W7_v6 (c : Dev nD) : W7 m ρ c (Proc.devRef .tc main_v6) = W1 m ρ c (Proc.devRef .tc main_v6) :=
  (W7_of_ne m ρ c main_v6 (by decide)).trans (W6_v6 m ρ c)

/-! ### Region 3's data array `main_v45`: the second neighbourhood sum, of region 2's output -/

/-- Region 2's output array after region 2: what its write-backs leave. -/
theorem W7_v35 (c : Dev nD) :
    W7 m ρ c (Proc.devRef .tc main_v35) = (dat2 (V6 m ρ) c).arrAt 4 cfg2.N := W7_arr m ρ c 4

/-- The stretch before region 3 applied to the contents before it: the rows of `main_v35` gathered at the source
    indices (a negative index wrapped by the number of nodes first) and added up at the target indices, from zero. -/
theorem V8_v45 (c : Dev nD) :
    V8 m ρ c main_v45
      = Host.scatterAdd scatter_S50000x300_S300000x1_S300000x300_1_0_0_1
          (broadcastInDim S50000x300 ![] bcast_S_S50000x300 (constant S_ FTy.f32 0x00000000#32))
          (broadcastInDim S300000x1 ![0] bcast_S300000_S300000x1_0 (W7 m ρ c (Proc.devRef .tc main_v6)))
          (Host.gather gather_S50000x300_S300000x1_S300000x300_1_0_n_n_0_1_1300 (W7 m ρ c (Proc.devRef .tc main_v35))
            (broadcastInDim S300000x1 ![0] bcast_S300000_S300000x1_0
              (select
                (cmpi CmpIPredicate.slt (W7 m ρ c (Proc.devRef .tc main_v5))
                  (broadcastInDim S300000 ![] bcast_S_S300000 (constantI S_ 32 0#32)))
                (addi (W7 m ρ c (Proc.devRef .tc main_v5))
                  (broadcastInDim S300000 ![] bcast_S_S300000 (constantI S_ 32 50000#32)))
                (W7 m ρ c (Proc.devRef .tc main_v5))))) := by
  show StableHlo.after hostOps3 (W7 m ρ c) (Proc.devRef .tc main_v45) = _
  after_results

/-- The same with every operand read back: region 2's output array, and the index vectors of the first stretch. -/
theorem V8_v45_read (c : Dev nD) :
    V8 m ρ c main_v45
      = Host.scatterAdd scatter_S50000x300_S300000x1_S300000x300_1_0_0_1
          (broadcastInDim S50000x300 ![] bcast_S_S50000x300 (constant S_ FTy.f32 0x00000000#32))
          (broadcastInDim S300000x1 ![0] bcast_S300000_S300000x1_0 (W1 m ρ c (Proc.devRef .tc main_v6)))
          (Host.gather gather_S50000x300_S300000x1_S300000x300_1_0_n_n_0_1_1300 ((dat2 (V6 m ρ) c).arrAt 4 cfg2.N)
            (broadcastInDim S300000x1 ![0] bcast_S300000_S300000x1_0
              (select
                (cmpi CmpIPredicate.slt (W1 m ρ c (Proc.devRef .tc main_v5))
                  (broadcastInDim S300000 ![] bcast_S_S300000 (constantI S_ 32 0#32)))
                (addi (W1 m ρ c (Proc.devRef .tc main_v5))
                  (broadcastInDim S300000 ![] bcast_S_S300000 (constantI S_ 32 50000#32)))
                (W1 m ρ c (Proc.devRef .tc main_v5))))) := by
  rw [V8_v45, W7_v35, W7_v5, W7_v6]

/-! ## Region 2's entry -/

/-- Region 2's data array is region 1's output array: what region 1's write-backs leave. -/
theorem V6_v34 (c : Dev nD) : V6 m ρ c main_v34 = (dat1 (V5 m ρ) c).arrAt 2 cfg1.N := W6_arr m ρ c 2

/-- The second layer's weights as region 2 takes them: as the last stretch before region 0 left them. -/
theorem V6_v21 (c : Dev nD) : V6 m ρ c main_v21 = W3 m ρ c (Proc.devRef .tc main_v21) :=
  calc W6 m ρ c (Proc.devRef .tc main_v21)
    _ = W5 m ρ c (Proc.devRef .tc main_v21) := W6_of_ne m ρ c main_v21 (by decide)
    _ = W4 m ρ c (Proc.devRef .tc main_v21) := by
          show StableHlo.after hostOps1 (W4 m ρ c) (Proc.devRef .tc main_v21) = _
          kept_across hostOps1
    _ = W3 m ρ c (Proc.devRef .tc main_v21) := W4_of_ne m ρ c main_v21 (by decide)
/-- The second layer's bias row as region 2 takes it: as the last stretch before region 0 left it. -/
theorem V6_v22 (c : Dev nD) : V6 m ρ c main_v22 = W3 m ρ c (Proc.devRef .tc main_v22) :=
  calc W6 m ρ c (Proc.devRef .tc main_v22)
    _ = W5 m ρ c (Proc.devRef .tc main_v22) := W6_of_ne m ρ c main_v22 (by decide)
    _ = W4 m ρ c (Proc.devRef .tc main_v22) := by
          show StableHlo.after hostOps1 (W4 m ρ c) (Proc.devRef .tc main_v22) = _
          kept_across hostOps1
    _ = W3 m ρ c (Proc.devRef .tc main_v22) := W4_of_ne m ρ c main_v22 (by decide)

/-! ## Region 1's entry: its data array `main_v33` is the first neighbourhood sum, of region 0's output -/

/-- Region 0's output array after region 0: what its write-backs leave. -/
theorem W4_v23 (c : Dev nD) :
    W4 m ρ c (Proc.devRef .tc main_v23) = (dat0 (V3 m ρ) c).arrAt 4 cfg0.N := W4_arr m ρ c 4

/-- The stretch before region 1 applied to the contents before it: the rows of `main_v23` gathered at the source
    indices (a negative index wrapped by the number of nodes first) and added up at the target indices, from zero. -/
theorem V5_v33 (c : Dev nD) :
    V5 m ρ c main_v33
      = Host.scatterAdd scatter_S50000x300_S300000x1_S300000x300_1_0_0_1
          (broadcastInDim S50000x300 ![] bcast_S_S50000x300 (constant S_ FTy.f32 0x00000000#32))
          (broadcastInDim S300000x1 ![0] bcast_S300000_S300000x1_0 (W4 m ρ c (Proc.devRef .tc main_v6)))
          (Host.gather gather_S50000x300_S300000x1_S300000x300_1_0_n_n_0_1_1300 (W4 m ρ c (Proc.devRef .tc main_v23))
            (broadcastInDim S300000x1 ![0] bcast_S300000_S300000x1_0
              (select
                (cmpi CmpIPredicate.slt (W4 m ρ c (Proc.devRef .tc main_v5))
                  (broadcastInDim S300000 ![] bcast_S_S300000 (constantI S_ 32 0#32)))
                (addi (W4 m ρ c (Proc.devRef .tc main_v5))
                  (broadcastInDim S300000 ![] bcast_S_S300000 (constantI S_ 32 50000#32)))
                (W4 m ρ c (Proc.devRef .tc main_v5))))) := by
  show StableHlo.after hostOps1 (W4 m ρ c) (Proc.devRef .tc main_v33) = _
  after_results

/-- The same with every operand read back: region 0's output array, and the index vectors of the first stretch. -/
theorem V5_v33_read (c : Dev nD) :
    V5 m ρ c main_v33
      = Host.scatterAdd scatter_S50000x300_S300000x1_S300000x300_1_0_0_1
          (broadcastInDim S50000x300 ![] bcast_S_S50000x300 (constant S_ FTy.f32 0x00000000#32))
          (broadcastInDim S300000x1 ![0] bcast_S300000_S300000x1_0 (W1 m ρ c (Proc.devRef .tc main_v6)))
          (Host.gather gather_S50000x300_S300000x1_S300000x300_1_0_n_n_0_1_1300 ((dat0 (V3 m ρ) c).arrAt 4 cfg0.N)
            (broadcastInDim S300000x1 ![0] bcast_S300000_S300000x1_0
              (select
                (cmpi CmpIPredicate.slt (W1 m ρ c (Proc.devRef .tc main_v5))
                  (broadcastInDim S300000 ![] bcast_S_S300000 (constantI S_ 32 0#32)))
                (addi (W1 m ρ c (Proc.devRef .tc main_v5))
                  (broadcastInDim S300000 ![] bcast_S_S300000 (constantI S_ 32 50000#32)))
                (W1 m ρ c (Proc.devRef .tc main_v5))))) := by
  rw [V5_v33, W4_v23, W4_v5, W4_v6]

/-! ## The host prefix, as terms of the arguments -/

/-- The source index vector: row 0 of the edge list, then the node numbers (one self loop per node). -/
theorem W1_v5 (c : Dev nD) :
    W1 m ρ c (Proc.devRef .tc main_v5)
      = concatenate S300000 0
          [⟨S250000, shapeCast S250000
              (extractStridedSlice S1x250000 ![0, 0] (m ((c : Thread nD τ).loc main_arg1)) slices_S2x250000_S1x250000_0_0)
              shapeCasts_S1x250000_S250000⟩,
           ⟨S50000, iotaInDim S50000 32 0⟩]
          concatenates_S250000_S50000_S300000_d0 := by
  show StableHlo.after hostOps0 (W0 m ρ c) (Proc.devRef .tc main_v5) = _
  after_results
  rfl

/-- The target index vector: row 1 of the edge list, then the node numbers. -/
theorem W1_v6 (c : Dev nD) :
    W1 m ρ c (Proc.devRef .tc main_v6)
      = concatenate S300000 0
          [⟨S250000, shapeCast S250000
              (extractStridedSlice S1x250000 ![1, 0] (m ((c : Thread nD τ).loc main_arg1)) slices_S2x250000_S1x250000_1_0)
              shapeCasts_S1x250000_S250000⟩,
           ⟨S50000, iotaInDim S50000 32 0⟩]
          concatenates_S250000_S50000_S300000_d0 := by
  show StableHlo.after hostOps0 (W0 m ρ c) (Proc.devRef .tc main_v6) = _
  after_results
  rfl

/-- The degree count: a one added up at every source index, from zero. -/
theorem W1_v10 (c : Dev nD) :
    W1 m ρ c (Proc.devRef .tc main_v10)
      = Host.scatterAdd scatter_S50000_S300000x1_S300000_n_0_0_1
          (broadcastInDim S50000 ![] bcast_S_S50000 (constant S_ FTy.f32 0x00000000#32))
          (broadcastInDim S300000x1 ![0] bcast_S300000_S300000x1_0 (W1 m ρ c (Proc.devRef .tc main_v5)))
          (broadcastInDim S300000 ![] bcast_S_S300000 (constant S_ FTy.f32 0x3F800000#32)) := by
  rw [W1_v5]
  show StableHlo.after hostOps0 (W0 m ρ c) (Proc.devRef .tc main_v10) = _
  after_results
  rfl

/-! ### One stretch at a time, from ANY contents before it (so that reading a later stretch does not reopen the
    earlier ones) -/

theorem after_hostOps0_1_v15 (Wp : Valuation τ sig (Elt F)) :
    StableHlo.after hostOps0_1 Wp (Proc.devRef .tc main_v15)
      = select (Wp (Proc.devRef .tc main_v12)) (Wp (Proc.devRef .tc main_v14))
          (broadcastInDim S50000 ![] bcast_S_S50000 (id (Wp (Proc.devRef .tc main_cst_3)))) := by
  after_results
  rfl
theorem after_hostOps0_2_v16 (Wp : Valuation τ sig (Elt F)) :
    StableHlo.after hostOps0_2 Wp (Proc.devRef .tc main_v16)
      = shapeCast S50000x1 (Wp (Proc.devRef .tc main_v15)) shapeCasts_S50000_S50000x1 := by
  after_results
  rfl
theorem after_hostOps0_2_v18 (Wp : Valuation τ sig (Elt F)) :
    StableHlo.after hostOps0_2 Wp (Proc.devRef .tc main_v18)
      = truncf FTy.bf16 (transpose S300x300 [1, 0] (Wp (Proc.devRef .tc main_arg2)) transposes_S300x300_S300x300_1_0)
          bitsLt_bf16_f32 := by
  after_results
theorem after_hostOps0_2_v19 (Wp : Valuation τ sig (Elt F)) :
    StableHlo.after hostOps0_2 Wp (Proc.devRef .tc main_v19)
      = shapeCast S1x300 (Wp (Proc.devRef .tc main_arg3)) shapeCasts_S300_S1x300 := by
  after_results
  rfl
theorem after_hostOps0_2_v21 (Wp : Valuation τ sig (Elt F)) :
    StableHlo.after hostOps0_2 Wp (Proc.devRef .tc main_v21)
      = truncf FTy.bf16 (transpose S300x300 [1, 0] (Wp (Proc.devRef .tc main_arg4)) transposes_S300x300_S300x300_1_0)
          bitsLt_bf16_f32 := by
  after_results
theorem after_hostOps0_2_v22 (Wp : Valuation τ sig (Elt F)) :
    StableHlo.after hostOps0_2 Wp (Proc.devRef .tc main_v22)
      = shapeCast S1x300 (Wp (Proc.devRef .tc main_arg5)) shapeCasts_S300_S1x300 := by
  after_results
  rfl

/-! ### The arguments before the last stretch of the prefix: as launched -/

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := by
          show StableHlo.after hostOps0_1 (W1 m ρ c) (Proc.devRef .tc main_arg2) = _
          kept_across hostOps0_1
    _ = W0 m ρ c (Proc.devRef .tc main_arg2) := by
          show StableHlo.after hostOps0 (W0 m ρ c) (Proc.devRef .tc main_arg2) = _
          kept_across hostOps0
    _ = m ((c : Thread nD τ).loc main_arg2) := rfl
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := by
          show StableHlo.after hostOps0_1 (W1 m ρ c) (Proc.devRef .tc main_arg3) = _
          kept_across hostOps0_1
    _ = W0 m ρ c (Proc.devRef .tc main_arg3) := by
          show StableHlo.after hostOps0 (W0 m ρ c) (Proc.devRef .tc main_arg3) = _
          kept_across hostOps0
    _ = m ((c : Thread nD τ).loc main_arg3) := rfl
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by
          show StableHlo.after hostOps0_1 (W1 m ρ c) (Proc.devRef .tc main_arg4) = _
          kept_across hostOps0_1
    _ = W0 m ρ c (Proc.devRef .tc main_arg4) := by
          show StableHlo.after hostOps0 (W0 m ρ c) (Proc.devRef .tc main_arg4) = _
          kept_across hostOps0
    _ = m ((c : Thread nD τ).loc main_arg4) := rfl
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := by
          show StableHlo.after hostOps0_1 (W1 m ρ c) (Proc.devRef .tc main_arg5) = _
          kept_across hostOps0_1
    _ = W0 m ρ c (Proc.devRef .tc main_arg5) := by
          show StableHlo.after hostOps0 (W0 m ρ c) (Proc.devRef .tc main_arg5) = _
          kept_across hostOps0
    _ = m ((c : Thread nD τ).loc main_arg5) := rfl

/-! ### The degree scaling column -/

/-- Where the degree count is positive. -/
theorem W1_v12 (c : Dev nD) :
    W1 m ρ c (Proc.devRef .tc main_v12)
      = cmpf CmpFPredicate.ogt (W1 m ρ c (Proc.devRef .tc main_v10))
          (broadcastInDim S50000 ![] bcast_S_S50000 (constant S_ FTy.f32 0x00000000#32)) := by
  rw [W1_v10, W1_v5]
  show StableHlo.after hostOps0 (W0 m ρ c) (Proc.devRef .tc main_v12) = _
  after_results
  rfl
/-- The degree count to the power minus one half. -/
theorem W1_v14 (c : Dev nD) :
    W1 m ρ c (Proc.devRef .tc main_v14)
      = Host.powf (W1 m ρ c (Proc.devRef .tc main_v10))
          (broadcastInDim S50000 ![] bcast_S_S50000 (constant S_ FTy.f32 0xBF000000#32)) := by
  rw [W1_v10, W1_v5]
  show StableHlo.after hostOps0 (W0 m ρ c) (Proc.devRef .tc main_v14) = _
  after_results
  rfl
theorem W1_cst_3 (c : Dev nD) :
    W1 m ρ c (Proc.devRef .tc main_cst_3) = constant S_ FTy.f32 0x00000000#32 := by
  show StableHlo.after hostOps0 (W0 m ρ c) (Proc.devRef .tc main_cst_3) = _
  after_results

/-- The degree scaling column, from the degree count: its power minus one half where it is positive, zero
    elsewhere, as a column. -/
theorem W3_v16 (c : Dev nD) :
    W3 m ρ c (Proc.devRef .tc main_v16)
      = shapeCast S50000x1
          (select
            (cmpf CmpFPredicate.ogt (W1 m ρ c (Proc.devRef .tc main_v10))
              (broadcastInDim S50000 ![] bcast_S_S50000 (constant S_ FTy.f32 0x00000000#32)))
            (Host.powf (W1 m ρ c (Proc.devRef .tc main_v10))
              (broadcastInDim S50000 ![] bcast_S_S50000 (constant S_ FTy.f32 0xBF000000#32)))
            (broadcastInDim S50000 ![] bcast_S_S50000 (id (constant S_ FTy.f32 0x00000000#32))))
          shapeCasts_S50000_S50000x1 := by
  rw [← W1_v12, ← W1_v14, ← W1_cst_3 m ρ c]
  exact (after_hostOps0_2_v16 (W2 m ρ c)).trans (congrArg (shapeCast S50000x1 · shapeCasts_S50000_S50000x1)
    (after_hostOps0_1_v15 (W1 m ρ c)))

/-! ### Region 0's other inputs (and region 2's weights and bias row, which the same stretch writes) -/

theorem V3_arg0 (c : Dev nD) : V3 m ρ c main_arg0 = m ((c : Thread nD τ).loc main_arg0) :=
  calc W3 m ρ c (Proc.devRef .tc main_arg0)
    _ = W2 m ρ c (Proc.devRef .tc main_arg0) := by
          show StableHlo.after hostOps0_2 (W2 m ρ c) (Proc.devRef .tc main_arg0) = _
          kept_across hostOps0_2
    _ = W1 m ρ c (Proc.devRef .tc main_arg0) := by
          show StableHlo.after hostOps0_1 (W1 m ρ c) (Proc.devRef .tc main_arg0) = _
          kept_across hostOps0_1
    _ = W0 m ρ c (Proc.devRef .tc main_arg0) := by
          show StableHlo.after hostOps0 (W0 m ρ c) (Proc.devRef .tc main_arg0) = _
          kept_across hostOps0
    _ = m ((c : Thread nD τ).loc main_arg0) := rfl

/-- The first layer's weights as region 0 takes them: transposed, in the narrower float format. -/
theorem W3_v18 (c : Dev nD) :
    W3 m ρ c (Proc.devRef .tc main_v18)
      = truncf FTy.bf16 (transpose S300x300 [1, 0] (m ((c : Thread nD τ).loc main_arg2)) transposes_S300x300_S300x300_1_0)
          bitsLt_bf16_f32 :=
  (after_hostOps0_2_v18 (W2 m ρ c)).trans (by rw [W2_arg2])
/-- The first layer's bias as region 0 takes it: as a row. -/
theorem W3_v19 (c : Dev nD) :
    W3 m ρ c (Proc.devRef .tc main_v19)
      = shapeCast S1x300 (m ((c : Thread nD τ).loc main_arg3)) shapeCasts_S300_S1x300 :=
  (after_hostOps0_2_v19 (W2 m ρ c)).trans (by rw [W2_arg3])
/-- The second layer's weights as region 2 takes them: transposed, in the narrower float format. -/
theorem W3_v21 (c : Dev nD) :
    W3 m ρ c (Proc.devRef .tc main_v21)
      = truncf FTy.bf16 (transpose S300x300 [1, 0] (m ((c : Thread nD τ).loc main_arg4)) transposes_S300x300_S300x300_1_0)
          bitsLt_bf16_f32 :=
  (after_hostOps0_2_v21 (W2 m ρ c)).trans (by rw [W2_arg4])
/-- The second layer's bias as region 2 takes it: as a row. -/
theorem W3_v22 (c : Dev nD) :
    W3 m ρ c (Proc.devRef .tc main_v22)
      = shapeCast S1x300 (m ((c : Thread nD τ).loc main_arg5)) shapeCasts_S300_S1x300 :=
  (after_hostOps0_2_v22 (W2 m ρ c)).trans (by rw [W2_arg5])

/-! ## The regions' entries at the buffers of the prefix, read whole -/

/-- Region 0 finds the degree scaling column as the prefix computed it. -/
theorem V3_v16 (c : Dev nD) :
    V3 m ρ c main_v16
      = shapeCast S50000x1
          (select
            (cmpf CmpFPredicate.ogt (W1 m ρ c (Proc.devRef .tc main_v10))
              (broadcastInDim S50000 ![] bcast_S_S50000 (constant S_ FTy.f32 0x00000000#32)))
            (Host.powf (W1 m ρ c (Proc.devRef .tc main_v10))
              (broadcastInDim S50000 ![] bcast_S_S50000 (constant S_ FTy.f32 0xBF000000#32)))
            (broadcastInDim S50000 ![] bcast_S_S50000 (id (constant S_ FTy.f32 0x00000000#32))))
          shapeCasts_S50000_S50000x1 := W3_v16 m ρ c
theorem V3_v18 (c : Dev nD) :
    V3 m ρ c main_v18
      = truncf FTy.bf16 (transpose S300x300 [1, 0] (m ((c : Thread nD τ).loc main_arg2)) transposes_S300x300_S300x300_1_0)
          bitsLt_bf16_f32 := W3_v18 m ρ c
theorem V3_v19 (c : Dev nD) :
    V3 m ρ c main_v19 = shapeCast S1x300 (m ((c : Thread nD τ).loc main_arg3)) shapeCasts_S300_S1x300 := W3_v19 m ρ c
theorem V6_v21_read (c : Dev nD) :
    V6 m ρ c main_v21
      = truncf FTy.bf16 (transpose S300x300 [1, 0] (m ((c : Thread nD τ).loc main_arg4)) transposes_S300x300_S300x300_1_0)
          bitsLt_bf16_f32 := (V6_v21 m ρ c).trans (W3_v21 m ρ c)
theorem V6_v22_read (c : Dev nD) :
    V6 m ρ c main_v22 = shapeCast S1x300 (m ((c : Thread nD τ).loc main_arg5)) shapeCasts_S300_S1x300 :=
  (V6_v22 m ρ c).trans (W3_v22 m ρ c)

end Cert.KernelIdeal.KWalk

end
-- ==== Proof.Spec.lean ====
/-
  The four dense stages of a two-layer graph convolution, as whole-array functions on the extended reals.

  Every stage works row by row. A stage's value at row `n`, column `o` depends on row `n` of its row-indexed
  operands (the features, and the column vector `d` of inverse square roots of the degrees) and on the whole of the
  weight matrix and the bias row. The functions are stated for any number of rows `R`, so the same statement reads a
  block of rows and the whole array.

  * `lin1`  : `d n · (∑ k, ((∑ t, x n t k) / 4) · wt k o + b o)`, the mean over the pooled axis taken before the product;
  * `leaky` : `v = d n · a n o`, kept where `v > 0` and scaled by the slope elsewhere;
  * `lin2`  : `d n · (∑ k, h n k · wt k o + b o)`;
  * `scale` : `d n · a n o`.
-/
import Idealize.ShloMosaic.PureOps.Ideal.Laws
import Idealize.ShloMosaic.Lib.ValueIdx

noncomputable section

namespace Cert.Gcn

open Idealize.ShloMosaic Idealize.ShloMosaic.ValueIdx
open scoped BigOperators

variable {R : Nat}

/-- Row `n` of `a` scaled by `d n`. -/
def scaleAt (a : FVec Ideal ⟨2, ![R, 300]⟩ .f32) (d : FVec Ideal ⟨2, ![R, 1]⟩ .f32) (n : Fin R) (o : Fin 300) : Ideal .f32 :=
  d (ix2 n (0 : Fin 1)) * a (ix2 n o)

def scale (a : FVec Ideal ⟨2, ![R, 300]⟩ .f32) (d : FVec Ideal ⟨2, ![R, 1]⟩ .f32) : FVec Ideal ⟨2, ![R, 300]⟩ .f32 :=
  fun j => scaleAt a d (j 0) (j 1)

/-- The scaled entry, kept where it is above zero and multiplied by the slope elsewhere. -/
def leakyAt (a : FVec Ideal ⟨2, ![R, 300]⟩ .f32) (d : FVec Ideal ⟨2, ![R, 1]⟩ .f32) (n : Fin R) (o : Fin 300) : Ideal .f32 :=
  Scalar.select (FloatOps.cmpf .ogt (scaleAt a d n o) (Scalar.ofBits (F := Ideal) .f32 0x00000000#32)) (scaleAt a d n o)
    (Scalar.ofBits (F := Ideal) .f32 0x3C23D70A#32 * scaleAt a d n o)

def leaky (a : FVec Ideal ⟨2, ![R, 300]⟩ .f32) (d : FVec Ideal ⟨2, ![R, 1]⟩ .f32) : FVec Ideal ⟨2, ![R, 300]⟩ .f32 :=
  fun j => leakyAt a d (j 0) (j 1)

/-- A row of `h` through the weights, plus the bias, scaled by `d n`. -/
def lin2At (h : FVec Ideal ⟨2, ![R, 300]⟩ .f32) (wt : FVec Ideal ⟨2, ![300, 300]⟩ .bf16) (b : FVec Ideal ⟨2, ![1, 300]⟩ .f32)
    (d : FVec Ideal ⟨2, ![R, 1]⟩ .f32) (n : Fin R) (o : Fin 300) : Ideal .f32 :=
  d (ix2 n (0 : Fin 1)) * ((∑ k : Fin 300, h (ix2 n k) * wt (ix2 k o)) + b (ix2 (0 : Fin 1) o))

def lin2 (h : FVec Ideal ⟨2, ![R, 300]⟩ .f32) (wt : FVec Ideal ⟨2, ![300, 300]⟩ .bf16) (b : FVec Ideal ⟨2, ![1, 300]⟩ .f32)
    (d : FVec Ideal ⟨2, ![R, 1]⟩ .f32) : FVec Ideal ⟨2, ![R, 300]⟩ .f32 :=
  fun j => lin2At h wt b d (j 0) (j 1)

/-- The mean of a row's four pooled vectors through the weights, plus the bias, scaled by `d n`. -/
def lin1At (x : FVec Ideal ⟨3, ![R, 4, 300]⟩ .f32) (wt : FVec Ideal ⟨2, ![300, 300]⟩ .bf16) (b : FVec Ideal ⟨2, ![1, 300]⟩ .f32)
    (d : FVec Ideal ⟨2, ![R, 1]⟩ .f32) (n : Fin R) (o : Fin 300) : Ideal .f32 :=
  d (ix2 n (0 : Fin 1)) * ((∑ k : Fin 300, Ideal.div (∑ t : Fin 4, x (ix3 n t k)) (Scalar.ofBits (F := Ideal) .f32 0x40800000#32) * wt (ix2 k o))
    + b (ix2 (0 : Fin 1) o))

def lin1 (x : FVec Ideal ⟨3, ![R, 4, 300]⟩ .f32) (wt : FVec Ideal ⟨2, ![300, 300]⟩ .bf16) (b : FVec Ideal ⟨2, ![1, 300]⟩ .f32)
    (d : FVec Ideal ⟨2, ![R, 1]⟩ .f32) : FVec Ideal ⟨2, ![R, 300]⟩ .f32 :=
  fun j => lin1At x wt b d (j 0) (j 1)

theorem scale_ix2 (a : FVec Ideal ⟨2, ![R, 300]⟩ .f32) (d : FVec Ideal ⟨2, ![R, 1]⟩ .f32) (n : Fin R) (o : Fin 300) :
    scale a d (ix2 n o) = scaleAt a d n o := rfl
theorem leaky_ix2 (a : FVec Ideal ⟨2, ![R, 300]⟩ .f32) (d : FVec Ideal ⟨2, ![R, 1]⟩ .f32) (n : Fin R) (o : Fin 300) :
    leaky a d (ix2 n o) = leakyAt a d n o := rfl
theorem lin2_ix2 (h : FVec Ideal ⟨2, ![R, 300]⟩ .f32) (wt : FVec Ideal ⟨2, ![300, 300]⟩ .bf16) (b : FVec Ideal ⟨2, ![1, 300]⟩ .f32)
    (d : FVec Ideal ⟨2, ![R, 1]⟩ .f32) (n : Fin R) (o : Fin 300) : lin2 h wt b d (ix2 n o) = lin2At h wt b d n o := rfl
theorem lin1_ix2 (x : FVec Ideal ⟨3, ![R, 4, 300]⟩ .f32) (wt : FVec Ideal ⟨2, ![300, 300]⟩ .bf16) (b : FVec Ideal ⟨2, ![1, 300]⟩ .f32)
    (d : FVec Ideal ⟨2, ![R, 1]⟩ .f32) (n : Fin R) (o : Fin 300) : lin1 x wt b d (ix2 n o) = lin1At x wt b d n o := rfl

end Cert.Gcn

end
-- ==== Proof.LibColumn.lean ====
/-
  Column vectors kept as two-axis arrays, read at an index.

  A sum over the last axis with the axis kept leaves an `[a, 1]` array. These lemmas read the layout operations that
  handle such a column: the cast of a vector `[a]` to the column `[a, 1]`, the cast of the column to the row `[1, a]`
  (a transposition, since one extent is one), and the broadcast of the column along a new last axis `[a, b]`.
-/
import Idealize.ShloMosaic.Lib.ValueLayout
import Idealize.ShloMosaic.Lib.Pipeline.Value

namespace Idealize.ShloMosaic.ColumnLayout

open Idealize.ShloMosaic Idealize.ShloMosaic.ValueIdx

variable {α : Type} {a b : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, 0)`. -/
theorem shapeCast_a1_1a_apply (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` array broadcast to `[a, b]` reads, at `(p, c)`, the operand's one column at `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibPlainDot.lean ====
/-
  A plain matrix product at the ideal values, read at an index.

  For the dimension numbers `DotDims.plain M K N` (rows × contraction times contraction × columns, no batch
  axis) the element (r, c) of the product is `∑ k : Fin K, l (r, k) * r (k, c)` on the extended reals, both
  for the host's `dot_general` and for a `tpu.matmul` into the zero accumulator: no rounding, no order of
  summation and no tiling is left in either.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} {φ₁ φ₂ : FTy}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index is the sum over `k : Fin K` of row entry times column entry. -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col _ _)
  exact congrArg₂ (· * ·) (congrArg l el) (congrArg r er)

/-- The host's `dot_general` of plain dimension numbers, at an index. -/
theorem hostDot_apply (l : FVec Ideal ⟨2, ![M, K]⟩ φ₁) (r : FVec Ideal ⟨2, ![K, N]⟩ φ₂)
    (j : (⟨2, ![M, N]⟩ : Shape).Idx) :
    Host.dotGeneral (F := Ideal) (DotDims.plain M K N) none l r j = ∑ k : Fin K, l (ix2 (j 0) k) * r (ix2 k (j 1)) := by
  simp only [Host.dotGeneral]
  rw [Ideal.dotGeneral_apply]
  exact sum_contr l r j

/-- A `tpu.matmul` of plain dimension numbers into the zero accumulator, at an index. -/
theorem matmulZero_apply (l : FVec Ideal ⟨2, ![M, K]⟩ φ₁) (r : FVec Ideal ⟨2, ![K, N]⟩ φ₂)
    (j : (⟨2, ![M, N]⟩ : Shape).Idx) :
    matmul (F := Ideal) (DotDims.plain M K N) none l r (constant ⟨2, ![M, N]⟩ .f32 0x00000000#32) j
      = ∑ k : Fin K, l (ix2 (j 0) k) * r (ix2 k (j 1)) := by
  simp only [matmul]
  rw [Ideal.matmul_constant_zero_apply]
  exact sum_contr l r j

end Idealize.ShloMosaic.PlainDot

end
-- ==== Proof.Reg0.lean ====
/-
  The first linear stage: the mean of a row's four pooled vectors through the weight matrix, plus the bias row,
  scaled by that row's entry of the column vector. The weights and the bias are read whole at every grid point; the
  features and the column vector 1000 consecutive rows at a time. The fifty points' blocks tile the 50000 rows, so
  the array the stage leaves is `Cert.Gcn.lin1` of the four arrays it reads, whatever those hold.
-/
import proofs.«165257_j88897233092952_2_alg».proof.Proof.Gen.KernelIdeal.Frame
import proofs.«165257_j88897233092952_2_alg».proof.Proof.Spec
import proofs.«165257_j88897233092952_2_alg».proof.Proof.LibColumn
import proofs.«165257_j88897233092952_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The block's matrix product into the zero accumulator, at row `p` and column `q`: the sum over the contracted
    axis of left `(p, k)` times right `(k, q)`. -/
theorem mm (l : FVec Ideal S1000x300 .bf16) (r : FVec Ideal S300x300 .bf16) (p : Fin 1000) (q : Fin 300) :
    matmul (F := Ideal) dot_S1000x300_S300x300_S1000x300_1_0_0_1_n_n none l r (constant S1000x300 .f32 0x00000000#32) (ix2 p q)
      = ∑ k : Fin 300, l (ix2 p k) * r (ix2 k q) :=
  PlainDot.matmulZero_apply (M := 1000) (K := 300) (N := 300) l r (ix2 p q)

/-- The sum over the pooled axis of a block, at row `p` and channel `k`: the four pooled entries added. -/
theorem rowSum (v : FVec Ideal S1000x4x300 .f32) (h : S1000x4x300.Reduces [1] S1000x300) (hφ : FKind.Formats .f32)
    (hacc : (0x00000000#32 : BitVec 32) = FKind.add.neutral .f32 hφ) (p : Fin 1000) (k : Fin 300) :
    multiReduction .add [1] S1000x300 v 0x00000000#32 h hφ hacc (ix2 p k) = ∑ t : Fin 4, v (ix3 p t k) := by
  refine (Ideal.multiReduction_add_single v _ h hφ hacc (ix2 p k)).trans ?_
  exact Finset.sum_congr rfl fun t _ => congrArg v (funext fun a => Fin.ext (by
    match a with
    | ⟨0, _⟩ => rfl
    | ⟨1, _⟩ => rfl
    | ⟨2, _⟩ => rfl))

/-- The body's value at row `p`, column `q` of a block. -/
theorem pay (v0 : Vec Ideal S1000x4x300 .f32) (v5 : Vec Ideal S300x300 .bf16) (v8 : Vec Ideal S1x300 .f32) (v12 : Vec Ideal S1000x1 .f32)
    (p : Fin 1000) (q : Fin 300) : k0_pay1 v0 v5 v8 v12 (ix2 p q) = Cert.Gcn.lin1At v0 v5 v8 v12 p q := by
  unfold k0_pay1 Cert.Gcn.lin1At
  show broadcastTo S1000x300 (shapeCast S1000x1 v12 _) _ (ix2 p q)
      * (matmul (F := Ideal) dot_S1000x300_S300x300_S1000x300_1_0_0_1_n_n none
            (truncf .bf16 (divf (multiReduction .add [1] S1000x300 v0 0x00000000#32 _ _ _)
              (broadcast S1000x300 (Scalar.ofBits (F := Ideal) .f32 0x40800000#32))) _)
            (shapeCast S300x300 v5 _) (constant S1000x300 .f32 0x00000000#32) (ix2 p q)
        + broadcastTo S1000x300 (shapeCast S1x300 v8 _) _ (ix2 p q)) = _
  rw [ColumnLayout.broadcastTo_a1_ab_apply, broadcastTo_1b_ab_apply, mm, shapeCast_self, shapeCast_self, shapeCast_self]
  refine congrArg (fun s => v12 (ix2 p (0 : Fin 1)) * (s + v8 (ix2 (0 : Fin 1) q))) (Finset.sum_congr rfl fun k _ => ?_)
  exact congrArg (fun s : EReal => Ideal.div s (Scalar.ofBits (F := Ideal) .f32 0x40800000#32) * v5 (ix2 k q)) (rowSum v0 _ _ _ p k)

/-- The features and the column vector move with the output window (block `t` is rows `1000 t … 1000 t + 999`); the
    weights and the bias stay at their one block. -/
theorem idx_facts : ∀ t : Fin cfg0.N, win0_0.index t (0 : Fin 3) = win0_4.index t (0 : Fin 2)
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) ≤ 49 :=
  (by decide +kernel : ∀ t : Fin grid0.N, _)

theorem idx_onto : ∀ q0 : Fin 50, ∃ t : Fin cfg0.N, win0_4.index t = ![q0.val, 0] :=
  (by decide +kernel : ∀ q0 : Fin 50, ∃ t : Fin grid0.N, win0_4.index t = ![q0.val, 0])

/-- What point `t` writes back is block `t` of the stage's whole-array function. -/
theorem flushed_eq (c : Dev nD) (t : Fin cfg0.N) :
    (dat0 V c).flushed 4 t = ((cfg0.win 4).blk t).view.read (Elt Ideal)
      (Cert.Gcn.lin1 (V c main_arg0) (V c main_v18) (V c main_v19) (V c main_v16)) := by
  show (cfg0.win 4).cut (grid0.coords t) ((dat0 V c).after 4 t) = _
  rw [after0_4]
  unfold out0_4
  rw [View.canon_unit_zero hz2]
  simp only [View.ld_unit_zero (S := S1000x4x300) hz3, View.ld_unit_zero (S := S1000x1) hz2, View.ld_unit_zero (S := S300x300) hz2,
    View.ld_unit_zero (S := S1x300) hz2]
  obtain ⟨e0, e1, e2, e3, e4, e5, e6, e7, e8, e9, e10⟩ := idx_facts t
  funext y
  obtain ⟨p, q, rfl⟩ : ∃ (p : Fin 1000) (q : Fin 300), y = ix2 p q := ⟨y 0, y 1, eq_ix2 y⟩
  refine (pay _ _ _ _ p q).trans ?_
  have h3 : ((cfg0.win 3).blk t).view.emb (ix2 p (0 : Fin 1)) = ix2 ((((cfg0.win 4).blk t).view.emb (ix2 p q)) 0) (0 : Fin 1) := by
    funext a; apply Fin.ext
    match a with
    | ⟨0, _⟩ => show win0_3.index t (0 : Fin 2) * 1000 + 1 * p.val = win0_4.index t (0 : Fin 2) * 1000 + 1 * p.val; omega
    | ⟨1, _⟩ => show win0_3.index t (1 : Fin 2) * 1 + 1 * 0 = 0; omega
  have h0 : ∀ (tt : Fin 4) (k : Fin 300), ((cfg0.win 0).blk t).view.emb (ix3 p tt k) = ix3 ((((cfg0.win 4).blk t).view.emb (ix2 p q)) 0) tt k := by
    intro tt k; funext a; apply Fin.ext
    match a with
    | ⟨0, _⟩ => show win0_0.index t (0 : Fin 3) * 1000 + 1 * p.val = win0_4.index t (0 : Fin 2) * 1000 + 1 * p.val; omega
    | ⟨1, _⟩ => show win0_0.index t (1 : Fin 3) * 4 + 1 * tt.val = tt.val; omega
    | ⟨2, _⟩ => show win0_0.index t (2 : Fin 3) * 300 + 1 * k.val = k.val; omega
  have h1 : ∀ k : Fin 300, ((cfg0.win 1).blk t).view.emb (ix2 k q) = ix2 k ((((cfg0.win 4).blk t).view.emb (ix2 p q)) 1) := by
    intro k; funext a; apply Fin.ext
    match a with
    | ⟨0, _⟩ => show win0_1.index t (0 : Fin 2) * 300 + 1 * k.val = k.val; omega
    | ⟨1, _⟩ => show win0_1.index t (1 : Fin 2) * 300 + 1 * q.val = win0_4.index t (1 : Fin 2) * 300 + 1 * q.val; omega
  have h2 : ((cfg0.win 2).blk t).view.emb (ix2 (0 : Fin 1) q) = ix2 (0 : Fin 1) ((((cfg0.win 4).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 300 + 1 * q.val = win0_4.index t (1 : Fin 2) * 300 + 1 * q.val; omega
  have key : ∀ (D : S50000x1.Idx → EReal) (X : S50000x4x300.Idx → EReal) (WT : S300x300.Idx → EReal) (B : S1x300.Idx → EReal),
      D (((cfg0.win 3).blk t).view.emb (ix2 p (0 : Fin 1)))
          * ((∑ k : Fin 300, Ideal.div (∑ tt : Fin 4, X (((cfg0.win 0).blk t).view.emb (ix3 p tt k))) (Scalar.ofBits (F := Ideal) .f32 0x40800000#32)
                * WT (((cfg0.win 1).blk t).view.emb (ix2 k q)))
            + B (((cfg0.win 2).blk t).view.emb (ix2 (0 : Fin 1) q)))
        = D (ix2 ((((cfg0.win 4).blk t).view.emb (ix2 p q)) 0) (0 : Fin 1))
          * ((∑ k : Fin 300, Ideal.div (∑ tt : Fin 4, X (ix3 ((((cfg0.win 4).blk t).view.emb (ix2 p q)) 0) tt k)) (Scalar.ofBits (F := Ideal) .f32 0x40800000#32)
                * WT (ix2 k ((((cfg0.win 4).blk t).view.emb (ix2 p q)) 1)))
            + B (ix2 (0 : Fin 1) ((((cfg0.win 4).blk t).view.emb (ix2 p q)) 1))) := by
    intro D X WT B
    refine congrArg₂ (fun a b => a * b) (congrArg D h3) (congrArg₂ (fun a b => a + b) (Finset.sum_congr rfl fun k _ => ?_) (congrArg B h2))
    exact congrArg₂ (fun a b => a * b)
      (congrArg (fun s => Ideal.div s (Scalar.ofBits (F := Ideal) .f32 0x40800000#32)) (Finset.sum_congr rfl fun tt _ => congrArg X (h0 tt k)))
      (congrArg WT (h1 k))
  exact key (V c main_v16) (V c main_arg0) (V c main_v18) (V c main_v19)

/-- An index of the array lies in point `t`'s block iff each coordinate lies in the block's range on its axis. -/
theorem mem_blk (t : Fin cfg0.N) (i : S50000x300.Idx) :
    i ∈ ((cfg0.win 4).blk t).view.set ↔ ∀ a : Fin 2, win0_4.index t a * S1000x300.size a ≤ (i a).val ∧ (i a).val < win0_4.index t a * S1000x300.size a + S1000x300.size a := by
  show i ∈ ((View.whole main_v23).slice (win0_4.rect t)).set ↔ _
  rw [View.set_slice_whole, Rect.mem_set_unit]
  exact Iff.rfl

/-- Row `r` lies in the block of point `r / 1000`: the fifty blocks tile the array. -/
theorem cover (i : S50000x300.Idx) : ∃ t : Fin cfg0.N, (cfg0.win 4).flush t = true ∧ i ∈ ((cfg0.win 4).blk t).view.set := by
  have hi0 : (i 0).val < 50000 := (i 0).isLt
  have hi1 : (i 1).val < 300 := (i 1).isLt
  obtain ⟨t, ht⟩ := idx_onto ⟨(i 0).val / 1000, by omega⟩
  have q0 : win0_4.index t (0 : Fin 2) = (i 0).val / 1000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 300 ≤ (i 1).val ∧ (i 1).val < win0_4.index t (1 : Fin 2) * 300 + 300; omega

/-- The array the stage leaves. -/
theorem final (c : Dev nD) :
    (dat0 V c).arrAt 4 cfg0.N = Cert.Gcn.lin1 (V c main_arg0) (V c main_v18) (V c main_v19) (V c main_v16) :=
  (dat0 V c).arrAt_eq_of_cover 4 _ (fun t _ => flushed_eq V c t) (cover)

end Cert.KernelIdeal.Reg0

end
-- ==== Proof.Reg1.lean ====
/-
  The activation stage: every row of the aggregated array scaled by that row's entry of the column vector, then
  kept where the scaled entry is above zero and multiplied by the slope elsewhere.
  A grid point handles 5000 consecutive rows; the ten points' blocks tile the 50000 rows, so the array the
  stage leaves is `Cert.Gcn.leaky` of the two arrays it reads, whatever those hold.
-/
import proofs.«165257_j88897233092952_2_alg».proof.Proof.Gen.KernelIdeal.Frame
import proofs.«165257_j88897233092952_2_alg».proof.Proof.Spec
import proofs.«165257_j88897233092952_2_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Reg1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at row `p`, column `q` of a block: the scaled entry where it is above zero, the slope times it
    elsewhere. -/
theorem pay (x0 : Vec Ideal S5000x1 .f32) (x1 : Vec Ideal S5000x300 .f32) (p : Fin 5000) (q : Fin 300) :
    k1_pay1 x0 x1 (ix2 p q) = Cert.Gcn.leakyAt x1 x0 p q := by
  have hv : (mulf (broadcastTo S5000x300 (shapeCast S5000x1 x0 Facts₀.shapeCasts_S5000x1_S5000x1) Facts₀.broadcasts_S5000x1_S5000x300)
      (shapeCast S5000x300 x1 Facts₀.shapeCasts_S5000x300_S5000x300) : FVec Ideal S5000x300 .f32) (ix2 p q) = Cert.Gcn.scaleAt x1 x0 p q := by
    unfold Cert.Gcn.scaleAt
    show broadcastTo S5000x300 (shapeCast S5000x1 x0 _) _ (ix2 p q) * shapeCast S5000x300 x1 _ (ix2 p q) = _
    rw [ColumnLayout.broadcastTo_a1_ab_apply, shapeCast_self, shapeCast_self]
  unfold k1_pay1 Cert.Gcn.leakyAt
  show Scalar.select (FloatOps.cmpf .ogt
        ((mulf (broadcastTo S5000x300 (shapeCast S5000x1 x0 Facts₀.shapeCasts_S5000x1_S5000x1) Facts₀.broadcasts_S5000x1_S5000x300)
          (shapeCast S5000x300 x1 Facts₀.shapeCasts_S5000x300_S5000x300) : FVec Ideal S5000x300 .f32) (ix2 p q))
        (Scalar.ofBits (F := Ideal) .f32 0x00000000#32))
      ((mulf (broadcastTo S5000x300 (shapeCast S5000x1 x0 Facts₀.shapeCasts_S5000x1_S5000x1) Facts₀.broadcasts_S5000x1_S5000x300)
          (shapeCast S5000x300 x1 Facts₀.shapeCasts_S5000x300_S5000x300) : FVec Ideal S5000x300 .f32) (ix2 p q))
      (Scalar.ofBits (F := Ideal) .f32 0x3C23D70A#32 *
        (mulf (broadcastTo S5000x300 (shapeCast S5000x1 x0 Facts₀.shapeCasts_S5000x1_S5000x1) Facts₀.broadcasts_S5000x1_S5000x300)
          (shapeCast S5000x300 x1 Facts₀.shapeCasts_S5000x300_S5000x300) : FVec Ideal S5000x300 .f32) (ix2 p q)) = _
  rw [hv]

/-- Each input window moves with the output window: block `t` is rows `5000 t … 5000 t + 4999`, all columns. -/
theorem idx_facts : ∀ t : Fin cfg1.N, win1_0.index t (0 : Fin 2) = win1_2.index t (0 : Fin 2)
    ∧ win1_0.index t (1 : Fin 2) = 0 ∧ win1_1.index t (0 : Fin 2) = win1_2.index t (0 : Fin 2)
    ∧ win1_1.index t (1 : Fin 2) = 0 ∧ win1_2.index t (1 : Fin 2) = 0 ∧ win1_2.index t (0 : Fin 2) ≤ 9 :=
  (by decide +kernel : ∀ t : Fin grid1.N, _)

theorem idx_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the activated array. -/
theorem flushed_eq (c : Dev nD) (t : Fin cfg1.N) :
    (dat1 V c).flushed 2 t = ((cfg1.win 2).blk t).view.read (Elt Ideal) (Cert.Gcn.leaky (V c main_v33) (V c main_v16)) := by
  show (cfg1.win 2).cut (grid1.coords t) ((dat1 V c).after 2 t) = _
  rw [after1_2]
  unfold out1_2
  rw [View.canon_unit_zero hz]
  simp only [View.ld_unit_zero (S := S5000x300) hz, View.ld_unit_zero (S := S5000x1) hz]
  obtain ⟨e0, e1, e2, e3, e4, e5⟩ := idx_facts t
  funext y
  obtain ⟨p, q, rfl⟩ : ∃ (p : Fin 5000) (q : Fin 300), y = ix2 p q := ⟨y 0, y 1, eq_ix2 y⟩
  refine (pay _ _ p q).trans ?_
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 5000 + 1 * p.val = win1_2.index t (0 : Fin 2) * 5000 + 1 * p.val; omega
    | ⟨1, _⟩ => show win1_1.index t (1 : Fin 2) * 1 + 1 * 0 = 0; omega
  have h0 : ((cfg1.win 0).blk t).view.emb (ix2 p q) = ix2 ((((cfg1.win 2).blk t).view.emb (ix2 p q)) 0) ((((cfg1.win 2).blk t).view.emb (ix2 p q)) 1) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 300 + 1 * q.val = win1_2.index t (1 : Fin 2) * 300 + 1 * q.val; omega
  have key : ∀ (D : S50000x1.Idx → EReal) (A : S50000x300.Idx → EReal),
      D (((cfg1.win 1).blk t).view.emb (ix2 p (0 : Fin 1))) * A (((cfg1.win 0).blk t).view.emb (ix2 p q))
        = D (ix2 ((((cfg1.win 2).blk t).view.emb (ix2 p q)) 0) (0 : Fin 1))
          * A (ix2 ((((cfg1.win 2).blk t).view.emb (ix2 p q)) 0) ((((cfg1.win 2).blk t).view.emb (ix2 p q)) 1)) := by
    intro D A; exact congrArg₂ (fun a b => a * b) (congrArg D h1) (congrArg A h0)
  exact congrArg (fun v : EReal => Scalar.select (FloatOps.cmpf (F := Ideal) (φ := .f32) .ogt v (Scalar.ofBits (F := Ideal) .f32 0x00000000#32)) v
    (Scalar.ofBits (F := Ideal) .f32 0x3C23D70A#32 * v)) (key (V c main_v16) (V c main_v33))

/-- An index of the array lies in point `t`'s block iff each coordinate lies in the block's range on its axis. -/
theorem mem_blk (t : Fin cfg1.N) (i : S50000x300.Idx) :
    i ∈ ((cfg1.win 2).blk t).view.set ↔ ∀ a : Fin 2, win1_2.index t a * S5000x300.size a ≤ (i a).val ∧ (i a).val < win1_2.index t a * S5000x300.size a + S5000x300.size a := by
  show i ∈ ((View.whole main_v34).slice (win1_2.rect t)).set ↔ _
  rw [View.set_slice_whole, Rect.mem_set_unit]
  exact Iff.rfl

/-- Row `r` lies in the block of point `r / 5000`: the ten blocks tile the array. -/
theorem cover (i : S50000x300.Idx) : ∃ t : Fin cfg1.N, (cfg1.win 2).flush t = true ∧ i ∈ ((cfg1.win 2).blk t).view.set := by
  have hi0 : (i 0).val < 50000 := (i 0).isLt
  have hi1 : (i 1).val < 300 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 300 ≤ (i 1).val ∧ (i 1).val < win1_2.index t (1 : Fin 2) * 300 + 300; omega

/-- The array the stage leaves: the activation of its first array's rows scaled by the column vector in its second. -/
theorem final (c : Dev nD) : (dat1 V c).arrAt 2 cfg1.N = Cert.Gcn.leaky (V c main_v33) (V c main_v16) :=
  (dat1 V c).arrAt_eq_of_cover 2 _ (fun t _ => flushed_eq V c t) (cover)

end Cert.KernelIdeal.Reg1

end
-- ==== Proof.Reg2.lean ====
/-
  The second linear stage: every row of the activated array through the weight matrix, plus the bias row, scaled by
  that row's entry of the column vector. The weights and the bias are read whole at every grid point; the features and
  the column vector 5000 consecutive rows at a time. The ten points' blocks tile the 50000 rows, so the array the
  stage leaves is `Cert.Gcn.lin2` of the four arrays it reads, whatever those hold.
-/
import proofs.«165257_j88897233092952_2_alg».proof.Proof.Gen.KernelIdeal.Frame
import proofs.«165257_j88897233092952_2_alg».proof.Proof.Spec
import proofs.«165257_j88897233092952_2_alg».proof.Proof.LibColumn
import proofs.«165257_j88897233092952_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Reg2

open Idealize.ShloMosaic Idealize.ShloMosaic.TcCoe Idealize.ShloMosaic.ValueIdx Idealize.SL.Sem
open Cert.KernelIdeal Cert.KernelIdeal.Gen Cert.KernelIdeal.Facts₀
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block's matrix product into the zero accumulator, at row `p` and column `q`: the sum over the contracted
    axis of left `(p, k)` times right `(k, q)` (rows times contraction by contraction times columns, no batch axis). -/
theorem mm (l : FVec Ideal S5000x300 .bf16) (r : FVec Ideal S300x300 .bf16) (p : Fin 5000) (q : Fin 300) :
    matmul (F := Ideal) dot_S5000x300_S300x300_S5000x300_1_0_0_1_n_n none l r (constant S5000x300 .f32 0x00000000#32) (ix2 p q)
      = ∑ k : Fin 300, l (ix2 p k) * r (ix2 k q) :=
  PlainDot.matmulZero_apply (M := 5000) (K := 300) (N := 300) l r (ix2 p q)

/-- The body's value at row `p`, column `q` of a block. -/
theorem pay (v0 : Vec Ideal S5000x300 .f32) (v3 : Vec Ideal S300x300 .bf16) (v6 : Vec Ideal S1x300 .f32) (v10 : Vec Ideal S5000x1 .f32)
    (p : Fin 5000) (q : Fin 300) : k2_pay1 v0 v3 v6 v10 (ix2 p q) = Cert.Gcn.lin2At v0 v3 v6 v10 p q := by
  unfold k2_pay1 Cert.Gcn.lin2At
  show broadcastTo S5000x300 (shapeCast S5000x1 v10 _) _ (ix2 p q)
      * (matmul (F := Ideal) dot_S5000x300_S300x300_S5000x300_1_0_0_1_n_n none (truncf .bf16 (shapeCast S5000x300 v0 _) _)
            (shapeCast S300x300 v3 _) (constant S5000x300 .f32 0x00000000#32) (ix2 p q)
        + broadcastTo S5000x300 (shapeCast S1x300 v6 _) _ (ix2 p q)) = _
  rw [ColumnLayout.broadcastTo_a1_ab_apply, broadcastTo_1b_ab_apply, mm, shapeCast_self, shapeCast_self, shapeCast_self, shapeCast_self]
  rfl

/-- The features and the column vector move with the output window (block `t` is rows `5000 t … 5000 t + 4999`); the
    weights and the bias stay at their one block. -/
theorem idx_facts : ∀ t : Fin cfg2.N, win2_0.index t (0 : Fin 2) = win2_4.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (0 : Fin 2) = win2_4.index t (0 : Fin 2) ∧ win2_3.index t (1 : Fin 2) = 0
    ∧ win2_4.index t (1 : Fin 2) = 0 ∧ win2_4.index t (0 : Fin 2) ≤ 9 :=
  (by decide +kernel : ∀ t : Fin grid2.N, _)

theorem idx_onto : ∀ q0 : Fin 10, ∃ t : Fin cfg2.N, win2_4.index t = ![q0.val, 0] :=
  (by decide +kernel : ∀ q0 : Fin 10, ∃ t : Fin grid2.N, win2_4.index t = ![q0.val, 0])

/-- What point `t` writes back is block `t` of the stage's whole-array function. -/
theorem flushed_eq (c : Dev nD) (t : Fin cfg2.N) :
    (dat2 V c).flushed 4 t = ((cfg2.win 4).blk t).view.read (Elt Ideal)
      (Cert.Gcn.lin2 (V c main_v34) (V c main_v21) (V c main_v22) (V c main_v16)) := by
  show (cfg2.win 4).cut (grid2.coords t) ((dat2 V c).after 4 t) = _
  rw [after2_4]
  unfold out2_4
  rw [View.canon_unit_zero hz]
  simp only [View.ld_unit_zero (S := S5000x300) hz, View.ld_unit_zero (S := S5000x1) hz, View.ld_unit_zero (S := S300x300) hz,
    View.ld_unit_zero (S := S1x300) hz]
  obtain ⟨e0, e1, e2, e3, e4, e5, e6, e7, e8, e9⟩ := idx_facts t
  funext y
  obtain ⟨p, q, rfl⟩ : ∃ (p : Fin 5000) (q : Fin 300), y = ix2 p q := ⟨y 0, y 1, eq_ix2 y⟩
  refine (pay _ _ _ _ p q).trans ?_
  have h3 : ((cfg2.win 3).blk t).view.emb (ix2 p (0 : Fin 1)) = ix2 ((((cfg2.win 4).blk t).view.emb (ix2 p q)) 0) (0 : Fin 1) := by
    funext a; apply Fin.ext
    match a with
    | ⟨0, _⟩ => show win2_3.index t (0 : Fin 2) * 5000 + 1 * p.val = win2_4.index t (0 : Fin 2) * 5000 + 1 * p.val; omega
    | ⟨1, _⟩ => show win2_3.index t (1 : Fin 2) * 1 + 1 * 0 = 0; omega
  have h0 : ∀ k : Fin 300, ((cfg2.win 0).blk t).view.emb (ix2 p k) = ix2 ((((cfg2.win 4).blk t).view.emb (ix2 p q)) 0) k := by
    intro k; funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 300 + 1 * k.val = k.val; omega
  have h1 : ∀ k : Fin 300, ((cfg2.win 1).blk t).view.emb (ix2 k q) = ix2 k ((((cfg2.win 4).blk t).view.emb (ix2 p q)) 1) := by
    intro k; funext a; apply Fin.ext
    match a with
    | ⟨0, _⟩ => show win2_1.index t (0 : Fin 2) * 300 + 1 * k.val = k.val; omega
    | ⟨1, _⟩ => show win2_1.index t (1 : Fin 2) * 300 + 1 * q.val = win2_4.index t (1 : Fin 2) * 300 + 1 * q.val; omega
  have h2 : ((cfg2.win 2).blk t).view.emb (ix2 (0 : Fin 1) q) = ix2 (0 : Fin 1) ((((cfg2.win 4).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 300 + 1 * q.val = win2_4.index t (1 : Fin 2) * 300 + 1 * q.val; omega
  have key : ∀ (D : S50000x1.Idx → EReal) (H : S50000x300.Idx → EReal) (WT : S300x300.Idx → EReal) (B : S1x300.Idx → EReal),
      D (((cfg2.win 3).blk t).view.emb (ix2 p (0 : Fin 1)))
          * ((∑ k : Fin 300, H (((cfg2.win 0).blk t).view.emb (ix2 p k)) * WT (((cfg2.win 1).blk t).view.emb (ix2 k q)))
            + B (((cfg2.win 2).blk t).view.emb (ix2 (0 : Fin 1) q)))
        = D (ix2 ((((cfg2.win 4).blk t).view.emb (ix2 p q)) 0) (0 : Fin 1))
          * ((∑ k : Fin 300, H (ix2 ((((cfg2.win 4).blk t).view.emb (ix2 p q)) 0) k) * WT (ix2 k ((((cfg2.win 4).blk t).view.emb (ix2 p q)) 1)))
            + B (ix2 (0 : Fin 1) ((((cfg2.win 4).blk t).view.emb (ix2 p q)) 1))) := by
    intro D H WT B
    refine congrArg₂ (fun a b => a * b) (congrArg D h3) (congrArg₂ (fun a b => a + b) (Finset.sum_congr rfl fun k _ => ?_) (congrArg B h2))
    exact congrArg₂ (fun a b => a * b) (congrArg H (h0 k)) (congrArg WT (h1 k))
  exact key (V c main_v16) (V c main_v34) (V c main_v21) (V c main_v22)

/-- An index of the array lies in point `t`'s block iff each coordinate lies in the block's range on its axis. -/
theorem mem_blk (t : Fin cfg2.N) (i : S50000x300.Idx) :
    i ∈ ((cfg2.win 4).blk t).view.set ↔ ∀ a : Fin 2, win2_4.index t a * S5000x300.size a ≤ (i a).val ∧ (i a).val < win2_4.index t a * S5000x300.size a + S5000x300.size a := by
  show i ∈ ((View.whole main_v35).slice (win2_4.rect t)).set ↔ _
  rw [View.set_slice_whole, Rect.mem_set_unit]
  exact Iff.rfl

/-- Row `r` lies in the block of point `r / 5000`: the ten blocks tile the array. -/
theorem cover (i : S50000x300.Idx) : ∃ t : Fin cfg2.N, (cfg2.win 4).flush t = true ∧ i ∈ ((cfg2.win 4).blk t).view.set := by
  have hi0 : (i 0).val < 50000 := (i 0).isLt
  have hi1 : (i 1).val < 300 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 300 ≤ (i 1).val ∧ (i 1).val < win2_4.index t (1 : Fin 2) * 300 + 300; omega

/-- The array the stage leaves. -/
theorem final (c : Dev nD) :
    (dat2 V c).arrAt 4 cfg2.N = Cert.Gcn.lin2 (V c main_v34) (V c main_v21) (V c main_v22) (V c main_v16) :=
  (dat2 V c).arrAt_eq_of_cover 4 _ (fun t _ => flushed_eq V c t) (cover)

end Cert.KernelIdeal.Reg2

end
-- ==== Proof.Reg3.lean ====
/-
  The last stage: every row of the aggregated array scaled by that row's entry of the column vector.
  A grid point handles 5000 consecutive rows; the ten points' blocks tile the 50000 rows, so the array the
  stage leaves is `Cert.Gcn.scale` of the two arrays it reads, whatever those hold.
-/
import proofs.«165257_j88897233092952_2_alg».proof.Proof.Gen.KernelIdeal.Frame
import proofs.«165257_j88897233092952_2_alg».proof.Proof.Spec
import proofs.«165257_j88897233092952_2_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Reg3

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at row `p`, column `q` of a block: the row's scale times the entry. -/
theorem pay (x0 : Vec Ideal S5000x1 .f32) (x1 : Vec Ideal S5000x300 .f32) (p : Fin 5000) (q : Fin 300) :
    k3_pay1 x0 x1 (ix2 p q) = Cert.Gcn.scaleAt x1 x0 p q := by
  unfold k3_pay1 Cert.Gcn.scaleAt
  show broadcastTo S5000x300 (shapeCast S5000x1 x0 _) _ (ix2 p q) * shapeCast S5000x300 x1 _ (ix2 p q) = _
  rw [ColumnLayout.broadcastTo_a1_ab_apply, shapeCast_self, shapeCast_self]

/-- Each input window moves with the output window: block `t` is rows `5000 t … 5000 t + 4999`, all columns. -/
theorem idx_facts : ∀ t : Fin cfg3.N, win3_0.index t (0 : Fin 2) = win3_2.index t (0 : Fin 2)
    ∧ win3_0.index t (1 : Fin 2) = 0 ∧ win3_1.index t (0 : Fin 2) = win3_2.index t (0 : Fin 2)
    ∧ win3_1.index t (1 : Fin 2) = 0 ∧ win3_2.index t (1 : Fin 2) = 0 ∧ win3_2.index t (0 : Fin 2) ≤ 9 :=
  (by decide +kernel : ∀ t : Fin grid3.N, _)

theorem idx_onto : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of the scaled array. -/
theorem flushed_eq (c : Dev nD) (t : Fin cfg3.N) :
    (dat3 V c).flushed 2 t = ((cfg3.win 2).blk t).view.read (Elt Ideal) (Cert.Gcn.scale (V c main_v45) (V c main_v16)) := by
  show (cfg3.win 2).cut (grid3.coords t) ((dat3 V c).after 2 t) = _
  rw [after3_2]
  unfold out3_2
  rw [View.canon_unit_zero hz]
  simp only [View.ld_unit_zero (S := S5000x300) hz, View.ld_unit_zero (S := S5000x1) hz]
  obtain ⟨e0, e1, e2, e3, e4, e5⟩ := idx_facts t
  funext y
  obtain ⟨p, q, rfl⟩ : ∃ (p : Fin 5000) (q : Fin 300), y = ix2 p q := ⟨y 0, y 1, eq_ix2 y⟩
  refine (pay _ _ p q).trans ?_
  have h1 : ((cfg3.win 1).blk t).view.emb (ix2 p (0 : Fin 1)) = ix2 ((((cfg3.win 2).blk t).view.emb (ix2 p q)) 0) (0 : Fin 1) := by
    funext a; apply Fin.ext
    match a with
    | ⟨0, _⟩ => show win3_1.index t (0 : Fin 2) * 5000 + 1 * p.val = win3_2.index t (0 : Fin 2) * 5000 + 1 * p.val; omega
    | ⟨1, _⟩ => show win3_1.index t (1 : Fin 2) * 1 + 1 * 0 = 0; omega
  have h0 : ((cfg3.win 0).blk t).view.emb (ix2 p q) = ix2 ((((cfg3.win 2).blk t).view.emb (ix2 p q)) 0) ((((cfg3.win 2).blk t).view.emb (ix2 p q)) 1) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 300 + 1 * q.val = win3_2.index t (1 : Fin 2) * 300 + 1 * q.val; omega
  have key : ∀ (D : S50000x1.Idx → EReal) (A : S50000x300.Idx → EReal),
      D (((cfg3.win 1).blk t).view.emb (ix2 p (0 : Fin 1))) * A (((cfg3.win 0).blk t).view.emb (ix2 p q))
        = D (ix2 ((((cfg3.win 2).blk t).view.emb (ix2 p q)) 0) (0 : Fin 1))
          * A (ix2 ((((cfg3.win 2).blk t).view.emb (ix2 p q)) 0) ((((cfg3.win 2).blk t).view.emb (ix2 p q)) 1)) := by
    intro D A; exact congrArg₂ (fun a b => a * b) (congrArg D h1) (congrArg A h0)
  exact key (V c main_v16) (V c main_v45)

/-- An index of the array lies in point `t`'s block iff each coordinate lies in the block's range on its axis. -/
theorem mem_blk (t : Fin cfg3.N) (i : S50000x300.Idx) :
    i ∈ ((cfg3.win 2).blk t).view.set ↔ ∀ a : Fin 2, win3_2.index t a * S5000x300.size a ≤ (i a).val ∧ (i a).val < win3_2.index t a * S5000x300.size a + S5000x300.size a := by
  show i ∈ ((View.whole main_v46).slice (win3_2.rect t)).set ↔ _
  rw [View.set_slice_whole, Rect.mem_set_unit]
  exact Iff.rfl

/-- Row `r` lies in the block of point `r / 5000`: the ten blocks tile the array. -/
theorem cover (i : S50000x300.Idx) : ∃ t : Fin cfg3.N, (cfg3.win 2).flush t = true ∧ i ∈ ((cfg3.win 2).blk t).view.set := by
  have hi0 : (i 0).val < 50000 := (i 0).isLt
  have hi1 : (i 1).val < 300 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 300 ≤ (i 1).val ∧ (i 1).val < win3_2.index t (1 : Fin 2) * 300 + 300; omega

/-- The array the stage leaves: every row of what it found in its first array scaled by the column vector it found
    in its second. -/
theorem final (c : Dev nD) : (dat3 V c).arrAt 2 cfg3.N = Cert.Gcn.scale (V c main_v45) (V c main_v16) :=
  (dat3 V c).arrAt_eq_of_cover 2 _ (fun t _ => flushed_eq V c t) (cover)

end Cert.KernelIdeal.Reg3

end
-- ==== Proof.KVal.lean ====
import proofs.«165257_j88897233092952_2_alg».proof.Proof.KRun
import proofs.«165257_j88897233092952_2_alg».proof.Proof.KWalk
import proofs.«165257_j88897233092952_2_alg».proof.Proof.Reg0
import proofs.«165257_j88897233092952_2_alg».proof.Proof.Reg1
import proofs.«165257_j88897233092952_2_alg».proof.Proof.Reg2
import proofs.«165257_j88897233092952_2_alg».proof.Proof.Reg3
import proofs.«165257_j88897233092952_2_alg».proof.Proof.Spec

/-! # The kernel program's result as one function of its arguments

The kernel program computes a two-layer graph convolution.  With `e` the edge list, the host prefix builds the
source and target index vectors with one self loop per node appended (`rowAugK e`, `colAugK e`), counts the degrees
(`degK e`: a one added up at every source index) and takes the column `dK e` of their inverse square roots (zero
where the degree is not positive).  One propagation step `PK e a` gathers the rows of `a` at the source indices and
adds them up at the target indices.  The four tiled regions are the dense stages: the first layer's linear map on
the pooled mean, scaled by `dK e`; the scaling and leaky rectifier after the first propagation; the second
layer's linear map, scaled; the scaling after the second propagation.  The weights enter transposed and in the
narrower float format (`wtK`), the biases as rows (`brK`).

The result is read off the fold of boundary contents: the last region's output array, each region's output as
its stage applied to the contents it was entered with, each entry content read back through the stretches and
regions that do not write it to the stretch that does. -/

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.KWalk

/-! ## The host side's pieces -/

/-- The source index vector: row 0 of the edge list, then the node numbers (one self loop per node). -/
def rowAugK (e : IVec S2x250000 32) : IVec S300000 32 :=
  concatenate S300000 0
    [⟨S250000, shapeCast S250000
        (extractStridedSlice S1x250000 ![0, 0] e slices_S2x250000_S1x250000_0_0)
        shapeCasts_S1x250000_S250000⟩,
     ⟨S50000, iotaInDim S50000 32 0⟩]
    concatenates_S250000_S50000_S300000_d0

/-- The target index vector: row 1 of the edge list, then the node numbers. -/
def colAugK (e : IVec S2x250000 32) : IVec S300000 32 :=
  concatenate S300000 0
    [⟨S250000, shapeCast S250000
        (extractStridedSlice S1x250000 ![1, 0] e slices_S2x250000_S1x250000_1_0)
        shapeCasts_S1x250000_S250000⟩,
     ⟨S50000, iotaInDim S50000 32 0⟩]
    concatenates_S250000_S50000_S300000_d0

/-- The degree count: a one added up at every source index, from zero. -/
def degK (e : IVec S2x250000 32) : FVec Ideal S50000 .f32 :=
  Host.scatterAdd (F := Ideal) scatter_S50000_S300000x1_S300000_n_0_0_1
    (broadcastInDim S50000 ![] bcast_S_S50000 (constant (F := Ideal) S_ FTy.f32 0x00000000#32))
    (broadcastInDim S300000x1 ![0] bcast_S300000_S300000x1_0 (rowAugK e))
    (broadcastInDim S300000 ![] bcast_S_S300000 (constant (F := Ideal) S_ FTy.f32 0x3F800000#32))

/-- The degree scaling column: the degree count to the power minus one half where it is positive, zero elsewhere. -/
def dK (e : IVec S2x250000 32) : FVec Ideal S50000x1 .f32 :=
  shapeCast S50000x1
    (select
      (cmpf CmpFPredicate.ogt (degK e)
        (broadcastInDim S50000 ![] bcast_S_S50000 (constant (F := Ideal) S_ FTy.f32 0x00000000#32)))
      (Host.powf (F := Ideal) (degK e)
        (broadcastInDim S50000 ![] bcast_S_S50000 (constant (F := Ideal) S_ FTy.f32 0xBF000000#32)))
      (broadcastInDim S50000 ![] bcast_S_S50000 (id (constant (F := Ideal) S_ FTy.f32 0x00000000#32))))
    shapeCasts_S50000_S50000x1

/-- One propagation step: the rows of `a` gathered at the source indices (a negative index wrapped by the number
    of nodes first) and added up at the target indices, from zero. -/
def PK (e : IVec S2x250000 32) (a : FVec Ideal S50000x300 .f32) : FVec Ideal S50000x300 .f32 :=
  Host.scatterAdd (F := Ideal) scatter_S50000x300_S300000x1_S300000x300_1_0_0_1
    (broadcastInDim S50000x300 ![] bcast_S_S50000x300 (constant (F := Ideal) S_ FTy.f32 0x00000000#32))
    (broadcastInDim S300000x1 ![0] bcast_S300000_S300000x1_0 (colAugK e))
    (Host.gather gather_S50000x300_S300000x1_S300000x300_1_0_n_n_0_1_1300 a
      (broadcastInDim S300000x1 ![0] bcast_S300000_S300000x1_0
        (select
          (cmpi CmpIPredicate.slt (rowAugK e)
            (broadcastInDim S300000 ![] bcast_S_S300000 (constantI S_ 32 0#32)))
          (addi (rowAugK e)
            (broadcastInDim S300000 ![] bcast_S_S300000 (constantI S_ 32 50000#32)))
          (rowAugK e))))

/-- A layer's weights as the regions take them: transposed, in the narrower float format. -/
def wtK (w : FVec Ideal S300x300 .f32) : FVec Ideal S300x300 .bf16 :=
  truncf FTy.bf16 (transpose S300x300 [1, 0] w transposes_S300x300_S300x300_1_0) bitsLt_bf16_f32

/-- A layer's bias as the regions take it: as a row. -/
def brK (b : FVec Ideal S300 .f32) : FVec Ideal S1x300 .f32 :=
  shapeCast S1x300 b shapeCasts_S300_S1x300

variable (m : (ℓ : Loc nD τ sig) → Buf (Elt Ideal) ℓ) (ρ : Dev nD → PrngReg)

/-! ## The prefix's buffers as the pieces -/

theorem row_eq (c : Dev nD) : W1 m ρ c (Proc.devRef .tc main_v5) = rowAugK (m ((c : Thread nD τ).loc main_arg1)) := W1_v5 m ρ c
theorem col_eq (c : Dev nD) : W1 m ρ c (Proc.devRef .tc main_v6) = colAugK (m ((c : Thread nD τ).loc main_arg1)) := W1_v6 m ρ c
theorem deg_eq (c : Dev nD) : W1 m ρ c (Proc.devRef .tc main_v10) = degK (m ((c : Thread nD τ).loc main_arg1)) :=
  (W1_v10 m ρ c).trans (by rw [row_eq]; rfl)
theorem d_eq (c : Dev nD) : W3 m ρ c (Proc.devRef .tc main_v16) = dK (m ((c : Thread nD τ).loc main_arg1)) :=
  (W3_v16 m ρ c).trans (by rw [deg_eq]; rfl)

/-! ## The regions' outputs, innermost first -/

/-- Region 0's output: the first layer's linear map on the pooled mean, scaled. -/
theorem out0 (c : Dev nD) :
    (dat0 (V3 m ρ) c).arrAt 4 cfg0.N
      = Cert.Gcn.lin1 (m ((c : Thread nD τ).loc main_arg0)) (wtK (m ((c : Thread nD τ).loc main_arg2))) (brK (m ((c : Thread nD τ).loc main_arg3))) (dK (m ((c : Thread nD τ).loc main_arg1))) := by
  have h0 : V3 m ρ c main_arg0 = (m ((c : Thread nD τ).loc main_arg0)) := V3_arg0 m ρ c
  have h18 : V3 m ρ c main_v18 = wtK (m ((c : Thread nD τ).loc main_arg2)) := V3_v18 m ρ c
  have h19 : V3 m ρ c main_v19 = brK (m ((c : Thread nD τ).loc main_arg3)) := V3_v19 m ρ c
  have h16 : V3 m ρ c main_v16 = dK (m ((c : Thread nD τ).loc main_arg1)) := d_eq m ρ c
  rw [Reg0.final (V3 m ρ) c, h0, h18, h19, h16]

/-- Region 1's data array: the first propagation of region 0's output. -/
theorem in1 (c : Dev nD) :
    V5 m ρ c main_v33 = PK (m ((c : Thread nD τ).loc main_arg1)) ((dat0 (V3 m ρ) c).arrAt 4 cfg0.N) :=
  (V5_v33_read m ρ c).trans (by rw [row_eq, col_eq]; rfl)

/-- Region 1's output: scaled, then the leaky rectifier. -/
theorem out1 (c : Dev nD) :
    (dat1 (V5 m ρ) c).arrAt 2 cfg1.N
      = Cert.Gcn.leaky
          (PK (m ((c : Thread nD τ).loc main_arg1))
            (Cert.Gcn.lin1 (m ((c : Thread nD τ).loc main_arg0)) (wtK (m ((c : Thread nD τ).loc main_arg2))) (brK (m ((c : Thread nD τ).loc main_arg3))) (dK (m ((c : Thread nD τ).loc main_arg1)))))
          (dK (m ((c : Thread nD τ).loc main_arg1))) := by
  have h33 : V5 m ρ c main_v33 = PK (m ((c : Thread nD τ).loc main_arg1)) _ := (in1 m ρ c).trans (by rw [out0])
  have h16 : V5 m ρ c main_v16 = dK (m ((c : Thread nD τ).loc main_arg1)) := (V5_v16 m ρ c).trans (d_eq m ρ c)
  rw [Reg1.final (V5 m ρ) c, h33, h16]

/-- Region 2's output: the second layer's linear map, scaled. -/
theorem out2 (c : Dev nD) :
    (dat2 (V6 m ρ) c).arrAt 4 cfg2.N
      = Cert.Gcn.lin2
          (Cert.Gcn.leaky
            (PK (m ((c : Thread nD τ).loc main_arg1))
              (Cert.Gcn.lin1 (m ((c : Thread nD τ).loc main_arg0)) (wtK (m ((c : Thread nD τ).loc main_arg2))) (brK (m ((c : Thread nD τ).loc main_arg3))) (dK (m ((c : Thread nD τ).loc main_arg1)))))
            (dK (m ((c : Thread nD τ).loc main_arg1))))
          (wtK (m ((c : Thread nD τ).loc main_arg4))) (brK (m ((c : Thread nD τ).loc main_arg5))) (dK (m ((c : Thread nD τ).loc main_arg1))) := by
  have h34 : V6 m ρ c main_v34 = _ := (V6_v34 m ρ c).trans (out1 m ρ c)
  have h21 : V6 m ρ c main_v21 = wtK (m ((c : Thread nD τ).loc main_arg4)) := V6_v21_read m ρ c
  have h22 : V6 m ρ c main_v22 = brK (m ((c : Thread nD τ).loc main_arg5)) := V6_v22_read m ρ c
  have h16 : V6 m ρ c main_v16 = dK (m ((c : Thread nD τ).loc main_arg1)) := (V6_v16 m ρ c).trans (d_eq m ρ c)
  rw [Reg2.final (V6 m ρ) c, h34, h21, h22, h16]

/-- Region 3's data array: the second propagation of region 2's output. -/
theorem in3 (c : Dev nD) :
    V8 m ρ c main_v45 = PK (m ((c : Thread nD τ).loc main_arg1)) ((dat2 (V6 m ρ) c).arrAt 4 cfg2.N) :=
  (V8_v45_read m ρ c).trans (by rw [row_eq, col_eq]; rfl)

/-! ## The result -/

/-- The result buffer at the end of the run, as one function of the six arguments. -/
theorem value (c : Dev nD) :
    W9 m ρ c (Proc.devRef .tc main_v46)
      = Cert.Gcn.scale
        (PK (m ((c : Thread nD τ).loc main_arg1))
          (Cert.Gcn.lin2
            (Cert.Gcn.leaky
              (PK (m ((c : Thread nD τ).loc main_arg1))
                (Cert.Gcn.lin1 (m ((c : Thread nD τ).loc main_arg0)) (wtK (m ((c : Thread nD τ).loc main_arg2))) (brK (m ((c : Thread nD τ).loc main_arg3))) (dK (m ((c : Thread nD τ).loc main_arg1)))))
              (dK (m ((c : Thread nD τ).loc main_arg1))))
            (wtK (m ((c : Thread nD τ).loc main_arg4))) (brK (m ((c : Thread nD τ).loc main_arg5))) (dK (m ((c : Thread nD τ).loc main_arg1)))))
        (dK (m ((c : Thread nD τ).loc main_arg1))) := by
  have h45 : V8 m ρ c main_v45 = PK (m ((c : Thread nD τ).loc main_arg1)) _ := (in3 m ρ c).trans (by rw [out2])
  have h16 : V8 m ρ c main_v16 = dK (m ((c : Thread nD τ).loc main_arg1)) := (V8_v16 m ρ c).trans (d_eq m ρ c)
  rw [result_eq m ρ c, Reg3.final (V8 m ρ) c, h45, h16]

/-- Every weakly fair execution of the kernel program terminates, nothing faulting, with the result buffer at
    that function of the arguments and the six argument arrays as launched. -/
theorem run : θ_run defs (onTc (τ := τ) (main (F := Ideal))) ⟨m, fun _ => 0, ρ⟩ (fun r => ∀ c : Dev nD,
      r.2.mem ((c.tc : Thread nD τ).loc main_v46)
        = Cert.Gcn.scale
        (PK (m ((c : Thread nD τ).loc main_arg1))
          (Cert.Gcn.lin2
            (Cert.Gcn.leaky
              (PK (m ((c : Thread nD τ).loc main_arg1))
                (Cert.Gcn.lin1 (m ((c : Thread nD τ).loc main_arg0)) (wtK (m ((c : Thread nD τ).loc main_arg2))) (brK (m ((c : Thread nD τ).loc main_arg3))) (dK (m ((c : Thread nD τ).loc main_arg1)))))
              (dK (m ((c : Thread nD τ).loc main_arg1))))
            (wtK (m ((c : Thread nD τ).loc main_arg4))) (brK (m ((c : Thread nD τ).loc main_arg5))) (dK (m ((c : Thread nD τ).loc main_arg1)))))
        (dK (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value m ρ c), (h c).2⟩) (KRun.run_named m ρ)

end Cert.KernelIdeal.KVal

end
-- ==== Proof.RefRun.lean ====
import proofs.«165257_j88897233092952_2_alg».proof.Proof.Gen.ReferenceIdeal
import Idealize.ShloMosaic.Lib.StableHlo.Run
import Idealize.ShloMosaic.PureOps.Ideal

/-! The reference program's run, read back.

The reference is a straight line of host tensor operations: the edge list is split into its row and
column halves, each extended by the identity (the self loops); the degree vector is the scatter-add of
ones along the rows and its inverse square root scales every row of a feature matrix before and after
the features are gathered along the rows and scatter-added along the columns. That propagation is
applied twice: to the mean over the four slices of `x · W1ᵀ + b1`, and, after the leaky rectifier,
to `h · W2ᵀ + b2`. Two of the operations are calls of small functions (the rectifier, which itself
calls the select function); a call runs the callee's operations in place, on buffers of their own.

This module lists the operations in order (`ops`), shows that the program is that list run in order
(`main_eq`), and reads the contents of the result buffer after the run as one pure term of the six
argument arrays (`refTerm`, `run`). -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 76 operations, in order; the seven operations of the rectifier call (six of its own and
    the select of the function it calls) stand where the call stands, over the buffers of that call. -/
abbrev ops : List (HloOp τ sig (Elt F)) :=
  [ StableHlo.unary main_arg1 main_v0 ((extractStridedSlice S1x250000 ![0, 0] · slices_S2x250000_S1x250000_0_0) : (⟨S2x250000, .i32⟩ : BufTy).Contents (Elt F) → (⟨S1x250000, .i32⟩ : BufTy).Contents (Elt F)),
    StableHlo.reshape main_v0 main_v1 rfl shapeCasts_S1x250000_S250000,
    StableHlo.unary main_arg1 main_v2 ((extractStridedSlice S1x250000 ![1, 0] · slices_S2x250000_S1x250000_1_0) : (⟨S2x250000, .i32⟩ : BufTy).Contents (Elt F) → (⟨S1x250000, .i32⟩ : BufTy).Contents (Elt F)),
    StableHlo.reshape main_v2 main_v3 rfl shapeCasts_S1x250000_S250000,
    StableHlo.nullary main_v4 (iotaInDim S50000 32 0),
    StableHlo.binary main_v1 main_v4 main_v5 ((fun a b => concatenate S300000 0 [⟨S250000, a⟩, ⟨S50000, b⟩] concatenates_S250000_S50000_S300000_d0) : (⟨S250000, .i32⟩ : BufTy).Contents (Elt F) → (⟨S50000, .i32⟩ : BufTy).Contents (Elt F) → (⟨S300000, .i32⟩ : BufTy).Contents (Elt F)),
    StableHlo.binary main_v3 main_v4 main_v6 ((fun a b => concatenate S300000 0 [⟨S250000, a⟩, ⟨S50000, b⟩] concatenates_S250000_S50000_S300000_d0) : (⟨S250000, .i32⟩ : BufTy).Contents (Elt F) → (⟨S50000, .i32⟩ : BufTy).Contents (Elt F) → (⟨S300000, .i32⟩ : BufTy).Contents (Elt F)),
    StableHlo.nullary main_cst (constant S_ .f32 0x3F800000#32),
    StableHlo.unary main_cst main_v7 (broadcastInDim S300000 ![] bcast_S_S300000 : (⟨S_, .f32⟩ : BufTy).Contents (Elt F) → (⟨S300000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v5 main_v9 (broadcastInDim S300000x1 ![0] bcast_S300000_S300000x1_0 : (⟨S300000, .i32⟩ : BufTy).Contents (Elt F) → (⟨S300000x1, .i32⟩ : BufTy).Contents (Elt F)),
    StableHlo.ternary main_v8 main_v9 main_v7 main_v10 ((fun x i u => Host.scatterAdd scatter_S50000_S300000x1_S300000_n_0_0_1 x i u) : (⟨S50000, .f32⟩ : BufTy).Contents (Elt F) → (⟨S300000x1, .i32⟩ : BufTy).Contents (Elt F) → (⟨S300000, .f32⟩ : BufTy).Contents (Elt F) → (⟨S50000, .f32⟩ : BufTy).Contents (Elt F)),
    StableHlo.nullary main_cst_1 (constant S_ .f32 0xBF000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (Host.powf : (⟨S50000, .f32⟩ : BufTy).Contents (Elt F) → (⟨S50000, .f32⟩ : BufTy).Contents (Elt F) → (⟨S50000, .f32⟩ : BufTy).Contents (Elt F)),
    StableHlo.binary main_arg0 main_arg2 main_v13 ((fun l r => Host.dotGeneral dot_S50000x4x300_S300x300_S50000x4x300_2_1_01_0_n_n none l r) : (⟨S50000x4x300, .f32⟩ : BufTy).Contents (Elt F) → (⟨S300x300, .f32⟩ : BufTy).Contents (Elt F) → (⟨S50000x4x300, .f32⟩ : BufTy).Contents (Elt F)),
    StableHlo.unary main_arg3 main_v14 (broadcastInDim S1x1x300 ![2] bcast_S300_S1x1x300_2 : (⟨S300, .f32⟩ : BufTy).Contents (Elt F) → (⟨S1x1x300, .f32⟩ : BufTy).Contents (Elt F)),
    StableHlo.unary main_v14 main_v15 (broadcastInDim S50000x4x300 ![0, 1, 2] bcast_S1x1x300_S50000x4x300_0_1_2 : (⟨S1x1x300, .f32⟩ : BufTy).Contents (Elt F) → (⟨S50000x4x300, .f32⟩ : BufTy).Contents (Elt F)),
    StableHlo.binary main_v13 main_v15 main_v16 (addf : (⟨S50000x4x300, .f32⟩ : BufTy).Contents (Elt F) → (⟨S50000x4x300, .f32⟩ : BufTy).Contents (Elt F) → (⟨S50000x4x300, .f32⟩ : BufTy).Contents (Elt F)),
    StableHlo.nullary main_cst_2 (constant S_ .f32 0x00000000#32),
    StableHlo.binary main_v16 main_cst_2 main_v17 ((fun x v => Host.reduceAdd x v reducesTo_S50000x4x300_S50000x300_d1 h_S_) : (⟨S50000x4x300, .f32⟩ : BufTy).Contents (Elt F) → (⟨S_, .f32⟩ : BufTy).Contents (Elt F) → (⟨S50000x300, .f32⟩ : BufTy).Contents (Elt F)),
    StableHlo.nullary main_cst_3 (constant S_ .f32 0x40800000#32),
    StableHlo.unary main_cst_3 main_v18 (broadcastInDim S50000x300 ![] bcast_S_S50000x300 : (⟨S_, .f32⟩ : BufTy).Contents (Elt F) → (⟨S50000x300, .f32⟩ : BufTy).Contents (Elt F)),
    StableHlo.binary main_v17 main_v18 main_v19 (Host.divf : (⟨S50000x300, .f32⟩ : BufTy).Contents (Elt F) → (⟨S50000x300, .f32⟩ : BufTy).Contents (Elt F) → (⟨S50000x300, .f32⟩ : BufTy).Contents (Elt F)),
    StableHlo.unary main_v12 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x300 ![0, 1] bcast_S50000x1_S50000x300_0_1 : (⟨S50000x1, .f32⟩ : BufTy).Contents (Elt F) → (⟨S50000x300, .f32⟩ : BufTy).Contents (Elt F)),
    StableHlo.binary main_v21 main_v19 main_v22 (mulf : (⟨S50000x300, .f32⟩ : BufTy).Contents (Elt F) → (⟨S50000x300, .f32⟩ : BufTy).Contents (Elt F) → (⟨S50000x300, .f32⟩ : BufTy).Contents (Elt F)),
    StableHlo.nullary main_c (constantI S_ 32 0#32),
    StableHlo.unary main_c main_v23 (broadcastInDim S300000 ![] bcast_S_S300000 : (⟨S_, .i32⟩ : BufTy).Contents (Elt F) → (⟨S300000, .i32⟩ : BufTy).Contents (Elt F)),
    StableHlo.binary main_v5 main_v23 main_v24 (cmpi .slt : (⟨S300000, .i32⟩ : BufTy).Contents (Elt F) → (⟨S300000, .i32⟩ : BufTy).Contents (Elt F) → (⟨S300000, .i1⟩ : BufTy).Contents (Elt F)),
    StableHlo.nullary main_c_4 (constantI S_ 32 50000#32),
    StableHlo.unary main_c_4 main_v25 (broadcastInDim S300000 ![] bcast_S_S300000 : (⟨S_, .i32⟩ : BufTy).Contents (Elt F) → (⟨S300000, .i32⟩ : BufTy).Contents (Elt F)),
    StableHlo.binary main_v5 main_v25 main_v26 (addi : (⟨S300000, .i32⟩ : BufTy).Contents (Elt F) → (⟨S300000, .i32⟩ : BufTy).Contents (Elt F) → (⟨S300000, .i32⟩ : BufTy).Contents (Elt F)),
    StableHlo.ternary main_v24 main_v26 main_v5 main_v27 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v27 main_v28 (broadcastInDim S300000x1 ![0] bcast_S300000_S300000x1_0 : (⟨S300000, .i32⟩ : BufTy).Contents (Elt F) → (⟨S300000x1, .i32⟩ : BufTy).Contents (Elt F)),
    StableHlo.binary main_v22 main_v28 main_v29 ((fun x i => Host.gather gather_S50000x300_S300000x1_S300000x300_1_0_n_n_0_1_1300 x i) : (⟨S50000x300, .f32⟩ : BufTy).Contents (Elt F) → (⟨S300000x1, .i32⟩ : BufTy).Contents (Elt F) → (⟨S300000x300, .f32⟩ : BufTy).Contents (Elt F)),
    StableHlo.unary main_v12 main_v30 (broadcastInDim S50000x1 ![0] bcast_S50000_S50000x1_0 : (⟨S50000, .f32⟩ : BufTy).Contents (Elt F) → (⟨S50000x1, .f32⟩ : BufTy).Contents (Elt F)),
    StableHlo.nullary main_cst_5 (constant S_ .f32 0x00000000#32),
    StableHlo.unary main_cst_5 main_v31 (broadcastInDim S50000x300 ![] bcast_S_S50000x300 : (⟨S_, .f32⟩ : BufTy).Contents (Elt F) → (⟨S50000x300, .f32⟩ : BufTy).Contents (Elt F)),
    StableHlo.unary main_v6 main_v32 (broadcastInDim S300000x1 ![0] bcast_S300000_S300000x1_0 : (⟨S300000, .i32⟩ : BufTy).Contents (Elt F) → (⟨S300000x1, .i32⟩ : BufTy).Contents (Elt F)),
    StableHlo.ternary main_v31 main_v32 main_v29 main_v33 ((fun x i u => Host.scatterAdd scatter_S50000x300_S300000x1_S300000x300_1_0_0_1 x i u) : (⟨S50000x300, .f32⟩ : BufTy).Contents (Elt F) → (⟨S300000x1, .i32⟩ : BufTy).Contents (Elt F) → (⟨S300000x300, .f32⟩ : BufTy).Contents (Elt F) → (⟨S50000x300, .f32⟩ : BufTy).Contents (Elt F)),
    StableHlo.unary main_v30 main_v34 (broadcastInDim S50000x300 ![0, 1] bcast_S50000x1_S50000x300_0_1 : (⟨S50000x1, .f32⟩ : BufTy).Contents (Elt F) → (⟨S50000x300, .f32⟩ : BufTy).Contents (Elt F)),
    StableHlo.binary main_v34 main_v33 main_v35 (mulf : (⟨S50000x300, .f32⟩ : BufTy).Contents (Elt F) → (⟨S50000x300, .f32⟩ : BufTy).Contents (Elt F) → (⟨S50000x300, .f32⟩ : BufTy).Contents (Elt F)),
    StableHlo.nullary main_cst_6 (constant S_ .f32 0x3C23D70A#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x300, .f32⟩) (broadcastInDim S50000x300 ![] bcast_S_S50000x300),
    StableHlo.TRef.binary (.of main_v35 : StableHlo.TRef sig ⟨S50000x300, .f32⟩) (.of main_call0_v0 : StableHlo.TRef sig ⟨S50000x300, .f32⟩) (.of main_call0_v1 : StableHlo.TRef sig ⟨S50000x300, .i1⟩) (cmpf .oge),
    StableHlo.TRef.unary (.of main_cst_6 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S50000x300, .f32⟩) (broadcastInDim S50000x300 ![] bcast_S_S50000x300),
    StableHlo.TRef.binary (.of main_call0_v3 : StableHlo.TRef sig ⟨S50000x300, .f32⟩) (.of main_v35 : StableHlo.TRef sig ⟨S50000x300, .f32⟩) (.of main_call0_v4 : StableHlo.TRef sig ⟨S50000x300, .f32⟩) mulf,
    StableHlo.TRef.ternary (.of main_call0_v1 : StableHlo.TRef sig ⟨S50000x300, .i1⟩) (.of main_v35 : StableHlo.TRef sig ⟨S50000x300, .f32⟩) (.of main_call0_v4 : StableHlo.TRef sig ⟨S50000x300, .f32⟩) (.of main_v36 : StableHlo.TRef sig ⟨S50000x300, .f32⟩) select,
    StableHlo.unary main_arg4 main_v37 ((transpose S300x300 [1, 0] · transposes_S300x300_S300x300_1_0) : (⟨S300x300, .f32⟩ : BufTy).Contents (Elt F) → (⟨S300x300, .f32⟩ : BufTy).Contents (Elt F)),
    StableHlo.binary main_v36 main_v37 main_v38 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg5 main_v39 (broadcastInDim S1x300 ![1] bcast_S300_S1x300_1 : (⟨S300, .f32⟩ : BufTy).Contents (Elt F) → (⟨S1x300, .f32⟩ : BufTy).Contents (Elt F)),
    StableHlo.unary main_v39 main_v40 (broadcastInDim S50000x300 ![0, 1] bcast_S1x300_S50000x300_0_1 : (⟨S1x300, .f32⟩ : BufTy).Contents (Elt F) → (⟨S50000x300, .f32⟩ : BufTy).Contents (Elt F)),
    StableHlo.binary main_v38 main_v40 main_v41 (addf : (⟨S50000x300, .f32⟩ : BufTy).Contents (Elt F) → (⟨S50000x300, .f32⟩ : BufTy).Contents (Elt F) → (⟨S50000x300, .f32⟩ : BufTy).Contents (Elt F)),
    StableHlo.unary main_v12 main_v42 (broadcastInDim S50000x1 ![0] bcast_S50000_S50000x1_0 : (⟨S50000, .f32⟩ : BufTy).Contents (Elt F) → (⟨S50000x1, .f32⟩ : BufTy).Contents (Elt F)),
    StableHlo.unary main_v42 main_v43 (broadcastInDim S50000x300 ![0, 1] bcast_S50000x1_S50000x300_0_1 : (⟨S50000x1, .f32⟩ : BufTy).Contents (Elt F) → (⟨S50000x300, .f32⟩ : BufTy).Contents (Elt F)),
    StableHlo.binary main_v43 main_v41 main_v44 (mulf : (⟨S50000x300, .f32⟩ : BufTy).Contents (Elt F) → (⟨S50000x300, .f32⟩ : BufTy).Contents (Elt F) → (⟨S50000x300, .f32⟩ : BufTy).Contents (Elt F)),
    StableHlo.nullary main_c_7 (constantI S_ 32 0#32),
    StableHlo.unary main_c_7 main_v45 (broadcastInDim S300000 ![] bcast_S_S300000 : (⟨S_, .i32⟩ : BufTy).Contents (Elt F) → (⟨S300000, .i32⟩ : BufTy).Contents (Elt F)),
    StableHlo.binary main_v5 main_v45 main_v46 (cmpi .slt : (⟨S300000, .i32⟩ : BufTy).Contents (Elt F) → (⟨S300000, .i32⟩ : BufTy).Contents (Elt F) → (⟨S300000, .i1⟩ : BufTy).Contents (Elt F)),
    StableHlo.nullary main_c_8 (constantI S_ 32 50000#32),
    StableHlo.unary main_c_8 main_v47 (broadcastInDim S300000 ![] bcast_S_S300000 : (⟨S_, .i32⟩ : BufTy).Contents (Elt F) → (⟨S300000, .i32⟩ : BufTy).Contents (Elt F)),
    StableHlo.binary main_v5 main_v47 main_v48 (addi : (⟨S300000, .i32⟩ : BufTy).Contents (Elt F) → (⟨S300000, .i32⟩ : BufTy).Contents (Elt F) → (⟨S300000, .i32⟩ : BufTy).Contents (Elt F)),
    StableHlo.ternary main_v46 main_v48 main_v5 main_v49 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v49 main_v50 (broadcastInDim S300000x1 ![0] bcast_S300000_S300000x1_0 : (⟨S300000, .i32⟩ : BufTy).Contents (Elt F) → (⟨S300000x1, .i32⟩ : BufTy).Contents (Elt F)),
    StableHlo.binary main_v44 main_v50 main_v51 ((fun x i => Host.gather gather_S50000x300_S300000x1_S300000x300_1_0_n_n_0_1_1300 x i) : (⟨S50000x300, .f32⟩ : BufTy).Contents (Elt F) → (⟨S300000x1, .i32⟩ : BufTy).Contents (Elt F) → (⟨S300000x300, .f32⟩ : BufTy).Contents (Elt F)),
    StableHlo.unary main_v12 main_v52 (broadcastInDim S50000x1 ![0] bcast_S50000_S50000x1_0 : (⟨S50000, .f32⟩ : BufTy).Contents (Elt F) → (⟨S50000x1, .f32⟩ : BufTy).Contents (Elt F)),
    StableHlo.nullary main_cst_9 (constant S_ .f32 0x00000000#32),
    StableHlo.unary main_cst_9 main_v53 (broadcastInDim S50000x300 ![] bcast_S_S50000x300 : (⟨S_, .f32⟩ : BufTy).Contents (Elt F) → (⟨S50000x300, .f32⟩ : BufTy).Contents (Elt F)),
    StableHlo.unary main_v6 main_v54 (broadcastInDim S300000x1 ![0] bcast_S300000_S300000x1_0 : (⟨S300000, .i32⟩ : BufTy).Contents (Elt F) → (⟨S300000x1, .i32⟩ : BufTy).Contents (Elt F)),
    StableHlo.ternary main_v53 main_v54 main_v51 main_v55 ((fun x i u => Host.scatterAdd scatter_S50000x300_S300000x1_S300000x300_1_0_0_1 x i u) : (⟨S50000x300, .f32⟩ : BufTy).Contents (Elt F) → (⟨S300000x1, .i32⟩ : BufTy).Contents (Elt F) → (⟨S300000x300, .f32⟩ : BufTy).Contents (Elt F) → (⟨S50000x300, .f32⟩ : BufTy).Contents (Elt F)),
    StableHlo.unary main_v52 main_v56 (broadcastInDim S50000x300 ![0, 1] bcast_S50000x1_S50000x300_0_1 : (⟨S50000x1, .f32⟩ : BufTy).Contents (Elt F) → (⟨S50000x300, .f32⟩ : BufTy).Contents (Elt F)),
    StableHlo.binary main_v56 main_v55 main_v57 (mulf : (⟨S50000x300, .f32⟩ : BufTy).Contents (Elt F) → (⟨S50000x300, .f32⟩ : BufTy).Contents (Elt F) → (⟨S50000x300, .f32⟩ : BufTy).Contents (Elt F)) ]

set_option maxRecDepth 4096 in
set_option maxHeartbeats 4000000 in
/-- The program is that straight line: the two windows of the main function and the two called functions
    unfolded, both sides are one chain of operation steps once sequencing is re-associated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., ternary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., ternary_bufs_sub .., unary_bufs_sub .., binary_bufs_sub ..⟩

/-! ## The result as one term of the arguments

`x` the node features (50000 nodes, 4 slices, 300 channels), `e` the edge list (2 × 250000), `w1 b1 w2 b2`
the two dense layers' weights and biases. -/

/-- The edges' row ends followed by the identity on the nodes: the 250000 edges and the 50000 self loops. -/
def rowAug (e : IVec S2x250000 32) : IVec S300000 32 :=
  concatenate S300000 0 [⟨S250000, shapeCast S250000 (extractStridedSlice S1x250000 ![0, 0] e slices_S2x250000_S1x250000_0_0) shapeCasts_S1x250000_S250000⟩, ⟨S50000, iotaInDim S50000 32 0⟩] concatenates_S250000_S50000_S300000_d0

/-- The edges' column ends followed by the identity on the nodes. -/
def colAug (e : IVec S2x250000 32) : IVec S300000 32 :=
  concatenate S300000 0 [⟨S250000, shapeCast S250000 (extractStridedSlice S1x250000 ![1, 0] e slices_S2x250000_S1x250000_1_0) shapeCasts_S1x250000_S250000⟩, ⟨S50000, iotaInDim S50000 32 0⟩] concatenates_S250000_S50000_S300000_d0

/-- The degree of every node: one added at its row index for every edge and self loop, from zero. -/
def deg (e : IVec S2x250000 32) : FVec F S50000 .f32 :=
  Host.scatterAdd scatter_S50000_S300000x1_S300000_n_0_0_1
    (broadcastInDim S50000 ![] bcast_S_S50000 (constant S_ .f32 0x00000000#32))
    (broadcastInDim S300000x1 ![0] bcast_S300000_S300000x1_0 (rowAug e))
    (broadcastInDim S300000 ![] bcast_S_S300000 (constant S_ .f32 0x3F800000#32))

/-- The degree to the power minus one half. -/
def dis (e : IVec S2x250000 32) : FVec F S50000 .f32 :=
  Host.powf (deg e) (broadcastInDim S50000 ![] bcast_S_S50000 (constant S_ .f32 0xBF000000#32))

/-- That factor repeated along the 300 channels of its node. -/
def disRows (e : IVec S2x250000 32) : FVec F S50000x300 .f32 :=
  broadcastInDim S50000x300 ![0, 1] bcast_S50000x1_S50000x300_0_1 (broadcastInDim S50000x1 ![0] bcast_S50000_S50000x1_0 (dis e))

/-- The row indices as the gather reads them: a negative one moved up by the number of nodes, as a column. -/
def rowIdx (e : IVec S2x250000 32) : IVec S300000x1 32 :=
  broadcastInDim S300000x1 ![0] bcast_S300000_S300000x1_0
    (select (cmpi .slt (rowAug e) (broadcastInDim S300000 ![] bcast_S_S300000 (constantI S_ 32 0#32)))
      (addi (rowAug e) (broadcastInDim S300000 ![] bcast_S_S300000 (constantI S_ 32 50000#32))) (rowAug e))

/-- The column indices as a column. -/
def colIdx (e : IVec S2x250000 32) : IVec S300000x1 32 :=
  broadcastInDim S300000x1 ![0] bcast_S300000_S300000x1_0 (colAug e)

/-- One propagation step on a feature matrix `h`: every row scaled by its node's factor, the rows gathered
    along the row indices and added up at the column indices from zero, every row scaled again. -/
def prop (e : IVec S2x250000 32) (h : FVec F S50000x300 .f32) : FVec F S50000x300 .f32 :=
  mulf (disRows e)
    (Host.scatterAdd scatter_S50000x300_S300000x1_S300000x300_1_0_0_1
      (broadcastInDim S50000x300 ![] bcast_S_S50000x300 (constant S_ .f32 0x00000000#32))
      (colIdx e)
      (Host.gather gather_S50000x300_S300000x1_S300000x300_1_0_n_n_0_1_1300 (mulf (disRows e) h) (rowIdx e)))

/-- The first dense layer: `x · W1ᵀ + b1` on every slice, then the mean over the four slices. -/
def lin1 (x : FVec F S50000x4x300 .f32) (w1 : FVec F S300x300 .f32) (b1 : FVec F S300 .f32) : FVec F S50000x300 .f32 :=
  Host.divf
    (Host.reduceAdd
      (addf (Host.dotGeneral dot_S50000x4x300_S300x300_S50000x4x300_2_1_01_0_n_n none x w1)
        (broadcastInDim S50000x4x300 ![0, 1, 2] bcast_S1x1x300_S50000x4x300_0_1_2 (broadcastInDim S1x1x300 ![2] bcast_S300_S1x1x300_2 b1)))
      (constant S_ .f32 0x00000000#32) reducesTo_S50000x4x300_S50000x300_d1 h_S_)
    (broadcastInDim S50000x300 ![] bcast_S_S50000x300 (constant S_ .f32 0x40800000#32))

/-- The leaky rectifier: `h` where it is at least zero, a hundredth of it elsewhere. -/
def lrelu (h : FVec F S50000x300 .f32) : FVec F S50000x300 .f32 :=
  select (cmpf .oge h (broadcastInDim S50000x300 ![] bcast_S_S50000x300 (constant S_ .f32 0x00000000#32))) h
    (mulf (broadcastInDim S50000x300 ![] bcast_S_S50000x300 (constant S_ .f32 0x3C23D70A#32)) h)

/-- The second dense layer: `h · W2ᵀ + b2`. -/
def lin2 (h : FVec F S50000x300 .f32) (w2 : FVec F S300x300 .f32) (b2 : FVec F S300 .f32) : FVec F S50000x300 .f32 :=
  addf (Host.dotGeneral dot_S50000x300_S300x300_S50000x300_1_0_0_1_n_n none h (transpose S300x300 [1, 0] w2 transposes_S300x300_S300x300_1_0))
    (broadcastInDim S50000x300 ![0, 1] bcast_S1x300_S50000x300_0_1 (broadcastInDim S1x300 ![1] bcast_S300_S1x300_1 b2))

/-- The reference's result: propagate the first layer's output, rectify, apply the second layer, propagate again. -/
def refTerm (x : FVec F S50000x4x300 .f32) (e : IVec S2x250000 32) (w1 : FVec F S300x300 .f32) (b1 : FVec F S300 .f32)
    (w2 : FVec F S300x300 .f32) (b2 : FVec F S300 .f32) : FVec F S50000x300 .f32 :=
  prop e (lin2 (lrelu (prop e (lin1 x w1 b1))) w2 b2)

/-! ## The fold of the operations at the result and at the arguments -/

attribute [local irreducible] Host.scatterAdd Host.gather Host.reduceAdd Host.powf Host.divf in
set_option maxRecDepth 8192 in
set_option maxHeartbeats 4000000 in
/-- After the 76 operations, from any contents `V`, the result buffer holds `refTerm` of the six argument
    buffers' contents in `V`: each operation writes its own buffer only, so reading the result buffer back
    through the list composes the operations' functions; the called functions' operations move their values
    between a buffer's type and the tensor's type, which here are the same type. -/
theorem out_v57 (V : Valuation τ sig (Elt F)) :
    after ops V (main_v57 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-! No operation writes an argument buffer: each keeps its contents. -/

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

theorem arg2_eq (V : Valuation τ sig (Elt F)) : after ops V (main_arg2 : DevRef τ sig) = V (main_arg2 : DevRef τ sig) := by
  after_results_simp

theorem arg3_eq (V : Valuation τ sig (Elt F)) : after ops V (main_arg3 : DevRef τ sig) = V (main_arg3 : DevRef τ sig) := by
  after_results_simp

theorem arg4_eq (V : Valuation τ sig (Elt F)) : after ops V (main_arg4 : DevRef τ sig) = V (main_arg4 : DevRef τ sig) := by
  after_results_simp

theorem arg5_eq (V : Valuation τ sig (Elt F)) : after ops V (main_arg5 : DevRef τ sig) = V (main_arg5 : DevRef τ sig) := by
  after_results_simp

/-! ## The run -/

/-- For any float values, from any memory with zero counters: every weakly fair execution of the reference
    terminates with the result buffer at `refTerm` of the arguments' launch contents and the six arguments
    unchanged. -/
theorem run_gen (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = refTerm (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v57).trans (out_v57 _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

/-- The same at the extended reals, where the two programs are compared. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v57) = refTerm (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_gen m ρ

end Cert.ReferenceIdeal.RefRun

end
-- ==== Proof.Finite.lean ====
/-
  Finiteness of the inputs, read back from the printed precondition.

  The precondition is the conjunction of five tests "every entry of the array satisfies |a| < +∞",
  one per float argument. Each test is a reduction by `and` of the array of comparison bits, and
  the conjunction is 1. A reduction by `and` that is 1 met only 1s, so every comparison bit is 1:
  `max a (-a) < ⊤` on the extended reals. An extended real with `max a (-a) < ⊤` is neither `⊤`
  nor `⊥`, hence a real number.
-/
import proofs.«165257_j88897233092952_2_alg».proof.Pre_finite_inputs
import proofs.«165257_j88897233092952_2_alg».proof.Proof.Gen.Pre_finite_inputs
import Idealize.ShloMosaic.Lib.ReduceAll
import Idealize.ShloMosaic.PureOps.Ideal.Laws
import Idealize.ShloMosaic.Lib.ValueIdx

noncomputable section

namespace Cert.Gcn.Finite

open Idealize.ShloMosaic
open Cert.Pre_finite_inputs Cert.Pre_finite_inputs.Facts

/-- The result shape of a reduction over every axis has one index. -/
instance : Subsingleton S_.Idx := ⟨fun a b => funext fun d => d.elim0⟩

/-- The word `0x7F800000` denotes `+∞`. -/
theorem ofBits_inf : Ideal.ofBits .f32 0x7F800000#32 = ⊤ := by simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The comparison bit `|a| < +∞` being 1 says that `a` is a real number. -/
theorem real_of_cmp (a : Ideal .f32)
    (h : FloatOps.cmpf .olt (FloatOps.hostAbsf a) (FloatOps.ofBits (F := Ideal) .f32 0x7F800000#32) = 1#1) :
    ∃ r : ℝ, (a : EReal) = (r : EReal) := by
  have h' : Ideal.cmp .olt (max (a : EReal) (-(a : EReal))) (Ideal.ofBits .f32 0x7F800000#32) = 1#1 := h
  rw [ofBits_inf] at h'
  unfold Ideal.cmp at h'
  apply real_of_abs_lt_top
  by_contra hn
  simp [hn] at h'

/-- One `jnp.all(|v| < +∞)` that is 1: every entry of `v` is a real number. -/
theorem all_real {s : Shape} {axes : List (Fin s.rank)} (v : FVec Ideal s .f32) (hb : S_.BroadcastsInDim s (![] : Fin 0 → Fin s.rank))
    (hr : s.ReducesTo axes S_) (hu : 0 < S_.numel) (init : IVec S_ 1)
    (h : Host.reduce IntOp.andi (cmpf .olt (Host.absf v) (broadcastInDim s ![] hb (constant S_ .f32 0x7F800000#32))) init hr hu
      ValueIdx.ix0 = 1#1) (i : s.Idx) : ∃ r : ℝ, v i = (r : EReal) := by
  have hi := Host.reduce_andi_all _ init hr hu ValueIdx.ix0 h i
  exact real_of_cmp (v i) hi

theorem of_pre (x : FVec Ideal Cert.Pre_finite_inputs.S50000x4x300 .f32) (e : IVec Cert.Pre_finite_inputs.S2x250000 32)
    (w1 : FVec Ideal Cert.Pre_finite_inputs.S300x300 .f32) (b1 : FVec Ideal Cert.Pre_finite_inputs.S300 .f32)
    (w2 : FVec Ideal Cert.Pre_finite_inputs.S300x300 .f32) (b2 : FVec Ideal Cert.Pre_finite_inputs.S300 .f32)
    (h : Cert.Pre_finite_inputs.fn (F := Ideal) x e w1 b1 w2 b2 = fun _ => 1#1) :
    (∀ i, ∃ r : ℝ, x i = (r : EReal)) ∧ (∀ i, ∃ r : ℝ, w1 i = (r : EReal)) ∧ (∀ i, ∃ r : ℝ, b1 i = (r : EReal)) := by
  have h0 := congrFun h ValueIdx.ix0
  dsimp only [fn, fn_part1] at h0
  -- the conjunction is ((((x ∧ w1) ∧ b1) ∧ w2) ∧ b2): peel it from the outside
  obtain ⟨h1, _⟩ := IntOp.andi_eq_one.1 (show IntOp.andi _ _ = 1#1 from h0)
  obtain ⟨h2, _⟩ := IntOp.andi_eq_one.1 (show IntOp.andi _ _ = 1#1 from h1)
  obtain ⟨h3, hb1⟩ := IntOp.andi_eq_one.1 (show IntOp.andi _ _ = 1#1 from h2)
  obtain ⟨hx, hw1⟩ := IntOp.andi_eq_one.1 (show IntOp.andi _ _ = 1#1 from h3)
  exact ⟨all_real x _ _ _ _ hx, all_real w1 _ _ _ _ hw1, all_real b1 _ _ _ _ hb1⟩

end Cert.Gcn.Finite

end
-- ==== Proof.RefRead.lean ====
import proofs.«165257_j88897233092952_2_alg».proof.Proof.RefRun
import proofs.«165257_j88897233092952_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

/-! The reference's dense stages read at an index, on the extended reals.

Each of the pieces of the reference's result that works row by row — the repeated degree factor, the first
dense layer with its mean over the four slices, the leaky rectifier, the second dense layer — is read here at
one entry (node `n`, channel `o`): a broadcast reads its operand at the coordinates it keeps, a sum over one
axis is the sum over that axis's coordinates, a matrix product is the sum over the contracted coordinate of
the products of the entries. -/

noncomputable section

namespace Cert.ReferenceIdeal.RefRead

open Cert.ReferenceIdeal Cert.ReferenceIdeal.Gen Cert.ReferenceIdeal.RefRun Idealize.ShloMosaic Idealize.ShloMosaic.ValueIdx
open scoped BigOperators

/-- The repeated degree factor at (n, o) is the factor of node `n`. -/
theorem disRows_apply (e : IVec S2x250000 32) (n : Fin 50000) (o : Fin 300) :
    disRows (F := Ideal) e (ix2 n o) = dis (F := Ideal) e (ix1 n) := by
  unfold disRows
  rw [broadcastInDim_apply _ _ _ (ix2 n o) (ix2 n (0 : Fin 1)) (fun a => match a with | ⟨0, _⟩ => rfl | ⟨1, _⟩ => rfl),
    broadcastInDim_apply _ _ _ (ix2 n (0 : Fin 1)) (ix1 n) (fun a => match a with | ⟨0, _⟩ => rfl)]

/-- The leaky rectifier at (n, o): the entry where it is at least zero, the slope times the entry elsewhere. -/
theorem lrelu_apply (h : FVec Ideal S50000x300 .f32) (n : Fin 50000) (o : Fin 300) :
    lrelu (F := Ideal) h (ix2 n o)
      = Scalar.select (FloatOps.cmpf .oge (h (ix2 n o)) (Scalar.ofBits (F := Ideal) .f32 0x00000000#32)) (h (ix2 n o))
          (Scalar.ofBits (F := Ideal) .f32 0x3C23D70A#32 * h (ix2 n o)) := rfl

/-- The second dense layer at (n, o): row `n` of `h` against row `o` of the weights, plus the bias at `o`. -/
theorem lin2_apply (h : FVec Ideal S50000x300 .f32) (w2 : FVec Ideal S300x300 .f32) (b2 : FVec Ideal S300 .f32)
    (n : Fin 50000) (o : Fin 300) :
    lin2 (F := Ideal) h w2 b2 (ix2 n o) = (∑ k : Fin 300, h (ix2 n k) * w2 (ix2 o k)) + b2 (ix1 o) := by
  unfold lin2
  rw [addf_apply]
  refine congrArg₂ (· + ·) ?_ ?_
  · refine (PlainDot.hostDot_apply (M := 50000) (K := 300) (N := 300) h
      (transpose S300x300 [1, 0] w2 transposes_S300x300_S300x300_1_0) (ix2 n o)).trans ?_
    refine Finset.sum_congr rfl fun k _ => ?_
    exact congrArg (h (ix2 n k) * ·) (transpose_ix2_apply w2 transposes_S300x300_S300x300_1_0 k o)
  · rw [broadcastInDim_apply _ _ _ (ix2 n o) (ix2 (0 : Fin 1) o) (fun a => match a with | ⟨0, _⟩ => rfl | ⟨1, _⟩ => rfl),
      broadcastInDim_apply _ _ _ (ix2 (0 : Fin 1) o) (ix1 o) (fun a => match a with | ⟨0, _⟩ => rfl)]

/-! ### The first layer's product: three coordinates on the left, the last one contracted -/

/-- The left operand's node coordinate is the output's. -/
private theorem dot1_lhs0 (j : S50000x4x300.Idx) (q : dot_S50000x4x300_S300x300_S50000x4x300_2_1_01_0_n_n.contr.Idx) :
    (dot_S50000x4x300_S300x300_S50000x4x300_2_1_01_0_n_n.lhsIdx j q 0).val = (j 0).val := by
  unfold DotDims.lhsIdx
  rw [dif_neg (show ¬(0 : Fin S50000x4x300.rank) ∈ dot_S50000x4x300_S300x300_S50000x4x300_2_1_01_0_n_n.lhsBatch from List.not_mem_nil),
    dif_pos (show (0 : Fin S50000x4x300.rank) ∈ dot_S50000x4x300_S300x300_S50000x4x300_2_1_01_0_n_n.lhsNonContracting from List.mem_cons_self)]
  rfl

/-- The left operand's slice coordinate is the output's. -/
private theorem dot1_lhs1 (j : S50000x4x300.Idx) (q : dot_S50000x4x300_S300x300_S50000x4x300_2_1_01_0_n_n.contr.Idx) :
    (dot_S50000x4x300_S300x300_S50000x4x300_2_1_01_0_n_n.lhsIdx j q 1).val = (j 1).val := by
  unfold DotDims.lhsIdx
  rw [dif_neg (show ¬(1 : Fin S50000x4x300.rank) ∈ dot_S50000x4x300_S300x300_S50000x4x300_2_1_01_0_n_n.lhsBatch from List.not_mem_nil),
    dif_pos (show (1 : Fin S50000x4x300.rank) ∈ dot_S50000x4x300_S300x300_S50000x4x300_2_1_01_0_n_n.lhsNonContracting from
      List.mem_cons_of_mem _ List.mem_cons_self)]
  rfl

/-- The right operand's row coordinate is the output's channel. -/
private theorem dot1_rhs0 (j : S50000x4x300.Idx) (q : dot_S50000x4x300_S300x300_S50000x4x300_2_1_01_0_n_n.contr.Idx) :
    (dot_S50000x4x300_S300x300_S50000x4x300_2_1_01_0_n_n.rhsIdx j q 0).val = (j 2).val := by
  unfold DotDims.rhsIdx
  rw [dif_neg (show ¬(0 : Fin S300x300.rank) ∈ dot_S50000x4x300_S300x300_S50000x4x300_2_1_01_0_n_n.rhsBatch from List.not_mem_nil),
    dif_pos (show (0 : Fin S300x300.rank) ∈ dot_S50000x4x300_S300x300_S50000x4x300_2_1_01_0_n_n.rhsNonContracting from List.mem_cons_self)]
  rfl

/-- The first layer's product at (n, t, o): slice `t` of node `n` against row `o` of the weights. -/
theorem dot1_apply (x : FVec Ideal S50000x4x300 .f32) (w1 : FVec Ideal S300x300 .f32) (n : Fin 50000) (t : Fin 4) (o : Fin 300) :
    Host.dotGeneral (F := Ideal) dot_S50000x4x300_S300x300_S50000x4x300_2_1_01_0_n_n none x w1 (ix3 n t o)
      = ∑ k : Fin 300, x (ix3 n t k) * w1 (ix2 o k) := by
  simp only [Host.dotGeneral]
  rw [Ideal.dotGeneral_apply,
    ← Equiv.sum_comp (contrEquiv1 dot_S50000x4x300_S300x300_S50000x4x300_2_1_01_0_n_n 300 rfl rfl).symm]
  refine Finset.sum_congr rfl fun k _ => ?_
  have hk := contrEquiv1_symm_val dot_S50000x4x300_S300x300_S50000x4x300_2_1_01_0_n_n 300 rfl rfl k
  have el : dot_S50000x4x300_S300x300_S50000x4x300_2_1_01_0_n_n.lhsIdx (ix3 n t o)
      ((contrEquiv1 dot_S50000x4x300_S300x300_S50000x4x300_2_1_01_0_n_n 300 rfl rfl).symm k) = ix3 n t k :=
    funext fun a => Fin.ext (by
      match a with
      | ⟨0, _⟩ => exact dot1_lhs0 _ _
      | ⟨1, _⟩ => exact dot1_lhs1 _ _
      | ⟨2, _⟩ => exact (dot_S50000x4x300_S300x300_S50000x4x300_2_1_01_0_n_n.lhsIdx_val_of_single rfl (ix3 n t o) _).trans hk)
  have er : dot_S50000x4x300_S300x300_S50000x4x300_2_1_01_0_n_n.rhsIdx (ix3 n t o)
      ((contrEquiv1 dot_S50000x4x300_S300x300_S50000x4x300_2_1_01_0_n_n 300 rfl rfl).symm k) = ix2 o k :=
    funext fun a => Fin.ext (by
      match a with
      | ⟨0, _⟩ => exact dot1_rhs0 _ _
      | ⟨1, _⟩ => exact (dot_S50000x4x300_S300x300_S50000x4x300_2_1_01_0_n_n.rhsIdx_val_of_single rfl (ix3 n t o) _).trans hk)
  exact congrArg₂ (· * ·) (congrArg x el) (congrArg w1 er)

/-- The host's quotient at an index is the quotient of the entries. -/
private theorem hostDivf_apply {s : Shape} (a b : FVec Ideal s .f32) (i : s.Idx) : Host.divf a b i = Ideal.div (a i) (b i) := rfl

/-- The host's sum over an axis, at an index, is the exact sum from the initial value's entry. -/
private theorem hostReduceAdd_apply {s t u : Shape} {axes : List (Fin s.rank)} (v : FVec Ideal s .f32) (init : u.Idx → Ideal .f32)
    (h : s.ReducesTo axes t) (hu : 0 < u.numel) (j : t.Idx) :
    Host.reduceAdd v init h hu j = Ideal.hostReduceAdd h v (init (Shape.Idx.first hu)) j := rfl

/-- The first dense layer at (n, o): the sum over the four slices of (slice `t` of node `n` against row `o` of the
    weights, plus the bias at `o`), from zero, divided by four. -/
theorem lin1_apply (x : FVec Ideal S50000x4x300 .f32) (w1 : FVec Ideal S300x300 .f32) (b1 : FVec Ideal S300 .f32)
    (n : Fin 50000) (o : Fin 300) :
    lin1 (F := Ideal) x w1 b1 (ix2 n o)
      = Ideal.div (Ideal.ofBits .f32 0x00000000#32 + ∑ t : Fin 4, ((∑ k : Fin 300, x (ix3 n t k) * w1 (ix2 o k)) + b1 (ix1 o)))
          (Ideal.ofBits .f32 0x40800000#32) := by
  have hred : S50000x4x300.Reduces [1] S50000x300 := by decide
  unfold lin1
  rw [hostDivf_apply, hostReduceAdd_apply, Ideal.hostReduceAdd_single _ hred, constant_apply,
    broadcastInDim_apply _ _ _ (ix2 n o) ix0 (fun a => a.elim0), constant_apply]
  refine congrArg (fun s => Ideal.div (Ideal.ofBits .f32 0x00000000#32 + s) (Ideal.ofBits .f32 0x40800000#32)) ?_
  have key : ∀ t : Fin 4,
      addf (Host.dotGeneral dot_S50000x4x300_S300x300_S50000x4x300_2_1_01_0_n_n none x w1)
        (broadcastInDim S50000x4x300 ![0, 1, 2] bcast_S1x1x300_S50000x4x300_0_1_2 (broadcastInDim S1x1x300 ![2] bcast_S300_S1x1x300_2 b1))
        (hred.lift (ix2 n o) t) = (∑ k : Fin 300, x (ix3 n t k) * w1 (ix2 o k)) + b1 (ix1 o) := fun t => by
    have hl : hred.lift (ix2 n o) t = ix3 n t o :=
      funext fun a => Fin.ext (match a with | ⟨0, _⟩ => rfl | ⟨1, _⟩ => rfl | ⟨2, _⟩ => rfl)
    rw [hl, addf_apply, dot1_apply,
      broadcastInDim_apply _ _ _ (ix3 n t o) (ix3 (0 : Fin 1) (0 : Fin 1) o)
        (fun a => match a with | ⟨0, _⟩ => rfl | ⟨1, _⟩ => rfl | ⟨2, _⟩ => rfl),
      broadcastInDim_apply _ _ _ (ix3 (0 : Fin 1) (0 : Fin 1) o) (ix1 o) (fun a => match a with | ⟨0, _⟩ => rfl)]
  exact Finset.sum_congr rfl fun t _ => key t

end Cert.ReferenceIdeal.RefRead

end
-- ==== Proof.LibScatter.lean ====
/-
  The host's scatter and gather along the rows of an array, read at an index.

  `Host.scatter d f x idx upd` is a left fold over the update indices in row-major order. When the
  body `f` is the addition of a commutative monoid the fold's value at an operand index is the
  operand's element plus the sum of the updates whose result index is that element
  (`scatter_add_apply`), the same statement as the definition of the exact float scatter-add
  (`scatterAdd_apply`). For the two row forms (scalar updates `[N]` into `[R]`, row updates
  `[N, C]` into `[R, C]`, one scatter index per update, read off an `[N, 1]` array) the set of
  updates landing on row `r` is the set of `p` whose index word, read signed, is `r`. The row
  gather `[R, C]` at `[N, 1]` start indices reads row `min (index) (R - 1)`.
-/
import Idealize.ShloMosaic.PureOps.Ideal.Laws
import Idealize.ShloMosaic.Lib.ValueIdx

noncomputable section

namespace Cert.Proof.LibScatter

open Idealize.ShloMosaic Idealize.ShloMosaic.ValueIdx
open scoped BigOperators

/-! ## The fold of an additive body -/

section Fold

variable {α : Type} [AddCommMonoid α] {s si u : Shape} {w : Nat}

/-- A fold whose step adds `c n` pointwise: the start value plus the list's contributions. -/
theorem fold_apply {ι : Type} (g : (s.Idx → α) → ι → (s.Idx → α)) (c : ι → s.Idx → α)
    (hg : ∀ r n i, g r n i = r i + c n i) (i : s.Idx) (L : List ι) (r : s.Idx → α) :
    (L.foldl g r) i = r i + (L.map fun n => c n i).sum := by
  induction L generalizing r with
  | nil => simp
  | cons n L ih => rw [List.foldl_cons, ih, hg, List.map_cons, List.sum_cons, add_assoc]

/-- THE SCATTER OF AN ADDITIVE BODY AT AN INDEX: the operand's element plus the sum of the updates
    whose result index is that element. -/
theorem scatter_add_apply (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  unfold Host.scatter
  refine (fold_apply _ (fun n i => if d.resultIdx? (u.rowMajor.symm n) idx = some i then upd (u.rowMajor.symm n) else 0)
    ?_ i _ x).trans ?_
  · intro r n i'
    generalize d.resultIdx? (u.rowMajor.symm n) idx = o
    cases o with
    | none => simp
    | some i₀ =>
      by_cases hi : i' = i₀
      · subst hi; simp [hf]
      · have hne : ¬ (some i₀ = some i') := fun e => hi (Option.some.inj e).symm
        simp [hi, hne]
  · rw [← Fin.sum_univ_def]
    congr 1
    exact Equiv.sum_comp u.rowMajor.symm (fun j => if d.resultIdx? j idx = some i then upd j else 0)

/-- The exact float scatter-add at an index, in the same form. -/
theorem scatterAdd_apply {φ : FTy} (d : ScatterDims s si u) (x : FVec Ideal s φ) (idx : IVec si w)
    (upd : FVec Ideal u φ) (i : s.Idx) :
    Host.scatterAdd d x idx upd i = x i + ∑ j : u.Idx, if d.resultIdx? j idx = some i then upd j else 0 := by
  show Ideal.hostScatterAdd d x idx upd i = _
  unfold Ideal.hostScatterAdd
  rw [Finset.sum_filter]

/-- An update lands on `i` exactly when start plus window coordinate is `i`'s coordinate on every axis. -/
theorem resultIdx?_eq_some_iff (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hall
      have hi := Option.some.inj h
      intro a
      have := congrFun hi a
      have h2 := hall a
      rw [← this]
      simp only
      omega
    · exact absurd h (by simp)
  · intro h
    have hall : ∀ a, 0 ≤ d.start j idx a + (d.window j a : ℤ) ∧ d.start j idx a + (d.window j a : ℤ) < s.size a := by
      intro a; rw [h a]; exact ⟨by omega, by exact_mod_cast (i a).isLt⟩
    rw [dif_pos hall]
    congr 1
    funext a
    refine Fin.ext ?_
    simp only
    rw [h a]; omega

end Fold

/-! ## The row forms -/

section Rows

variable {α : Type} {R C N w : Nat}

/-- A rank-1 index set is its coordinate's range. -/
def idxEquiv1 {n : Nat} : (⟨1, ![n]⟩ : Shape).Idx ≃ Fin n where
  toFun i := i 0
  invFun p := ix1 p
  left_inv i := (eq_ix1 i).symm
  right_inv _ := rfl

theorem sum_idx1 {M : Type} [AddCommMonoid M] {n : Nat} (g : (⟨1, ![n]⟩ : Shape).Idx → M) :
    ∑ i, g i = ∑ p : Fin n, g (ix1 p) :=
  (Equiv.sum_comp (idxEquiv1 (n := n)).symm g).symm

/-- Scalar updates `[N]` into `[R]`, one scatter index per update read off an `[N, 1]` array. -/
abbrev rows1 (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- Row updates `[N, C]` into `[R, C]`, one scatter index per row read off an `[N, 1]` array. -/
abbrev rows2 (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

theorem rows1_start (wf : ScatterDims.WF ⟨1, ![R]⟩ ⟨2, ![N, 1]⟩ ⟨1, ![N]⟩ [] [0] [0] 1)
    (p : Fin N) (idx : IVec ⟨2, ![N, 1]⟩ w) :
    (rows1 R N wf).start (ix1 p) idx 0 = (idx (ix2 p 0)).toInt := by
  unfold ScatterDims.start
  rw [dif_pos (show (0 : Fin 1) ∈ (rows1 R N wf).scatterDimsToOperandDims from List.mem_singleton.mpr rfl)]
  congr 2
  funext b; refine Fin.ext ?_
  match b with
  | ⟨0, _⟩ => rfl
  | ⟨1, _⟩ => rfl

theorem rows1_window (wf : ScatterDims.WF ⟨1, ![R]⟩ ⟨2, ![N, 1]⟩ ⟨1, ![N]⟩ [] [0] [0] 1) (p : Fin N) :
    (rows1 R N wf).window (ix1 p) 0 = 0 := by
  unfold ScatterDims.window
  rw [dif_neg]
  simp [ScatterDims.sKept, Shape.kept]

/-- The update `p` lands on `r` exactly when its index word, read signed, is `r`. -/
theorem rows1_lands (wf : ScatterDims.WF ⟨1, ![R]⟩ ⟨2, ![N, 1]⟩ ⟨1, ![N]⟩ [] [0] [0] 1)
    (p : Fin N) (idx : IVec ⟨2, ![N, 1]⟩ w) (r : Fin R) :
    (rows1 R N wf).resultIdx? (ix1 p) idx = some (ix1 r) ↔ (idx (ix2 p 0)).toInt = (r.val : ℤ) := by
  rw [resultIdx?_eq_some_iff]
  constructor
  · intro h
    have h0 := h 0
    rw [rows1_start, rows1_window, Nat.cast_zero, add_zero] at h0
    exact h0
  · intro h a
    obtain rfl : a = 0 := Subsingleton.elim _ _
    rw [rows1_start, rows1_window, Nat.cast_zero, add_zero]
    exact h

/-- The scatter of an additive body over scalar updates, at row `r`. -/
theorem rows1_scatter_add_apply [AddCommMonoid α]
    (wf : ScatterDims.WF ⟨1, ![R]⟩ ⟨2, ![N, 1]⟩ ⟨1, ![N]⟩ [] [0] [0] 1) (f : α → α → α) (hf : ∀ a b, f a b = a + b)
    (x : (⟨1, ![R]⟩ : Shape).Idx → α) (idx : IVec ⟨2, ![N, 1]⟩ w) (upd : (⟨1, ![N]⟩ : Shape).Idx → α) (r : Fin R) :
    Host.scatter (rows1 R N wf) f x idx upd (ix1 r)
      = x (ix1 r) + ∑ p : Fin N, if (idx (ix2 p 0)).toInt = (r.val : ℤ) then upd (ix1 p) else 0 := by
  rw [scatter_add_apply _ f hf, sum_idx1]
  congr 1
  exact Finset.sum_congr rfl fun p _ => if_congr (rows1_lands wf p idx r) rfl rfl

/-- The exact float scatter-add over scalar updates, at row `r`. -/
theorem rows1_scatterAdd_apply {φ : FTy}
    (wf : ScatterDims.WF ⟨1, ![R]⟩ ⟨2, ![N, 1]⟩ ⟨1, ![N]⟩ [] [0] [0] 1)
    (x : FVec Ideal ⟨1, ![R]⟩ φ) (idx : IVec ⟨2, ![N, 1]⟩ w) (upd : FVec Ideal ⟨1, ![N]⟩ φ) (r : Fin R) :
    Host.scatterAdd (rows1 R N wf) x idx upd (ix1 r)
      = x (ix1 r) + ∑ p : Fin N, if (idx (ix2 p 0)).toInt = (r.val : ℤ) then upd (ix1 p) else 0 := by
  rw [scatterAdd_apply, sum_idx1]
  congr 1
  exact Finset.sum_congr rfl fun p _ => if_congr (rows1_lands wf p idx r) rfl rfl

theorem rows2_start0 (wf : ScatterDims.WF ⟨2, ![R, C]⟩ ⟨2, ![N, 1]⟩ ⟨2, ![N, C]⟩ [1] [0] [0] 1)
    (p : Fin N) (b : Fin C) (idx : IVec ⟨2, ![N, 1]⟩ w) :
    (rows2 R C N wf).start (ix2 p b) idx 0 = (idx (ix2 p 0)).toInt := by
  unfold ScatterDims.start
  rw [dif_pos (show (0 : Fin 2) ∈ (rows2 R C N wf).scatterDimsToOperandDims from List.mem_singleton.mpr rfl)]
  congr 2
  funext b'; refine Fin.ext ?_
  match b' with
  | ⟨0, _⟩ => rfl
  | ⟨1, _⟩ => rfl

theorem rows2_start1 (wf : ScatterDims.WF ⟨2, ![R, C]⟩ ⟨2, ![N, 1]⟩ ⟨2, ![N, C]⟩ [1] [0] [0] 1)
    (p : Fin N) (b : Fin C) (idx : IVec ⟨2, ![N, 1]⟩ w) :
    (rows2 R C N wf).start (ix2 p b) idx 1 = 0 := by
  unfold ScatterDims.start
  rw [dif_neg]
  simp

theorem rows2_window0 (wf : ScatterDims.WF ⟨2, ![R, C]⟩ ⟨2, ![N, 1]⟩ ⟨2, ![N, C]⟩ [1] [0] [0] 1)
    (p : Fin N) (b : Fin C) : (rows2 R C N wf).window (ix2 p b) 0 = 0 := by
  unfold ScatterDims.window
  rw [dif_neg]
  simp [ScatterDims.sKept, Shape.kept]

theorem rows2_window1 (wf : ScatterDims.WF ⟨2, ![R, C]⟩ ⟨2, ![N, 1]⟩ ⟨2, ![N, C]⟩ [1] [0] [0] 1)
    (p : Fin N) (b : Fin C) : (rows2 R C N wf).window (ix2 p b) 1 = b.val := by
  unfold ScatterDims.window
  rw [dif_pos (by simp [ScatterDims.sKept, Shape.kept])]
  rfl

/-- The update `(p, b)` lands on `(r, c)` exactly when `p`'s index word, read signed, is `r` and `b = c`. -/
theorem rows2_lands (wf : ScatterDims.WF ⟨2, ![R, C]⟩ ⟨2, ![N, 1]⟩ ⟨2, ![N, C]⟩ [1] [0] [0] 1)
    (p : Fin N) (b : Fin C) (idx : IVec ⟨2, ![N, 1]⟩ w) (r : Fin R) (c : Fin C) :
    (rows2 R C N wf).resultIdx? (ix2 p b) idx = some (ix2 r c) ↔ (idx (ix2 p 0)).toInt = (r.val : ℤ) ∧ b = c := by
  rw [resultIdx?_eq_some_iff]
  constructor
  · intro h
    have h0 := h 0
    have h1 := h 1
    rw [rows2_start0, rows2_window0, Nat.cast_zero, add_zero] at h0
    rw [rows2_start1, rows2_window1, zero_add] at h1
    refine ⟨h0, Fin.ext ?_⟩
    have h1' : ((b.val : ℕ) : ℤ) = ((c.val : ℕ) : ℤ) := h1
    exact_mod_cast h1'
  · rintro ⟨h, rfl⟩ a
    match a with
    | ⟨0, _⟩ =>
      show (rows2 R C N wf).start (ix2 p b) idx 0 + ((rows2 R C N wf).window (ix2 p b) 0 : ℤ) = _
      rw [rows2_start0, rows2_window0, Nat.cast_zero, add_zero]; exact h
    | ⟨1, _⟩ =>
      show (rows2 R C N wf).start (ix2 p b) idx 1 + ((rows2 R C N wf).window (ix2 p b) 1 : ℤ) = _
      rw [rows2_start1, rows2_window1, zero_add]

/-- The exact float scatter-add over row updates, at `(r, c)`. -/
theorem rows2_scatterAdd_apply {φ : FTy}
    (wf : ScatterDims.WF ⟨2, ![R, C]⟩ ⟨2, ![N, 1]⟩ ⟨2, ![N, C]⟩ [1] [0] [0] 1)
    (x : FVec Ideal ⟨2, ![R, C]⟩ φ) (idx : IVec ⟨2, ![N, 1]⟩ w) (upd : FVec Ideal ⟨2, ![N, C]⟩ φ) (r : Fin R) (c : Fin C) :
    Host.scatterAdd (rows2 R C N wf) x idx upd (ix2 r c)
      = x (ix2 r c) + ∑ p : Fin N, if (idx (ix2 p 0)).toInt = (r.val : ℤ) then upd (ix2 p c) else 0 := by
  rw [scatterAdd_apply, sum_idx2]
  congr 1
  refine Finset.sum_congr rfl fun p _ => ?_
  have hb : ∀ b : Fin C, (if (rows2 R C N wf).resultIdx? (ix2 p b) idx = some (ix2 r c) then upd (ix2 p b) else 0)
      = if b = c then (if (idx (ix2 p 0)).toInt = (r.val : ℤ) then upd (ix2 p c) else 0) else 0 := by
    intro b
    rw [if_congr (rows2_lands wf p b idx r c) rfl rfl]
    by_cases hbc : b = c
    · subst hbc; simp
    · simp [hbc]
  simp only [hb, Finset.sum_ite_eq', Finset.mem_univ, if_true]

/-- Rows of an `[R, C]` array gathered at `[N, 1]` start indices. -/
abbrev rowsG (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, c)`: row `min (index word, read signed) (R - 1)`, column `c`. -/
theorem rowsG_apply (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (p : Fin N) (c : Fin C) (k : Fin R)
    (hk : k.val = min (idx (ix2 p 0)).toInt.toNat (R - 1)) :
    Host.gather (rowsG R C N wf) x idx (ix2 p c) = x (ix2 k c) := by
  unfold Host.gather
  congr 1
  funext a
  refine Fin.ext ?_
  match a with
  | ⟨0, _⟩ =>
    show (rowsG R C N wf).start (ix2 p c) idx 0 + (rowsG R C N wf).batchCoord (ix2 p c) 0 + (rowsG R C N wf).offCoord (ix2 p c) 0 = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsG R C N wf).startIndexMap from List.mem_singleton.mpr rfl), hk]
    have hsi : (rowsG R C N wf).siIdx (ix2 p c) ⟨List.idxOf (0 : Fin 2) (rowsG R C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowsG R C N wf).start (ix2 p c) idx 1 + (rowsG R C N wf).batchCoord (ix2 p c) 1 + (rowsG R C N wf).offCoord (ix2 p c) 1 = c.val
    rw [GatherDims.batchCoord_eq_zero _ _ _ List.not_mem_nil]
    have hs : (rowsG R C N wf).start (ix2 p c) idx 1 = 0 := by
      unfold GatherDims.start
      rw [dif_neg]
      simp
    have ho : (rowsG R C N wf).offCoord (ix2 p c) 1 = c.val := by
      unfold GatherDims.offCoord
      rw [dif_pos (by simp [GatherDims.sKept, Shape.kept])]
      rfl
    rw [hs, ho]; omega

end Rows

end Cert.Proof.LibScatter

end
-- ==== Proof.DegPos.lean ====
/-
  Every degree is positive.

  The augmented row-index vector is the first row of the edge list followed by `0, 1, …, 49999`
  (one self loop per node), 300000 entries. The degree vector is the scatter-add of 300000 ones
  into a zero vector of length 50000 at these indices: entry `r` is `0 +` the number of positions
  `p` whose index word, read signed, is `r`. Position `250000 + r` holds the word of `r`, which read
  signed is `r` (it is below `2^31`), so that position contributes a one; every other position
  contributes zero or one. Hence the sum is at least one and the degree is positive.
-/
import proofs.«165257_j88897233092952_2_alg».proof.ReferenceIdeal
import proofs.«165257_j88897233092952_2_alg».proof.Proof.Gen.ReferenceIdeal
import proofs.«165257_j88897233092952_2_alg».proof.Proof.LibScatter
import Idealize.ShloMosaic.Lib.Pipeline.Value
import Idealize.ShloMosaic.Lib.IdealHost
import Idealize.ShloMosaic.Lib.ValueIdx
import Idealize.ShloMosaic.PureOps.Ideal.Laws

noncomputable section

namespace Cert.Gcn.DegPos

open Idealize.ShloMosaic Idealize.ShloMosaic.ValueIdx
open Cert.ReferenceIdeal Cert.ReferenceIdeal.Facts₀
open scoped BigOperators

/-- The augmented row indices: row 0 of the edge list, then one self loop per node. -/
def rowAug (e : IVec S2x250000 32) : IVec S300000 32 :=
  concatenate S300000 0
    [⟨S250000, shapeCast S250000 (extractStridedSlice S1x250000 ![0, 0] e slices_S2x250000_S1x250000_0_0) shapeCasts_S1x250000_S250000⟩,
     ⟨S50000, iotaInDim S50000 32 0⟩] concatenates_S250000_S50000_S300000_d0

/-- The degree vector: ones scattered by the augmented row indices into zeros. -/
def deg (e : IVec S2x250000 32) : FVec Ideal S50000 .f32 :=
  Host.scatterAdd scatter_S50000_S300000x1_S300000_n_0_0_1
    (broadcastInDim S50000 ![] bcast_S_S50000 (constant S_ .f32 0x00000000#32))
    (broadcastInDim S300000x1 ![0] bcast_S300000_S300000x1_0 (rowAug e))
    (broadcastInDim S300000 ![] bcast_S_S300000 (constant S_ .f32 0x3F800000#32))

/-- The word `0x3F800000` denotes one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- Position `250000 + r` of the augmented row indices holds the word of `r`. -/
theorem rowAug_self (e : IVec S2x250000 32) (r : Fin 50000) (p : Fin 300000) (hp : p.val = 250000 + r.val) :
    rowAug e (ix1 p) = BitVec.ofNat 32 r.val := by
  unfold rowAug
  refine (concatenate_pair_apply_right (t := S300000) (s₁ := S250000) (s₂ := S50000) (0 : Fin 1) _ _ concatenates_S250000_S50000_S300000_d0 (ix1 p) rfl rfl (ix1 r) ?_ ?_).trans ?_
  · intro b hb
    exact absurd (Subsingleton.elim _ _) hb
  · show r.val + 250000 = p.val
    omega
  · rfl

/-- The index array (one column) read at update `p` is the augmented row index at `p`. -/
theorem idx_apply (e : IVec S2x250000 32) (p : Fin 300000) :
    broadcastInDim S300000x1 ![0] bcast_S300000_S300000x1_0 (rowAug e) (ix2 p 0) = rowAug e (ix1 p) := by
  refine broadcastInDim_apply _ _ _ _ (ix1 p) ?_
  intro a
  match a with
  | ⟨0, _⟩ =>
    show p.val = if (300000 : ℕ) = 1 then 0 else p.val
    rw [if_neg (by decide)]

/-- A word below `50000` read signed is itself. -/
theorem toInt_ofNat_small (n : ℕ) (h : n < 50000) : (BitVec.ofNat 32 n).toInt = (n : ℤ) := by
  rw [BitVec.toInt_eq_toNat_cond, BitVec.toNat_ofNat]
  have hn : n % 2 ^ 32 = n := Nat.mod_eq_of_lt (by omega)
  rw [hn, if_pos (by omega)]

/-- The degree of node `r` is the number of positions of the augmented row indices that hold `r`. -/
theorem deg_apply (e : IVec S2x250000 32) (r : Fin 50000) :
    deg e (ix1 r) = 0 + ∑ p : Fin 300000, if (rowAug e (ix1 p)).toInt = (r.val : ℤ) then (1 : EReal) else 0 := by
  have H := Cert.Proof.LibScatter.rows1_scatterAdd_apply (R := 50000) (N := 300000) (φ := .f32)
    scatter_S50000_S300000x1_S300000_n_0_0_1_wf
    (broadcastInDim S50000 ![] bcast_S_S50000 (constant (F := Ideal) S_ .f32 0x00000000#32))
    (broadcastInDim S300000x1 ![0] bcast_S300000_S300000x1_0 (rowAug e))
    (broadcastInDim S300000 ![] bcast_S_S300000 (constant (F := Ideal) S_ .f32 0x3F800000#32)) r
  refine H.trans (congrArg₂ (· + ·) ?_ ?_)
  · exact Ideal.ofBits_zero_f32
  · refine Finset.sum_congr rfl fun p _ => ?_
    rw [idx_apply]
    exact if_congr Iff.rfl ofBits_one_f32 rfl

/-- Every degree is positive: the self loop of node `r` contributes a one. -/
theorem deg_pos (e : IVec S2x250000 32) (r : Fin 50000) : (0 : EReal) < deg e (ValueIdx.ix1 r) := by
  rw [deg_apply, zero_add]
  have hp : 250000 + r.val < 300000 := by omega
  have h1 : (if (rowAug e (ix1 (⟨250000 + r.val, hp⟩ : Fin 300000))).toInt = (r.val : ℤ) then (1 : EReal) else 0) = 1 := by
    rw [if_pos]
    rw [rowAug_self e r ⟨250000 + r.val, hp⟩ rfl]
    exact toInt_ofNat_small r.val r.isLt
  have hle := Finset.single_le_sum
    (f := fun p : Fin 300000 => if (rowAug e (ix1 p)).toInt = (r.val : ℤ) then (1 : EReal) else 0)
    (fun p _ => show (0 : EReal) ≤ (if (rowAug e (ix1 p)).toInt = (r.val : ℤ) then (1 : EReal) else 0) by
      split_ifs <;> simp) (Finset.mem_univ (⟨250000 + r.val, hp⟩ : Fin 300000))
  refine lt_of_lt_of_le ?_ hle
  show (0 : EReal) < (if (rowAug e (ix1 (⟨250000 + r.val, hp⟩ : Fin 300000))).toInt = (r.val : ℤ) then (1 : EReal) else 0)
  rw [h1]
  exact zero_lt_one

end Cert.Gcn.DegPos

end
-- ==== Proof.Law.lean ====
/-
  The three facts about extended reals that join the two programs.

  * The mean over the pooled axis commutes with the linear map: for finite entries, the mean over `t` of
    `(∑ k, X t k · W k) + β` is `(∑ k, (mean over t of X t k) · W k) + β`. On the extended reals this needs every
    entry finite (a division by four distributes over a sum only away from the infinities), so it is proved over the
    reals and transported along the coercion.
  * The activation keeps `v` where `v > 0` in one program and where `v ≥ 0` in the other; at `v = 0` the slope
    times `v` is `0 = v`, so the two selections agree everywhere.
  * A guard `g > 0` around `g ^ y` is the identity at a positive `g`.
-/
import Idealize.ShloMosaic.PureOps.Ideal.Laws

noncomputable section

namespace Cert.Gcn.Law

open Idealize.ShloMosaic
open scoped BigOperators

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word `0x40800000` denotes the real 4. -/
theorem ofBits_four : Ideal.ofBits .f32 0x40800000#32 = ((4 : ℝ) : EReal) := by
  simp [Ideal.ofBits, Ideal.ieee, -EReal.coe_mul]; norm_num

/-- Over the reals: the mean of the four affine images is the affine image of the mean. -/
theorem mean_linear_real (X : Fin 4 → Fin 300 → ℝ) (W : Fin 300 → ℝ) (β : ℝ) :
    (∑ k, (∑ t, X t k) * (1 / 4) * W k) + β = (∑ t, ((∑ k, X t k * W k) + β)) * (1 / 4) := by
  have h1 : ∀ k, (∑ t, X t k) * (1 / 4) * W k = (∑ t, X t k * W k) * (1 / 4) := fun k => by
    rw [Finset.sum_mul, Finset.sum_mul, Finset.sum_mul]
    exact Finset.sum_congr rfl fun t _ => by ring
  rw [Finset.sum_add_distrib, Finset.sum_const, Finset.card_univ, Fintype.card_fin, Finset.sum_comm]
  simp only [h1, ← Finset.sum_mul]
  rw [nsmul_eq_mul]
  push_cast
  ring

/-- The same on the extended reals, for finite entries, with the two programs' words for 0 and 4. -/
theorem mean_linear (X : Fin 4 → Fin 300 → ℝ) (W : Fin 300 → ℝ) (β : ℝ) :
    (∑ k, Ideal.div (∑ t, (X t k : EReal)) (Ideal.ofBits .f32 0x40800000#32) * (W k : EReal)) + (β : EReal)
      = Ideal.div (Ideal.ofBits .f32 0x00000000#32 + ∑ t, ((∑ k, (X t k : EReal) * (W k : EReal)) + (β : EReal)))
          (Ideal.ofBits .f32 0x40800000#32) := by
  rw [ofBits_four, Ideal.ofBits_zero_f32, zero_add]
  simp only [Ideal.div_coe (by norm_num : (4 : ℝ) ≠ 0)]
  simp only [← coe_sum, ← EReal.coe_mul, ← EReal.coe_add]
  exact congrArg _ (mean_linear_real X W β)

/-- Keeping `v` where it is above zero, or where it is at least zero, and the slope times `v` elsewhere: one function. -/
theorem leaky_cmp (v s : EReal) :
    Scalar.select (Ideal.cmp .ogt v (Ideal.ofBits .f32 0x00000000#32)) v (s * v)
      = Scalar.select (Ideal.cmp .oge v (Ideal.ofBits .f32 0x00000000#32)) v (s * v) := by
  rw [Ideal.ofBits_zero_f32]
  unfold Ideal.cmp Scalar.select
  rcases lt_trichotomy v 0 with h | h | h
  · have h1 : ¬ (0 < v) := not_lt.mpr h.le
    have h2 : ¬ (0 ≤ v) := not_le.mpr h
    simp [h1, h2]
  · subst h; simp
  · simp [h, h.le]

/-- At a positive base the guard `base > 0` selects the power. -/
theorem guard_pos (g y : EReal) (hg : 0 < g) :
    Scalar.select (Ideal.cmp .ogt g (Ideal.ofBits .f32 0x00000000#32)) (Ideal.pow g y) (Ideal.ofBits .f32 0x00000000#32)
      = Ideal.pow g y := by
  rw [Ideal.ofBits_zero_f32]
  unfold Ideal.cmp Scalar.select
  simp [hg]

end Cert.Gcn.Law

end
-- ==== Proof.Bridge.lean ====
/-
  Each dense stage of the tiled program, as a whole-array function, equals the corresponding operations of the plain
  program. The column vector `dK` (one entry per row, kept as a two-axis array) and the row-constant array `dRows`
  (the same entry repeated along each row) are related by `dRows (n, o) = dK (n, 0)`; the weights enter one side
  transposed (`wt (k, o) = w (o, k)`) and the bias as a one-row array (`br (0, o) = b o`). The other side's operations
  are taken through their value at an index (`hL…`), so nothing here depends on how they are spelt.
-/
import proofs.«165257_j88897233092952_2_alg».proof.Proof.Spec
import proofs.«165257_j88897233092952_2_alg».proof.Proof.Law
import Idealize.ShloMosaic.Lib.ValueIdx

noncomputable section

namespace Cert.Gcn.Bridge

open Idealize.ShloMosaic Idealize.ShloMosaic.ValueIdx
open scoped BigOperators

variable (dK : FVec Ideal ⟨2, ![50000, 1]⟩ .f32) (dRows : FVec Ideal ⟨2, ![50000, 300]⟩ .f32)
  (hd : ∀ (n : Fin 50000) (o : Fin 300), dRows (ix2 n o) = dK (ix2 n (0 : Fin 1)))
include hd

/-- Scaling the rows by the column vector is the pointwise product with the row-constant array. -/
theorem scale_eq (a : FVec Ideal ⟨2, ![50000, 300]⟩ .f32) : Cert.Gcn.scale a dK = mulf dRows a := by
  funext j
  obtain ⟨n, o, rfl⟩ : ∃ (n : Fin 50000) (o : Fin 300), j = ix2 n o := ⟨j 0, j 1, eq_ix2 j⟩
  rw [Cert.Gcn.scale_ix2, mulf_apply, hd]
  rfl

/-- The activation: the two programs select on `v > 0` and on `v ≥ 0`, which agree (`Law.leaky_cmp`). -/
theorem leaky_eq (a : FVec Ideal ⟨2, ![50000, 300]⟩ .f32)
    (L : FVec Ideal ⟨2, ![50000, 300]⟩ .f32 → FVec Ideal ⟨2, ![50000, 300]⟩ .f32)
    (hL : ∀ (h : FVec Ideal ⟨2, ![50000, 300]⟩ .f32) (n : Fin 50000) (o : Fin 300), L h (ix2 n o)
      = Scalar.select (FloatOps.cmpf .oge (h (ix2 n o)) (Scalar.ofBits (F := Ideal) .f32 0x00000000#32)) (h (ix2 n o))
          (Scalar.ofBits (F := Ideal) .f32 0x3C23D70A#32 * h (ix2 n o))) :
    Cert.Gcn.leaky a dK = L (mulf dRows a) := by
  funext j
  obtain ⟨n, o, rfl⟩ : ∃ (n : Fin 50000) (o : Fin 300), j = ix2 n o := ⟨j 0, j 1, eq_ix2 j⟩
  rw [Cert.Gcn.leaky_ix2, hL, mulf_apply, hd]
  exact Law.leaky_cmp _ _

/-- The second linear stage. -/
theorem lin2_eq (h : FVec Ideal ⟨2, ![50000, 300]⟩ .f32) (wt : FVec Ideal ⟨2, ![300, 300]⟩ .bf16) (br : FVec Ideal ⟨2, ![1, 300]⟩ .f32)
    (w : FVec Ideal ⟨2, ![300, 300]⟩ .f32) (b : FVec Ideal ⟨1, ![300]⟩ .f32)
    (hwt : ∀ k o : Fin 300, wt (ix2 k o) = w (ix2 o k)) (hbr : ∀ o : Fin 300, br (ix2 (0 : Fin 1) o) = b (ix1 o))
    (L2 : FVec Ideal ⟨2, ![50000, 300]⟩ .f32)
    (hL2 : ∀ (n : Fin 50000) (o : Fin 300), L2 (ix2 n o) = (∑ k : Fin 300, h (ix2 n k) * w (ix2 o k)) + b (ix1 o)) :
    Cert.Gcn.lin2 h wt br dK = mulf dRows L2 := by
  funext j
  obtain ⟨n, o, rfl⟩ : ∃ (n : Fin 50000) (o : Fin 300), j = ix2 n o := ⟨j 0, j 1, eq_ix2 j⟩
  rw [Cert.Gcn.lin2_ix2, mulf_apply, hd, hL2]
  unfold Cert.Gcn.lin2At
  simp only [hwt, hbr]

/-- The first linear stage: the mean is taken before the product on one side and after it on the other; for finite
    entries the two agree (`Law.mean_linear`). -/
theorem lin1_eq (x : FVec Ideal ⟨3, ![50000, 4, 300]⟩ .f32) (wt : FVec Ideal ⟨2, ![300, 300]⟩ .bf16) (br : FVec Ideal ⟨2, ![1, 300]⟩ .f32)
    (w : FVec Ideal ⟨2, ![300, 300]⟩ .f32) (b : FVec Ideal ⟨1, ![300]⟩ .f32)
    (hwt : ∀ k o : Fin 300, wt (ix2 k o) = w (ix2 o k)) (hbr : ∀ o : Fin 300, br (ix2 (0 : Fin 1) o) = b (ix1 o))
    (hx : ∀ i, ∃ r : ℝ, x i = (r : EReal)) (hw : ∀ i, ∃ r : ℝ, w i = (r : EReal)) (hb : ∀ i, ∃ r : ℝ, b i = (r : EReal))
    (L1 : FVec Ideal ⟨2, ![50000, 300]⟩ .f32)
    (hL1 : ∀ (n : Fin 50000) (o : Fin 300), L1 (ix2 n o)
      = Ideal.div (Ideal.ofBits .f32 0x00000000#32 + ∑ t : Fin 4, ((∑ k : Fin 300, x (ix3 n t k) * w (ix2 o k)) + b (ix1 o)))
          (Ideal.ofBits .f32 0x40800000#32)) :
    Cert.Gcn.lin1 x wt br dK = mulf dRows L1 := by
  choose xr hxr using hx
  choose wr hwr using hw
  choose b' hb' using hb
  funext j
  obtain ⟨n, o, rfl⟩ : ∃ (n : Fin 50000) (o : Fin 300), j = ix2 n o := ⟨j 0, j 1, eq_ix2 j⟩
  rw [Cert.Gcn.lin1_ix2, mulf_apply, hd, hL1]
  unfold Cert.Gcn.lin1At
  simp only [hwt, hbr, hxr, hwr, hb']
  exact congrArg (fun s => dK (ix2 n (0 : Fin 1)) * s)
    (Law.mean_linear (fun t k => xr (ix3 n t k)) (fun k => wr (ix2 o k)) (b' (ix1 o)))

end Cert.Gcn.Bridge

end
-- ==== Proof.Glue.lean ====
/-
  The host operations that prepare the dense stages' operands, read at an index.

  * The weights enter a stage transposed (and narrowed, which changes no value on the extended reals):
    entry `(k, o)` of the operand is entry `(o, k)` of the weights.
  * The bias enters as a one-row array: entry `(0, o)` is entry `o` of the bias.
  * The column vector of scales is `deg ^ (-1/2)` guarded by `deg > 0`; every degree is positive, so entry `(n, 0)`
    is `deg n ^ (-1/2)`.
  * A scalar constant broadcast to any shape reads its word everywhere.
-/
import proofs.«165257_j88897233092952_2_alg».proof.Proof.Law
import proofs.«165257_j88897233092952_2_alg».proof.Proof.LibColumn
import Idealize.ShloMosaic.Lib.ValueIdx
import Idealize.ShloMosaic.Lib.ValueLayout
import Idealize.ShloMosaic.Lib.Pipeline.Value

noncomputable section

namespace Cert.Gcn.Glue

open Idealize.ShloMosaic Idealize.ShloMosaic.ValueIdx

/-- A scalar constant broadcast to a shape reads its word at every index. -/
theorem splat_apply {t : Shape} {φ : FTy} (h : (⟨0, ![]⟩ : Shape).BroadcastsInDim t (![] : Fin 0 → Fin t.rank)) (b : BitVec φ.bits)
    (j : t.Idx) : broadcastInDim t ![] h (constant (F := Ideal) ⟨0, ![]⟩ φ b) j = Ideal.ofBits φ b :=
  broadcastInDim_apply _ h _ j ix0 (fun a => a.elim0)

/-- The transposed, narrowed weights at `(k, o)` are the weights at `(o, k)`. -/
theorem wt_apply (w : FVec Ideal ⟨2, ![300, 300]⟩ .f32) (ht : (⟨2, ![300, 300]⟩ : Shape).Transposes [1, 0] ⟨2, ![300, 300]⟩)
    (hb : FTy.bf16.bits < FTy.f32.bits) (k o : Fin 300) :
    (truncf .bf16 (transpose ⟨2, ![300, 300]⟩ [1, 0] w ht) hb : FVec Ideal ⟨2, ![300, 300]⟩ .bf16) (ix2 k o) = w (ix2 o k) :=
  transpose_ix2_apply w ht k o

/-- The bias as a one-row array at `(0, o)` is the bias at `o`. -/
theorem br_apply (b : FVec Ideal ⟨1, ![300]⟩ .f32) (h : (⟨1, ![300]⟩ : Shape).ShapeCasts ⟨2, ![1, 300]⟩) (o : Fin 300) :
    shapeCast ⟨2, ![1, 300]⟩ b h (ix2 (0 : Fin 1) o) = b (ix1 o) :=
  shapeCast_a_1a_apply b h 0 o

/-- The guarded inverse square root of the degrees, kept as a column, at `(n, 0)`: the power itself, the degree
    being positive. -/
theorem dK_apply (deg : FVec Ideal ⟨1, ![50000]⟩ .f32) (hdeg : ∀ r : Fin 50000, (0 : EReal) < deg (ix1 r))
    (hb : (⟨0, ![]⟩ : Shape).BroadcastsInDim ⟨1, ![50000]⟩ (![] : Fin 0 → Fin 1))
    (hc : (⟨1, ![50000]⟩ : Shape).ShapeCasts ⟨2, ![50000, 1]⟩) (n : Fin 50000) :
    shapeCast ⟨2, ![50000, 1]⟩
        (select (cmpf .ogt deg (broadcastInDim ⟨1, ![50000]⟩ ![] hb (constant (F := Ideal) ⟨0, ![]⟩ .f32 0x00000000#32)))
          (Host.powf deg (broadcastInDim ⟨1, ![50000]⟩ ![] hb (constant (F := Ideal) ⟨0, ![]⟩ .f32 0xBF000000#32)))
          (broadcastInDim ⟨1, ![50000]⟩ ![] hb (id (constant (F := Ideal) ⟨0, ![]⟩ .f32 0x00000000#32)))) hc (ix2 n (0 : Fin 1))
      = Ideal.pow (deg (ix1 n)) (Ideal.ofBits .f32 0xBF000000#32) := by
  rw [ColumnLayout.shapeCast_a_a1_apply]
  show Scalar.select (Ideal.cmp .ogt (deg (ix1 n)) (broadcastInDim ⟨1, ![50000]⟩ ![] hb (constant (F := Ideal) ⟨0, ![]⟩ .f32 0x00000000#32) (ix1 n)))
      (Ideal.pow (deg (ix1 n)) (broadcastInDim ⟨1, ![50000]⟩ ![] hb (constant (F := Ideal) ⟨0, ![]⟩ .f32 0xBF000000#32) (ix1 n)))
      (broadcastInDim ⟨1, ![50000]⟩ ![] hb (constant (F := Ideal) ⟨0, ![]⟩ .f32 0x00000000#32) (ix1 n)) = _
  rw [splat_apply, splat_apply]
  exact Law.guard_pos _ _ (hdeg n)

/-- The plain inverse square root of the degrees at `n`. -/
theorem dis_apply (deg : FVec Ideal ⟨1, ![50000]⟩ .f32)
    (hb : (⟨0, ![]⟩ : Shape).BroadcastsInDim ⟨1, ![50000]⟩ (![] : Fin 0 → Fin 1)) (n : Fin 50000) :
    Host.powf deg (broadcastInDim ⟨1, ![50000]⟩ ![] hb (constant (F := Ideal) ⟨0, ![]⟩ .f32 0xBF000000#32)) (ix1 n)
      = Ideal.pow (deg (ix1 n)) (Ideal.ofBits .f32 0xBF000000#32) := by
  show Ideal.pow (deg (ix1 n)) (broadcastInDim ⟨1, ![50000]⟩ ![] hb (constant (F := Ideal) ⟨0, ![]⟩ .f32 0xBF000000#32) (ix1 n)) = _
  rw [splat_apply]

end Cert.Gcn.Glue

end
-- ==== Proof.Final.lean ====
/-
  The tiled program's result array and the plain program's result array are one function of the six arguments.

  The degree array, the index vectors and the gather-then-scatter step are the same operations in both programs and
  are never opened here beyond one fact: every degree is positive (each node's self loop adds one), so the guard
  `deg > 0` around `deg ^ (-1/2)` is the identity and the two programs scale by the same numbers. With that, each
  dense stage agrees with its counterpart (`Bridge`), the first one using that the inputs are finite.
-/
import proofs.«165257_j88897233092952_2_alg».proof.Proof.KVal
import proofs.«165257_j88897233092952_2_alg».proof.Proof.RefRun
import proofs.«165257_j88897233092952_2_alg».proof.Proof.RefRead
import proofs.«165257_j88897233092952_2_alg».proof.Proof.Finite
import proofs.«165257_j88897233092952_2_alg».proof.Proof.DegPos
import proofs.«165257_j88897233092952_2_alg».proof.Proof.Bridge
import proofs.«165257_j88897233092952_2_alg».proof.Proof.Glue
import proofs.«165257_j88897233092952_2_alg».proof.Proof.Spec

noncomputable section

namespace Cert.Gcn.Final

open Idealize.ShloMosaic Idealize.ShloMosaic.ValueIdx
open Cert.KernelIdeal.KVal (degK dK PK wtK brK)
open Cert.ReferenceIdeal (RefRun.deg RefRun.dis RefRun.disRows RefRun.lin1 RefRun.lin2 RefRun.lrelu RefRun.refTerm)

/-- The two programs build the degree array by the same operations. -/
theorem degK_eq (e : IVec Cert.KernelIdeal.S2x250000 32) : degK e = Cert.ReferenceIdeal.RefRun.deg (F := Ideal) e := rfl

theorem deg_eq (e : IVec Cert.ReferenceIdeal.S2x250000 32) : Cert.ReferenceIdeal.RefRun.deg (F := Ideal) e = Cert.Gcn.DegPos.deg e := rfl

/-- Every degree is positive. -/
theorem degK_pos (e : IVec Cert.KernelIdeal.S2x250000 32) (r : Fin 50000) : (0 : EReal) < degK e (ix1 r) := by
  rw [degK_eq, deg_eq]; exact Cert.Gcn.DegPos.deg_pos e r

/-- The row-constant scale array of one program reads, along row `n`, the other program's column entry `(n, 0)`. -/
theorem hd (e : IVec Cert.KernelIdeal.S2x250000 32) (n : Fin 50000) (o : Fin 300) :
    Cert.ReferenceIdeal.RefRun.disRows (F := Ideal) e (ix2 n o) = dK e (ix2 n (0 : Fin 1)) := by
  have h1 : dK e (ix2 n (0 : Fin 1)) = Ideal.pow (degK e (ix1 n)) (Ideal.ofBits .f32 0xBF000000#32) := by
    unfold dK; exact Cert.Gcn.Glue.dK_apply (degK e) (degK_pos e) _ _ n
  have h2 : Cert.ReferenceIdeal.RefRun.dis (F := Ideal) e (ix1 n)
      = Ideal.pow (Cert.ReferenceIdeal.RefRun.deg (F := Ideal) e (ix1 n)) (Ideal.ofBits .f32 0xBF000000#32) := by
    unfold Cert.ReferenceIdeal.RefRun.dis; exact Cert.Gcn.Glue.dis_apply _ _ n
  rw [Cert.ReferenceIdeal.RefRead.disRows_apply, h1, h2, degK_eq]

/-- The result arrays agree, for finite features, first-layer weights and first-layer bias. -/
theorem kernel_eq_ref (x : FVec Ideal Cert.KernelIdeal.S50000x4x300 .f32) (e : IVec Cert.KernelIdeal.S2x250000 32)
    (w1 : FVec Ideal Cert.KernelIdeal.S300x300 .f32) (b1 : FVec Ideal Cert.KernelIdeal.S300 .f32)
    (w2 : FVec Ideal Cert.KernelIdeal.S300x300 .f32) (b2 : FVec Ideal Cert.KernelIdeal.S300 .f32)
    (hx : ∀ i, ∃ r : ℝ, x i = (r : EReal)) (hw1 : ∀ i, ∃ r : ℝ, w1 i = (r : EReal)) (hb1 : ∀ i, ∃ r : ℝ, b1 i = (r : EReal)) :
    Cert.Gcn.scale (PK e (Cert.Gcn.lin2 (Cert.Gcn.leaky (PK e (Cert.Gcn.lin1 x (wtK w1) (brK b1) (dK e))) (dK e)) (wtK w2) (brK b2) (dK e))) (dK e)
      = Cert.ReferenceIdeal.RefRun.refTerm (F := Ideal) x e w1 b1 w2 b2 := by
  have E3 := Cert.Gcn.Bridge.scale_eq (dK e) (Cert.ReferenceIdeal.RefRun.disRows (F := Ideal) e) (hd e)
  have E2 := fun h => Cert.Gcn.Bridge.lin2_eq (dK e) (Cert.ReferenceIdeal.RefRun.disRows (F := Ideal) e) (hd e) h (wtK w2) (brK b2) w2 b2
    (fun k o => Cert.Gcn.Glue.wt_apply w2 _ _ k o) (fun o => Cert.Gcn.Glue.br_apply b2 _ o)
    (Cert.ReferenceIdeal.RefRun.lin2 (F := Ideal) h w2 b2) (Cert.ReferenceIdeal.RefRead.lin2_apply h w2 b2)
  have E1 := fun a => Cert.Gcn.Bridge.leaky_eq (dK e) (Cert.ReferenceIdeal.RefRun.disRows (F := Ideal) e) (hd e) a
    (Cert.ReferenceIdeal.RefRun.lrelu (F := Ideal)) (fun h n o => Cert.ReferenceIdeal.RefRead.lrelu_apply h n o)
  have E0 := Cert.Gcn.Bridge.lin1_eq (dK e) (Cert.ReferenceIdeal.RefRun.disRows (F := Ideal) e) (hd e) x (wtK w1) (brK b1) w1 b1
    (fun k o => Cert.Gcn.Glue.wt_apply w1 _ _ k o) (fun o => Cert.Gcn.Glue.br_apply b1 _ o) hx hw1 hb1
    (Cert.ReferenceIdeal.RefRun.lin1 (F := Ideal) x w1 b1) (Cert.ReferenceIdeal.RefRead.lin1_apply x w1 b1)
  rw [E3, E2, E1, E0]
  rfl

end Cert.Gcn.Final

end
-- ==== Proof.lean ====
/-
  A two-layer graph convolution: the tiled program against the plain one.

  Both programs augment the edge list with one self loop per node, count each node's degree by a scatter-add of ones,
  take `dis = deg ^ (-1/2)`, and apply twice the propagation "scale the rows by `dis`, gather the rows named by the edge
  sources, scatter-add them at the edge targets, scale the rows by `dis` again" — first to the mean over the pooled
  axis of a linear map of the features, then, after a leaky rectifier, to a second linear map. The tiled program does
  the dense steps block of rows by block of rows (fifty blocks of 1000 rows for the first step, ten blocks of 5000 rows
  for the others) and leaves the gather and the scatter to the host.

  On the extended reals the two results are equal, entry by entry, when the features and the first layer's weights and
  bias are finite:
  * each dense step's blocks tile the rows and every block is the same function of the rows it reads, so a step leaves
    one whole-array function of what it found (`Reg0` … `Reg3`), and the four steps chain through the host's
    operations between them (`KVal`);
  * the tiled program guards `dis` by `deg > 0`, which every degree satisfies (its self loop);
  * it takes the pooled mean before the first linear map where the plain program takes it after: equal for finite
    entries, which is where the precondition is used;
  * its rectifier keeps `v` where `v > 0`, the plain one where `v ≥ 0`: the slope times zero is zero;
  * narrowing a matrix product's operands changes nothing on the extended reals.
  The gather, the scatter-add and the index arithmetic are the same operations on both sides and are never opened.

  The three frames: the two tiled programs' are the generated frame certificates; the plain program's is its run
  (`RefRun`) with the result forgotten. The idealization rewrote nothing, so `preserves` is `True`.
-/
import proofs.«165257_j88897233092952_2_alg».proof.Defs
import proofs.«165257_j88897233092952_2_alg».proof.Proof.Gen.Kernel
import proofs.«165257_j88897233092952_2_alg».proof.Proof.Gen.Kernel.Skeleton
import proofs.«165257_j88897233092952_2_alg».proof.Proof.Gen.Kernel.Launch
import proofs.«165257_j88897233092952_2_alg».proof.Proof.Gen.Kernel.Points
import proofs.«165257_j88897233092952_2_alg».proof.Proof.Gen.Kernel.Frame
import proofs.«165257_j88897233092952_2_alg».proof.Proof.Gen.KernelIdeal
import proofs.«165257_j88897233092952_2_alg».proof.Proof.Gen.KernelIdeal.Skeleton
import proofs.«165257_j88897233092952_2_alg».proof.Proof.Gen.KernelIdeal.Launch
import proofs.«165257_j88897233092952_2_alg».proof.Proof.Gen.KernelIdeal.Points
import proofs.«165257_j88897233092952_2_alg».proof.Proof.Gen.KernelIdeal.Frame
import proofs.«165257_j88897233092952_2_alg».proof.Proof.Gen.ReferenceIdeal
import proofs.«165257_j88897233092952_2_alg».proof.Proof.Gen.Pre_finite_inputs
import proofs.«165257_j88897233092952_2_alg».proof.Proof.KVal
import proofs.«165257_j88897233092952_2_alg».proof.Proof.RefRun
import proofs.«165257_j88897233092952_2_alg».proof.Proof.Finite
import proofs.«165257_j88897233092952_2_alg».proof.Proof.Final
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The plain program's frame is its run with the result forgotten. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end with the plain program's term of the six arguments in their result arrays: the tiled program's
    chained stages equal it for finite inputs (`Final.kernel_eq_ref`), and the plain program's run computes it of
    arguments that agree. -/
theorem algebraic : Cert.algebraic_KernelIdeal_ReferenceIdeal := by
  intro m ρ m' ρ' hpre hagree
  refine ⟨fun c => Cert.ReferenceIdeal.RefRun.refTerm (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (Cert.KernelIdeal.KVal.run m ρ)
    obtain ⟨hx, hw1, hb1⟩ := Cert.Gcn.Finite.of_pre _ _ _ _ _ _ (hpre c)
    exact Cert.Gcn.Final.kernel_eq_ref _ _ _ _ _ _ hx hw1 hb1
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
